-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x4096x1024 .f32) (main_arg1 : FVec F S1024x1024 .f32) (main_arg2 : FVec F S1024x1024 .f32) (main_arg3 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x4096x1024 : Shape := ⟨3, ![4, 4096, 1024]⟩
abbrev S1024x1024 : Shape := ⟨2, ![1024, 1024]⟩
abbrev S_ : Shape := ⟨0, ![]⟩
abbrev S1x2048x1024 : Shape := ⟨3, ![1, 2048, 1024]⟩
abbrev S2048x1024 : Shape := ⟨2, ![2048, 1024]⟩
abbrev S1x512x1024 : Shape := ⟨3, ![1, 512, 1024]⟩
abbrev S2048x1 : Shape := ⟨2, ![2048, 1]⟩
abbrev S512x1024 : Shape := ⟨2, ![512, 1024]⟩
abbrev S2048x512 : Shape := ⟨2, ![2048, 512]⟩
abbrev S2048 : Shape := ⟨1, ![2048]⟩

abbrev nBuf : Space → Nat
  | .hbm => 17
  | .vmem => 21
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x4096x1024, .bf16⟩
  | .hbm, ⟨5, _⟩ => ⟨S1024x1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S4x4096x1024, .bf16⟩
  | .hbm, ⟨15, _⟩ => ⟨S4x4096x1024, .bf16⟩
  | .hbm, ⟨16, _⟩ => ⟨S4x4096x1024, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1024x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x2048x1024, .f32⟩
  | .local _ .vmem, ⟨16, _⟩ => ⟨S1x2048x1024, .f32⟩
  | .local _ .vmem, ⟨17, _⟩ => ⟨S2048x1024, .bf16⟩
  | .local _ .vmem, ⟨18, _⟩ => ⟨S2048x1, .f32⟩
  | .local _ .vmem, ⟨19, _⟩ => ⟨S2048x1, .f32⟩
  | .local _ .vmem, ⟨20, _⟩ => ⟨S2048x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc1_scratch3 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![4, 2, 8], ![false, false, false]⟩

def k1_cond2 (i : grid1.Coords) : BitVec 1 :=
  let arg2 : BitVec 32 := BitVec.ofNat 32 (i 2).val
  let c7_i32 : BitVec 32 := 7#32
  let v38 : BitVec 1 := Scalar.cmpi .eq arg2 c7_i32
  let v39 : BitVec 32 := Scalar.extui v38
  let c0_i32_23 : BitVec 32 := 0#32
  let v40 : BitVec 1 := Scalar.cmpi .ne v39 c0_i32_23
  v40

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 2 → Memref sig .tc .vmem S1x2048x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  bitsLt_bf16_f32 : FTy.bits .bf16 < FTy.bits .f32
  transposes_S1024x1024_S1024x1024_1_0 : S1024x1024.Transposes [1, 0] S1024x1024
  bcast_S_S1024x1024 : S_.BroadcastsInDim S1024x1024 (![] : Fin 0 → Fin S1024x1024.rank)
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S2048x1024_S1x2048x1024 : S2048x1024.ShapeCasts S1x2048x1024
  packedbf16_S1x2048x1024_S1x2048x1024_0_0_0 : (Rect.unit (s := S1x2048x1024) ![0, 0, 0] S1x2048x1024.size inb_S1x2048x1024_S1x2048x1024_0_0_0).PackedRows (EltTy.packing .bf16)
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S2048x512_S2048 : S2048x512.Reduces [1] S2048
  shapeCasts_S2048_S2048x1 : S2048.ShapeCasts S2048x1
  broadcasts_S2048x1_S2048x512 : S2048x1.Broadcasts S2048x512
  broadcasts_S2048x1_S2048x1024 : S2048x1.Broadcasts S2048x1024
  dot_S2048x1024_S1024x1024_S2048x1024_1_0_0_1_n_n_wf : DotDims.WF S2048x1024 S1024x1024 S2048x1024 [1] [0] [0] [1] [] []
  dot_S2048x1024_S512x1024_S2048x512_1_1_0_0_n_n_wf : DotDims.WF S2048x1024 S512x1024 S2048x512 [1] [1] [0] [0] [] []
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x4096x1024.size a
  hwx0_0 : ∀ i : grid0.Coords, EltTy.bits .bf16 = 32 ∨ (Rect.block (s := S4x4096x1024) S1x2048x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1024.size a ≤ S4x4096x1024.size a
  hwx0_3 : ∀ i : grid0.Coords, EltTy.bits .bf16 = 32 ∨ (Rect.block (s := S4x4096x1024) S1x2048x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x1024.size a ≤ S4x4096x1024.size a
  hwx0_4 : ∀ i : grid0.Coords, EltTy.bits .bf16 = 32 ∨ (Rect.block (s := S4x4096x1024) S1x2048x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x1024.size a ≤ S4x4096x1024.size a
  hwx1_0 : ∀ i : grid1.Coords, EltTy.bits .bf16 = 32 ∨ (Rect.block (s := S4x4096x1024) S1x2048x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S4x4096x1024.size a
  hwx1_2 : ∀ i : grid1.Coords, EltTy.bits .bf16 = 32 ∨ (Rect.block (s := S4x4096x1024) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S4x4096x1024.size a
  hwx1_3 : ∀ i : grid1.Coords, EltTy.bits .bf16 = 32 ∨ (Rect.block (s := S4x4096x1024) S1x512x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048x1024.size a ≤ S4x4096x1024.size a
  hwx1_4 : ∀ i : grid1.Coords, EltTy.bits .f32 = 32 ∨ (Rect.block (s := S4x4096x1024) S1x2048x1024.size (cc1_transform_4 i) (hinb1_4 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S2048x1024_S512x1024_S2048x512_1_1_0_0_n_n : DotDims S2048x1024 S512x1024 S2048x512 where
  lhsContracting := [1]
  rhsContracting := [1]
  lhsNonContracting := [0]
  rhsNonContracting := [0]
  lhsBatch := []
  rhsBatch := []
  wf := dot_S2048x1024_S512x1024_S2048x512_1_1_0_0_n_n_wf
def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_v0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9_0) S1x2048x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9_1) S1x2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0) S1x2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9_0) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9_1) S1x512x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x2048x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x4096x1024, .f32⟩
  | .hbm, ⟨5, _⟩ => ⟨S4x4096x1024, .f32⟩
  | .hbm, ⟨6, _⟩ => ⟨S4x4096x1024, .f32⟩
  | .hbm, ⟨7, _⟩ => ⟨S4x4096x4096, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S_, .f32⟩
  | .hbm, ⟨12, _⟩ => ⟨S4x4096, .f32⟩
  | .hbm, ⟨13, _⟩ => ⟨S_, .f32⟩
  | .hbm, ⟨14, _⟩ => ⟨S4x4096, .f32⟩
  | .hbm, ⟨15, _⟩ => ⟨S4x4096, .f32⟩
  | .hbm, ⟨16, _⟩ => ⟨S4x4096x1, .f32⟩
  | .hbm, ⟨17, _⟩ => ⟨S4x4096x4096, .f32⟩
  | .hbm, ⟨18, _⟩ => ⟨S4x4096x4096, .f32⟩
  | .hbm, ⟨19, _⟩ => ⟨S4x4096x4096, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S4x4096x4096, .f32⟩
  | .hbm, ⟨24, _⟩ => ⟨S4x4096x4096, .f32⟩
  | .hbm, ⟨25, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S1024x1024_S4x4096x1024_2_1_01_0_n_n_wf : DotDims.WF S4x4096x1024 S1024x1024 S4x4096x1024 [2] [1] [0, 1] [0] [] []
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf
def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf

class Facts : Prop extends Facts₀ where

variable [Facts]
-- ==== Proof.BRuns1.lean ====
/-
  The attention call, what its three control cases share: each window's block at a grid point, the two conditions of
  the body (first key tile of a query tile; last key tile) in closed form over the 64 grid points, where the output
  window is idle, and the four scratch buffers the body carries from one key tile to the next (the projected queries,
  the running maximum, the running normaliser, the running weighted sum).
-/
import proofs.«101180_j55310588838086_2_alg».proof.Proof.Gen.Kernel.Launch
import proofs.«101180_j55310588838086_2_alg».proof.Proof.Gen.Kernel.Skeleton
import proofs.«101180_j55310588838086_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

-- the buffers' contents when the call is entered
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or kept from the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two conditions -/

/-- The first key tile of a query tile: the third grid coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The last key tile of a query tile: the third grid coordinate is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from a query tile's last key tile the output window is idle: nothing is stored into it and it is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last key tile it is live. -/
theorem liveAt1_4 : ∀ t : Fin cfg1.N, cond1_1 (grid1.coords t) → cfg1.idle 4 (grid1.coords t) = false := by decide +kernel

/-! ## The staging and scratch buffers -/

/-- One staging buffer of the output window, through which its contents are stated. -/
abbrev VO1_4 : View sig .tc .vmem S1x2048x1024 .f32 := (Memref.whole cc1_stg4_0 : Memref sig .tc .vmem S1x2048x1024 .f32).view
abbrev ms1_0 (t : Fin cfg1.N) : Memref sig .tc .vmem S1x2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x2048x1024 .f32 := win1_4.stage (cfg1.slots t 4)
abbrev hs1_4 (t : Fin cfg1.N) : (ms1_4 t).IsWhole := hstage1_4 ((cfg1.slots t 4).cast nbuf1_4)
/-- The scratch buffers: the projected queries, the running maximum, the running normaliser, the running weighted sum. -/
abbrev scM1_0 : Memref sig .tc .vmem S2048x1024 .bf16 := Memref.whole cc1_scratch0
abbrev scM1_1 : Memref sig .tc .vmem S2048x1 .f32 := Memref.whole cc1_scratch1
abbrev scM1_2 : Memref sig .tc .vmem S2048x1 .f32 := Memref.whole cc1_scratch2
abbrev scM1_3 : Memref sig .tc .vmem S2048x1024 .f32 := Memref.whole cc1_scratch3
abbrev VS1_0 : View sig .tc .vmem S2048x1024 .bf16 := scM1_0.view
abbrev VS1_1 : View sig .tc .vmem S2048x1 .f32 := scM1_1.view
abbrev VS1_2 : View sig .tc .vmem S2048x1 .f32 := scM1_2.view
abbrev VS1_3 : View sig .tc .vmem S2048x1024 .f32 := scM1_3.view

/-- The other call's eight staging buffers, each at some contents: they ride through this call untouched. -/
def stg8 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- The call's invariant at its start: the other call's staging buffers and the four scratch buffers at some
    contents, and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1_0 fullShare d) ∗ (∃ d, owns (c : Thread nD τ) scM1_1 fullShare d)
          ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

end Cert.Kernel.Run

end
-- ==== Proof.BRun1A.lean ====
/-
  The attention call's body at the first key tile of a query tile: it projects the tile of queries into the first
  scratch buffer, resets the running maximum to −∞ and the running normaliser and weighted sum to zero, then takes the
  first streaming step; nothing is stored into the output buffer. Found here: the pieces each scratch buffer ends with.
-/
import proofs.«101180_j55310588838086_2_alg».proof.Proof.BRuns1

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at such a point, on whole buffers: the four inputs at their contents, the output buffer handed back
    untouched, every scratch buffer at anything before and at its written pieces after. -/
noncomputable def kernelRun1_A (c : Dev nD) (i : grid1.Coords) (arg3 : Memref sig .tc .vmem S1x2048x1024 .bf16) (harg3 : arg3.IsWhole) (arg4 : Memref sig .tc .vmem S1024x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x2048x1024 .f32) (harg7 : arg7.IsWhole) (arg8 : Memref sig .tc .vmem S2048x1024 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1024 .f32) (harg11 : arg11.IsWhole) (hc0 : cond1_0 i) (hc1 : ¬cond1_1 i)
    (x0 : Vec F S1x2048x1024 .bf16) (x1 : Vec F S1024x1024 .bf16) (x2 x3 : Vec F S1x512x1024 .bf16) :
    Σ' (L4 : List (View.Piece (Elt F) S1x2048x1024 .f32)) (LS0 : List (View.Piece (Elt F) S2048x1024 .bf16)) (LS1 : List (View.Piece (Elt F) S2048x1 .f32)) (LS2 : List (View.Piece (Elt F) S2048x1 .f32)),
      { LS3 : List (View.Piece (Elt F) S2048x1024 .f32) //
      ∀ (xi4 : Vec F S1x2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11) K } := by
  refine ⟨[], ?_, ?_, ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; iexact HS3

end Cert.Kernel.Run

end
-- ==== Proof.BRun1B.lean ====
/-
  The attention call's body at a key tile that is neither first nor last: one more streaming step from the state the
  tile before left; nothing is stored into the output buffer. The projected queries are only read.
  Found here: the pieces each buffer it stores into ends with.
-/
import proofs.«101180_j55310588838086_2_alg».proof.Proof.BRun1A

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S1x2048x1024 .bf16) (harg3 : arg3.IsWhole) (arg4 : Memref sig .tc .vmem S1024x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x2048x1024 .f32) (harg7 : arg7.IsWhole) (arg8 : Memref sig .tc .vmem S2048x1024 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1024 .f32) (harg11 : arg11.IsWhole) (hc0 : ¬cond1_0 i) (hc1 : ¬cond1_1 i)
    (x0 : Vec F S1x2048x1024 .bf16) (x1 : Vec F S1024x1024 .bf16) (x2 x3 : Vec F S1x512x1024 .bf16)
    (xs0 : Vec F S2048x1024 .bf16) (xs1 xs2 : Vec F S2048x1 .f32) (xs3 : Vec F S2048x1024 .f32) :
    Σ' (L4 : List (View.Piece (Elt F) S1x2048x1024 .f32)) (LS1 : List (View.Piece (Elt F) S2048x1 .f32)) (LS2 : List (View.Piece (Elt F) S2048x1 .f32)),
      { LS3 : List (View.Piece (Elt F) S2048x1024 .f32) //
      ∀ (xi4 : Vec F S1x2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ owns (c : Thread nD τ) arg8 fullShare xs0 ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11) K } := by
  refine ⟨[], ?_, ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]
    · iexists _; isplitr; · ipureintro; exact harg8.read_unread _
      iexact HS0
    isplitl [HS1]; · iexists _; iexact HS1
    isplitl [HS2]; · iexists _; iexact HS2
    iexists _; iexact HS3

end Cert.Kernel.Run

end
-- ==== Proof.BRun1C.lean ====
/-
  The attention call's body at the last key tile of a query tile: one more streaming step from the state the tile before left, then the
  weighted sum over the normaliser stored into the output buffer. The projected queries are only read.
  Found here: the pieces each buffer it stores into ends with.
-/
import proofs.«101180_j55310588838086_2_alg».proof.Proof.BRun1B

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S1x2048x1024 .bf16) (harg3 : arg3.IsWhole) (arg4 : Memref sig .tc .vmem S1024x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x2048x1024 .f32) (harg7 : arg7.IsWhole) (arg8 : Memref sig .tc .vmem S2048x1024 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1024 .f32) (harg11 : arg11.IsWhole) (hc0 : ¬cond1_0 i) (hc1 : cond1_1 i)
    (x0 : Vec F S1x2048x1024 .bf16) (x1 : Vec F S1024x1024 .bf16) (x2 x3 : Vec F S1x512x1024 .bf16)
    (xs0 : Vec F S2048x1024 .bf16) (xs1 xs2 : Vec F S2048x1 .f32) (xs3 : Vec F S2048x1024 .f32) :
    Σ' (L4 : List (View.Piece (Elt F) S1x2048x1024 .f32)) (LS1 : List (View.Piece (Elt F) S2048x1 .f32)) (LS2 : List (View.Piece (Elt F) S2048x1 .f32)),
      { LS3 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)
                ∗ owns (c : Thread nD τ) arg8 fullShare xs0 ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; iexact H4
    isplitl [HS0]
    · iexists _; isplitr; · ipureintro; exact harg8.read_unread _
      iexact HS0
    isplitl [HS1]; · iexists _; iexact HS1
    isplitl [HS2]; · iexists _; iexact HS2
    iexists _; iexact HS3

end Cert.Kernel.Run

end
-- ==== Proof.BFrame1.lean ====
/-
  The attention call point by point: what its output buffer and its four scratch buffers hold after each grid point
  (by recursion on the point: the first key tile of a query tile starts a fresh streaming state, every later one
  continues the state the point before left, the last one also stores the output), the call's invariant carrying that
  state from point to point, its proof data and the per-point obligation.
-/
import proofs.«101180_j55310588838086_2_alg».proof.Proof.BRun1C

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output buffer and the four scratch buffers after a point. -/
structure St1 (F : FTy → Type) [FloatOps F] where
  out : Vec F S1x2048x1024 .f32
  q : Vec F S2048x1024 .bf16
  m : Vec F S2048x1 .f32
  l : Vec F S2048x1 .f32
  acc : Vec F S2048x1024 .f32

section Region1

variable (V : (c : Dev nD) → (b : Ref sig .tc) → Buf (Elt F) ((c : Thread nD τ).loc b))

/-- After the first key tile of a query tile: the scratch buffers at the pieces that case wrote (the output buffer a placeholder nothing reads). -/
def caseA (c : Dev nD) (t : Fin cfg1.N) (hc0 : cond1_0 (grid1.coords t)) (hc1 : ¬cond1_1 (grid1.coords t)) : St1 F :=
  ⟨VO1_4.read (Elt F) (VO1_4.writes (Elt F) VO1_4.junk (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t)).1),
   VS1_0.read (Elt F) (VS1_0.writes (Elt F) VS1_0.junk (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t)).2.1),
   VS1_1.read (Elt F) (VS1_1.writes (Elt F) VS1_1.junk (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t)).2.2.1),
   VS1_2.read (Elt F) (VS1_2.writes (Elt F) VS1_2.junk (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t)).2.2.2.1),
   VS1_3.read (Elt F) (VS1_3.writes (Elt F) VS1_3.junk (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t)).2.2.2.2.1)⟩

/-- After a middle key tile, from the state `p` the point before left: the queries kept, the three running quantities at the pieces written. -/
def caseB (c : Dev nD) (t : Fin cfg1.N) (hc0 : ¬cond1_0 (grid1.coords t)) (hc1 : ¬cond1_1 (grid1.coords t)) (p : St1 F) : St1 F :=
  ⟨VO1_4.read (Elt F) (VO1_4.writes (Elt F) VO1_4.junk (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.q p.m p.l p.acc).1),
   p.q,
   VS1_1.read (Elt F) (VS1_1.writes (Elt F) VS1_1.junk (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.q p.m p.l p.acc).2.1),
   VS1_2.read (Elt F) (VS1_2.writes (Elt F) VS1_2.junk (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.q p.m p.l p.acc).2.2.1),
   VS1_3.read (Elt F) (VS1_3.writes (Elt F) VS1_3.junk (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.q p.m p.l p.acc).2.2.2.1)⟩

/-- After the last key tile: as a middle one, and the output buffer at the pieces written. -/
def caseC (c : Dev nD) (t : Fin cfg1.N) (hc0 : ¬cond1_0 (grid1.coords t)) (hc1 : cond1_1 (grid1.coords t)) (p : St1 F) : St1 F :=
  ⟨VO1_4.read (Elt F) (VO1_4.writes (Elt F) VO1_4.junk (kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.q p.m p.l p.acc).1),
   p.q,
   VS1_1.read (Elt F) (VS1_1.writes (Elt F) VS1_1.junk (kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.q p.m p.l p.acc).2.1),
   VS1_2.read (Elt F) (VS1_2.writes (Elt F) VS1_2.junk (kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.q p.m p.l p.acc).2.2.1),
   VS1_3.read (Elt F) (VS1_3.writes (Elt F) VS1_3.junk (kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.q p.m p.l p.acc).2.2.2.1)⟩

/-! ## The written pieces cover their buffers -/

theorem scoverA_0 (c : Dev nD) (t : Fin cfg1.N) (hc0) (hc1) (y : S2048x1024.Idx) :
    ∃ pc ∈ (kernelRun1_A (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t)).2.1, y ∈ pc.1.set :=
  View.cover_of_tiledL _ S2048x1024.size (by sl_kernel_rfl) y
theorem scoverA_1 (c : Dev nD) (t : Fin cfg1.N) (hc0) (hc1) (y : S2048x1.Idx) :
    ∃ pc ∈ (kernelRun1_A (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t)).2.2.1, y ∈ pc.1.set :=
  View.cover_of_tiledL _ S2048x1.size (by sl_kernel_rfl) y
theorem scoverA_2 (c : Dev nD) (t : Fin cfg1.N) (hc0) (hc1) (y : S2048x1.Idx) :
    ∃ pc ∈ (kernelRun1_A (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t)).2.2.2.1, y ∈ pc.1.set :=
  View.cover_of_tiledL _ S2048x1.size (by sl_kernel_rfl) y
theorem scoverA_3 (c : Dev nD) (t : Fin cfg1.N) (hc0) (hc1) (y : S2048x1024.Idx) :
    ∃ pc ∈ (kernelRun1_A (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t)).2.2.2.2.1, y ∈ pc.1.set :=
  View.cover_of_tiledL _ S2048x1024.size (by sl_kernel_rfl) y

theorem scoverB_1 (c : Dev nD) (t : Fin cfg1.N) (hc0) (hc1) (p : St1 F) (y : S2048x1.Idx) :
    ∃ pc ∈ (kernelRun1_B (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.q p.m p.l p.acc).2.1, y ∈ pc.1.set :=
  View.cover_of_tiledL _ S2048x1.size (by sl_kernel_rfl) y
theorem scoverB_2 (c : Dev nD) (t : Fin cfg1.N) (hc0) (hc1) (p : St1 F) (y : S2048x1.Idx) :
    ∃ pc ∈ (kernelRun1_B (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.q p.m p.l p.acc).2.2.1, y ∈ pc.1.set :=
  View.cover_of_tiledL _ S2048x1.size (by sl_kernel_rfl) y
theorem scoverB_3 (c : Dev nD) (t : Fin cfg1.N) (hc0) (hc1) (p : St1 F) (y : S2048x1024.Idx) :
    ∃ pc ∈ (kernelRun1_B (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.q p.m p.l p.acc).2.2.2.1, y ∈ pc.1.set :=
  View.cover_of_tiledL _ S2048x1024.size (by sl_kernel_rfl) y

theorem coverC_4 (c : Dev nD) (t : Fin cfg1.N) (hc0) (hc1) (p : St1 F) (y : S1x2048x1024.Idx) :
    ∃ pc ∈ (kernelRun1_C (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.q p.m p.l p.acc).1, y ∈ pc.1.set :=
  View.cover_of_tiledL _ S1x2048x1024.size (by sl_kernel_rfl) y
theorem scoverC_1 (c : Dev nD) (t : Fin cfg1.N) (hc0) (hc1) (p : St1 F) (y : S2048x1.Idx) :
    ∃ pc ∈ (kernelRun1_C (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.q p.m p.l p.acc).2.1, y ∈ pc.1.set :=
  View.cover_of_tiledL _ S2048x1.size (by sl_kernel_rfl) y
theorem scoverC_2 (c : Dev nD) (t : Fin cfg1.N) (hc0) (hc1) (p : St1 F) (y : S2048x1.Idx) :
    ∃ pc ∈ (kernelRun1_C (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.q p.m p.l p.acc).2.2.1, y ∈ pc.1.set :=
  View.cover_of_tiledL _ S2048x1.size (by sl_kernel_rfl) y
theorem scoverC_3 (c : Dev nD) (t : Fin cfg1.N) (hc0) (hc1) (p : St1 F) (y : S2048x1024.Idx) :
    ∃ pc ∈ (kernelRun1_C (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.q p.m p.l p.acc).2.2.2.1, y ∈ pc.1.set :=
  View.cover_of_tiledL _ S2048x1024.size (by sl_kernel_rfl) y

/-! ## The state after each point -/

theorem notLast_of_first (t : Fin cfg1.N) (h0 : t.val % 8 = 0) : ¬cond1_1 (grid1.coords t) :=
  fun h => by have := (hcond1_1 t).mp h; omega

/-- The buffers after the body at position `n`. -/
def outsAt1 (c : Dev nD) : (n : ℕ) → n < cfg1.N → St1 F
  | 0, hn => caseA V c ⟨0, hn⟩ ((hcond1_0 ⟨0, hn⟩).mpr (Nat.zero_mod _)) (notLast_of_first ⟨0, hn⟩ (Nat.zero_mod _))
  | n + 1, hn =>
    if h0 : (n + 1) % 8 = 0 then
      caseA V c ⟨n + 1, hn⟩ ((hcond1_0 ⟨n + 1, hn⟩).mpr h0) (notLast_of_first ⟨n + 1, hn⟩ h0)
    else if h1 : (n + 1) % 8 = 7 then
      caseC V c ⟨n + 1, hn⟩ (fun h => h0 ((hcond1_0 ⟨n + 1, hn⟩).mp h)) ((hcond1_1 ⟨n + 1, hn⟩).mpr h1) (outsAt1 c n (Nat.lt_of_succ_lt hn))
    else
      caseB V c ⟨n + 1, hn⟩ (fun h => h0 ((hcond1_0 ⟨n + 1, hn⟩).mp h)) (fun h => h1 ((hcond1_1 ⟨n + 1, hn⟩).mp h)) (outsAt1 c n (Nat.lt_of_succ_lt hn))

theorem outsAt1_A (c : Dev nD) (t : Fin cfg1.N) (h0 : t.val % 8 = 0) :
    outsAt1 V c t.val t.isLt = caseA V c t ((hcond1_0 t).mpr h0) (notLast_of_first t h0) := by
  obtain ⟨n, hn⟩ := t
  cases n with
  | zero => exact rfl
  | succ n => exact (dif_pos h0).trans rfl

theorem outsAt1_B (c : Dev nD) (t : Fin cfg1.N) (h0 : ¬t.val % 8 = 0) (h1 : ¬t.val % 8 = 7) :
    outsAt1 V c t.val t.isLt = caseB V c t (fun h => h0 ((hcond1_0 t).mp h)) (fun h => h1 ((hcond1_1 t).mp h))
      (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = caseC V c t (fun h => h0 ((hcond1_0 t).mp h)) ((hcond1_1 t).mpr h1)
      (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The scratch buffers at a state. -/
def scr (c : Dev nD) (p : St1 F) : sProp 𝕄 :=
  iprop(owns (c : Thread nD τ) scM1_0 fullShare p.q ∗ owns (c : Thread nD τ) scM1_1 fullShare p.m
    ∗ owns (c : Thread nD τ) scM1_2 fullShare p.l ∗ owns (c : Thread nD τ) scM1_3 fullShare p.acc)

/-- The call's invariant before position `n`: at the start every scratch buffer at anything; afterwards the scratch
    buffers at the state the point before left, beside the other call's staging buffers and the generator register. -/
def PhiS (c : Dev nD) : (n : ℕ) → n ≤ cfg1.N → sProp 𝕄
  | 0, _ => Pipeline.ΦA spec1 c
  | n + 1, hn => iprop(stg8 (F := F) c ∗ scr c (outsAt1 V c n hn) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(stg8 (F := F) c ∗ scr c (outsAt1 V c n hn) ∗ (∃ r, prngReg c r)) := rfl
theorem PhiS_pos (c : Dev nD) (n : ℕ) (h : n ≤ cfg1.N) (hz : n ≠ 0) :
    PhiS V c n h = iprop(stg8 (F := F) c ∗ scr c (outsAt1 V c (n - 1) (by omega)) ∗ (∃ r, prngReg c r)) := by
  cases n with
  | zero => exact absurd rfl hz
  | succ n => rfl

/-- The proof data of the call on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).out
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).out := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

theorem leaves_in (c : Dev nD) (t : Fin cfg1.N) :
    (dat1 V c).leavesExact 0 t = owns (c : Thread nD τ) (ms1_0 t) fullShare (iblk1 V c 0 t)
    ∧ (dat1 V c).leavesExact 1 t = owns (c : Thread nD τ) (ms1_1 t) fullShare (iblk1 V c 1 t)
    ∧ (dat1 V c).leavesExact 2 t = owns (c : Thread nD τ) (ms1_2 t) fullShare (iblk1 V c 2 t)
    ∧ (dat1 V c).leavesExact 3 t = owns (c : Thread nD τ) (ms1_3 t) fullShare (iblk1 V c 3 t) := by
  refine ⟨?_, ?_, ?_, ?_⟩
  · unfold Dat.leavesExact; rw [liveAt1_0 t, after1_0]
  · unfold Dat.leavesExact; rw [liveAt1_1 t, after1_1]
  · unfold Dat.leavesExact; rw [liveAt1_2 t, after1_2]
  · unfold Dat.leavesExact; rw [liveAt1_3 t, after1_3]

end Region1

end Cert.Kernel.Run

end
-- ==== Proof.BBody1.lean ====
/-
  The attention call's per-point obligation: the grid point's position among its query tile's key tiles says which
  of the three cases the body is in; the invariant hands the body the scratch buffers at the state the point before
  left (at anything at the very first point) and takes them back at this point's state.
-/
import proofs.«101180_j55310588838086_2_alg».proof.Proof.BFrame1

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  obtain ⟨hl0, hl1, hl2, hl3⟩ := leaves_in V c t
  rw [hl0, hl1, hl2, hl3]
  have hN : t.val < 64 := lt_of_lt_of_eq t.isLt (show cfg1.N = 64 from N_1)
  by_cases h0 : t.val % 8 = 0
  · have hc1 : ¬cond1_1 (grid1.coords t) := notLast_of_first t h0
    rw [Dat.leavesExact_idle (dat1 V c) 4 t (idleAt1_4 t hc1) (noFlush1_4 t hc1)]
    rw [outsAt1_A V c t h0]
    by_cases hz : t.val = 0
    · rw [PhiS_castSucc V c t, PhiS_zero V c _ _ hz, PhiA1_eq]
      unfold scr caseA; (try dsimp only)
      iintro ⟨⟨⟨G0, G1, G2, G3, G4, G5, G6, G7, HS0, HS1, HS2, HS3⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ _ _ _ _ ((hcond1_0 t).mpr h0) hc1 (iblk1 V c 0 t) (iblk1 V c 1 t) (iblk1 V c 2 t) (iblk1 V c 3 t)).2.2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, ⟨%es3, HS3⟩⟩
      isplitl [G0 G1 G2 G3 G4 G5 G6 G7 HS0 HS1 HS2 HS3 Hg]
      · isplitl [G0 G1 G2 G3 G4 G5 G6 G7]
        · unfold stg8
          isplitl [G0]; · iexact G0
          isplitl [G1]; · iexact G1
          isplitl [G2]; · iexact G2
          isplitl [G3]; · iexact G3
          isplitl [G4]; · iexact G4
          isplitl [G5]; · iexact G5
          isplitl [G6]; · iexact G6
          iexact G7
        isplitl [HS0 HS1 HS2 HS3]
        · isplitl [HS0]
          · unfold owns; iexists _; isplitr
            swap; · iexact HS0
            ipureintro; exact View.read_writes_of_cover _ _ _ _ _ (scoverA_0 V c t _ _)
          isplitl [HS1]
          · unfold owns; iexists _; isplitr
            swap; · iexact HS1
            ipureintro; exact View.read_writes_of_cover _ _ _ _ _ (scoverA_1 V c t _ _)
          isplitl [HS2]
          · unfold owns; iexists _; isplitr
            swap; · iexact HS2
            ipureintro; exact View.read_writes_of_cover _ _ _ _ _ (scoverA_2 V c t _ _)
          · unfold owns; iexists _; isplitr
            swap; · iexact HS3
            ipureintro; exact View.read_writes_of_cover _ _ _ _ _ (scoverA_3 V c t _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      unfold scr caseA; (try dsimp only)
      iintro ⟨⟨G, ⟨HS0, HS1, HS2, HS3⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ _ _ _ _ ((hcond1_0 t).mpr h0) hc1 (iblk1 V c 0 t) (iblk1 V c 1 t) (iblk1 V c 2 t) (iblk1 V c 3 t)).2.2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      isplitl [HS3]; · iexists _; iexact HS3
      iintro ⟨H0, H1, H2, H3, H4, ⟨%es0, HS0⟩, ⟨%es1, HS1⟩, ⟨%es2, HS2⟩, ⟨%es3, HS3⟩⟩
      isplitl [G HS0 HS1 HS2 HS3 Hg]
      · isplitl [G]; · iexact G
        isplitl [HS0 HS1 HS2 HS3]
        · isplitl [HS0]
          · unfold owns; iexists _; isplitr
            swap; · iexact HS0
            ipureintro; exact View.read_writes_of_cover _ _ _ _ _ (scoverA_0 V c t _ _)
          isplitl [HS1]
          · unfold owns; iexists _; isplitr
            swap; · iexact HS1
            ipureintro; exact View.read_writes_of_cover _ _ _ _ _ (scoverA_1 V c t _ _)
          isplitl [HS2]
          · unfold owns; iexists _; isplitr
            swap; · iexact HS2
            ipureintro; exact View.read_writes_of_cover _ _ _ _ _ (scoverA_2 V c t _ _)
          · unfold owns; iexists _; isplitr
            swap; · iexact HS3
            ipureintro; exact View.read_writes_of_cover _ _ _ _ _ (scoverA_3 V c t _ _)
        iexact Hg
      isplitl [Ho]; · iexact Ho
      isplitl [H0]; · iexact H0
      isplitl [H1]; · iexact H1
      isplitl [H2]; · iexact H2
      isplitl [H3]; · iexact H3
      iexists _; iexact H4
  · have hc0 : ¬cond1_0 (grid1.coords t) := fun h => h0 ((hcond1_0 t).mp h)
    have hz : t.val ≠ 0 := fun e => h0 (by rw [e])
    by_cases h1 : t.val % 8 = 7
    · have hc1 : cond1_1 (grid1.coords t) := (hcond1_1 t).mpr h1
      rw [show (dat1 V c).leavesExact 4 t = owns (c : Thread nD τ) (ms1_4 t) fullShare ((dat1 V c).after 4 t) from by
        unfold Dat.leavesExact; rw [liveAt1_4 t hc1], after1_4]
      rw [outsAt1_C V c t h0 h1]
      rw [PhiS_castSucc V c t, PhiS_pos V c _ _ hz]
      unfold scr caseC; (try dsimp only)
      iintro ⟨⟨G, ⟨HS0, HS1, HS2, HS3⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ _ _ _ _ _ _ hc0 hc1 (iblk1 V c 0 t) (iblk1 V c 1 t) (iblk1 V c 2 t) (iblk1 V c 3 t) _ _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, ⟨%e4, H4⟩, HS0, ⟨%es1, HS1⟩, ⟨%es2, HS2⟩, ⟨%es3, HS3⟩⟩
      isplitl [G HS0 HS1 HS2 HS3 Hg]
      · isplitl [G]; · iexact G
        isplitl [HS0 HS1 HS2 HS3]
        · isplitl [HS0]; · iexact HS0
          isplitl [HS1]
          · unfold owns; iexists _; isplitr
            swap; · iexact HS1
            ipureintro; exact View.read_writes_of_cover _ _ _ _ _ (scoverC_1 V c t _ _ _)
          isplitl [HS2]
          · unfold owns; iexists _; isplitr
            swap; · iexact HS2
            ipureintro; exact View.read_writes_of_cover _ _ _ _ _ (scoverC_2 V c t _ _ _)
          · unfold owns; iexists _; isplitr
            swap; · iexact HS3
            ipureintro; exact View.read_writes_of_cover _ _ _ _ _ (scoverC_3 V c t _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC_4 V c t _ _ _)
    · have hc1 : ¬cond1_1 (grid1.coords t) := fun h => h1 ((hcond1_1 t).mp h)
      rw [Dat.leavesExact_idle (dat1 V c) 4 t (idleAt1_4 t hc1) (noFlush1_4 t hc1)]
      rw [outsAt1_B V c t h0 h1]
      rw [PhiS_castSucc V c t, PhiS_pos V c _ _ hz]
      unfold scr caseB; (try dsimp only)
      iintro ⟨⟨G, ⟨HS0, HS1, HS2, HS3⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ _ _ _ _ _ _ hc0 hc1 (iblk1 V c 0 t) (iblk1 V c 1 t) (iblk1 V c 2 t) (iblk1 V c 3 t) _ _ _ _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, HS0, ⟨%es1, HS1⟩, ⟨%es2, HS2⟩, ⟨%es3, HS3⟩⟩
      isplitl [G HS0 HS1 HS2 HS3 Hg]
      · isplitl [G]; · iexact G
        isplitl [HS0 HS1 HS2 HS3]
        · isplitl [HS0]; · iexact HS0
          isplitl [HS1]
          · unfold owns; iexists _; isplitr
            swap; · iexact HS1
            ipureintro; exact View.read_writes_of_cover _ _ _ _ _ (scoverB_1 V c t _ _ _)
          isplitl [HS2]
          · unfold owns; iexists _; isplitr
            swap; · iexact HS2
            ipureintro; exact View.read_writes_of_cover _ _ _ _ _ (scoverB_2 V c t _ _ _)
          · unfold owns; iexists _; isplitr
            swap; · iexact HS3
            ipureintro; exact View.read_writes_of_cover _ _ _ _ _ (scoverB_3 V c t _ _ _)
        iexact Hg
      isplitl [Ho]; · iexact Ho
      isplitl [H0]; · iexact H0
      isplitl [H1]; · iexact H1
      isplitl [H2]; · iexact H2
      isplitl [H3]; · iexact H3
      iexists _; iexact H4

/-- The pipelined call's obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the launch's form back: the scratch buffers' contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl, PhiS_pos V c _ _ ht, PhiA1_eq]
  unfold scr stg8
  iintro ⟨⟨G0, G1, G2, G3, G4, G5, G6, G7⟩, ⟨HS0, HS1, HS2, HS3⟩, Hg⟩
  isplitr [Hg]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [HS0]; · iexists _; iexact HS0
    isplitl [HS1]; · iexists _; iexact HS1
    isplitl [HS2]; · iexists _; iexact HS2
    iexists _; iexact HS3
  iexact Hg

end Region1

end Cert.Kernel.Run

end
-- ==== Proof.BRegion0.lean ====
/-
  The key/value projection call: on each tile of 2048 rows of one batch element the body multiplies the tile of
  activations by the two resident weight matrices and stores the two products. Here: each window's block at a grid
  point, what the body leaves in the two output buffers as functions of the three input blocks, the body's triple, and
  the per-point obligation of the pipelined call.
-/
import proofs.«101180_j55310588838086_2_alg».proof.Proof.Gen.Kernel.Launch
import proofs.«101180_j55310588838086_2_alg».proof.Proof.Gen.Kernel.Skeleton
import proofs.«101180_j55310588838086_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

-- the buffers' contents when the call is entered
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the block was fetched there or kept
    from the point before (its index did not move). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole tile of rows, and a whole weight matrix: the two rectangles the body loads and stores through. -/
abbrev rTile : Rect S1x2048x1024 := Rect.unit (s := S1x2048x1024) ![0, 0, 0] S1x2048x1024.size inb_S1x2048x1024_S1x2048x1024_0_0_0
abbrev rMat : Rect S1024x1024 := Rect.unit (s := S1024x1024) ![0, 0] S1024x1024.size inb_S1024x1024_S1024x1024_0_0

/-- What the body leaves in the key buffer: the tile times the first weight matrix, stored whole. -/
def out0_3 (x0 : Vec F S1x2048x1024 .bf16) (x1 : Vec F S1024x1024 .bf16) : Vec F S1x2048x1024 .bf16 :=
  View.canon [⟨rTile, k0_pay2 (View.ld x0 rTile) (View.ld x1 rMat)⟩]
/-- What it leaves in the value buffer: the tile times the second weight matrix, stored whole. -/
def out0_4 (x0 : Vec F S1x2048x1024 .bf16) (x2 : Vec F S1024x1024 .bf16) : Vec F S1x2048x1024 .bf16 :=
  View.canon [⟨rTile, k0_pay3 (View.ld x0 rTile) (View.ld x2 rMat)⟩]

/-- One store of the whole tile covers the buffer. -/
theorem cover0_tile (p0 : Vec F S1x2048x1024 .bf16) (y : S1x2048x1024.Idx) :
    ∃ pc ∈ ([⟨rTile, p0⟩] : List (View.Piece (Elt F) S1x2048x1024 .bf16)), y ∈ pc.1.set :=
  View.cover_of_tiled [⟨rTile, p0⟩] S1x2048x1024.size (by rfl) y

set_option maxHeartbeats 2000000 in
/-- The body on whole staging buffers: the three inputs at their contents, the two outputs at anything; it ends with
    the inputs as they were and the outputs at the two products. -/
theorem sound_kernel0 (c : Dev nD) (E : Set ℕ) (i : grid0.Coords)
    (arg2 : Memref sig .tc .vmem S1x2048x1024 .bf16) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1x2048x1024 .bf16) (harg5 : arg5.IsWhole)
    (arg6 : Memref sig .tc .vmem S1x2048x1024 .bf16) (harg6 : arg6.IsWhole)
    (x0 : Vec F S1x2048x1024 .bf16) (x1 x2 : Vec F S1024x1024 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1) ∗ owns (c : Thread nD τ) arg6 fullShare (out0_4 x0 x2)) -∗ K ⟨⟩))
      ⊢ wp frame (wpE (defs₀ (F := F)) Variants.none c none) E (cc0__kv_proj_kernel i arg2 harg2 arg3 harg3 arg4 harg4 arg5 harg5 arg6 harg6) K := by
  simp only [cc0__kv_proj_kernel_eq_skeleton]; unfold cc0__kv_proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_tile _)
  iexists _; isplitr
  swap; · iexact H4
  ipureintro
  exact View.read_writes_eq_canon _ _ _ (cover0_tile _)

/-- The proof data of the call on core `c`: the arrays as the call finds them; after the body each input's buffer at
    its block and the two outputs' at the products of the point's blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipelined call's obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Run

end
-- ==== Proof.BMain.lean ====
/-
  The whole program's run: ten host operations (the activations and the three transposed weight matrices converted,
  the query weights scaled by 1/32), the key/value projection call, the attention call. The buffers' contents at each
  boundary are a fold from the launch memory; every weakly fair execution terminates with the result array at what the
  attention call's write-backs leave and the four argument arrays as launched.
-/
import proofs.«101180_j55310588838086_2_alg».proof.Proof.BBody1
import proofs.«101180_j55310588838086_2_alg».proof.Proof.BRegion0
import proofs.«101180_j55310588838086_2_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev W0 : Dev nD → Valuation τ sig (Elt F) := fun c b => m (c, b)
/-- After the host operations (the projection call's entry). -/
abbrev W1 : Dev nD → Valuation τ sig (Elt F) := fun c => StableHlo.after hostOps0 (W0 m c)
abbrev VV1 : (c : Dev nD) → (b : Ref sig .tc) → Buf (Elt F) ((c : Thread nD τ).loc b) := fun c b => W1 m c b
/-- After the projection call: its arrays at what its write-backs leave, every other buffer as entered. -/
def W2 (c : Dev nD) : Valuation τ sig (Elt F) :=
  Pipeline.withArrays spec0 c (W1 m c) fun w => (dat0 (VV1 m) c).arrAt w cfg0.N
theorem W2_arr (c : Dev nD) (w : Fin cfg0.W) :
    W2 m c (Proc.devRef .tc (Pipeline.arrRef spec0 w)) = (dat0 (VV1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev VV2 : (c : Dev nD) → (b : Ref sig .tc) → Buf (Elt F) ((c : Thread nD τ).loc b) := fun c b => W2 m c b
theorem hF0 (c : Dev nD) (w : Fin cfg0.W) : (dat0 (VV1 m) c).arrAt w cfg0.N = VV2 m c (Pipeline.arrRef spec0 w) :=
  (W2_arr m c w).symm
theorem hrest0 (c : Dev nD) : ∀ b, b ∉ Finset.univ.image (Pipeline.arrRef spec0) → VV2 m c b = VV1 m c b :=
  fun b hb => W2_of_ne m c b fun w e => hb (Finset.mem_image.mpr ⟨w, Finset.mem_univ _, e⟩)

/-- After the attention call. -/
def W3 (c : Dev nD) : Valuation τ sig (Elt F) :=
  Pipeline.withArrays spec1 c (W2 m c) fun w => (dat1 (VV2 m) c).arrAt w cfg1.N
theorem W3_arr (c : Dev nD) (w : Fin cfg1.W) :
    W3 m c (Proc.devRef .tc (Pipeline.arrRef spec1 w)) = (dat1 (VV2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev VV3 : (c : Dev nD) → (b : Ref sig .tc) → Buf (Elt F) ((c : Thread nD τ).loc b) := fun c b => W3 m c b
theorem hF1 (c : Dev nD) (w : Fin cfg1.W) : (dat1 (VV2 m) c).arrAt w cfg1.N = VV3 m c (Pipeline.arrRef spec1 w) :=
  (W3_arr m c w).symm
theorem hrest1 (c : Dev nD) : ∀ b, b ∉ Finset.univ.image (Pipeline.arrRef spec1) → VV3 m c b = VV2 m c b :=
  fun b hb => W3_of_ne m c b fun w e => hb (Finset.mem_image.mpr ⟨w, Finset.mem_univ _, e⟩)

/-- An argument array ends as launched: no host operation writes it and neither call stages it. -/
theorem W3_arg (c : Dev nD) (r : Ref sig .tc) (h0 : ∀ w, Pipeline.arrRef spec0 w ≠ r) (h1 : ∀ w, Pipeline.arrRef spec1 w ≠ r)
    (hw : r ∉ (hostOps0_W : List (Ref sig .tc))) : W3 m c (Proc.devRef .tc r) = m ((c : Thread nD τ).loc r) :=
  (W3_of_ne m c r h1).trans ((W2_of_ne m c r h0).trans (Gen.V1_of m c r hw))

/-! ## The proof data and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (VV1 m) c
  | ⟨1, _⟩ => fun c => dat1 (VV2 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The two calls as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (VV1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VV1 m c) (VV2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VV2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VV2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VV2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (VV2 m) c); unfold Pipeline.ΦA
    iintro ⟨Hp, -, Hr⟩
    isplitl [Hr]; · iexact Hr
    iexact Hp
  hout c := by
    rw [Pipeline.ownSems0_none]
    refine BIBase.Entails.trans (hout1 (VV2 m) c) ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VV2 m c) (VV3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub Gen.hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting, with
    the result array at what the attention call's write-backs leave and the four argument arrays as launched. -/
theorem run_main (ρ : Dev nD → PrngReg) : θ_run defs (onTc (τ := τ) (main (F := F))) ⟨m, fun _ => 0, ρ⟩ (fun r => ∀ c : Dev nD,
      r.2.mem ((c.tc : Thread nD τ).loc main_v10) = (dat1 (VV2 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v10 (by decide))).trans (W3_arr m c 4),
       (h c _ (mem_uc main_arg0 (by decide))).trans (W3_arg m c main_arg0 (by decide) (by decide) (by decide)),
       (h c _ (mem_uc main_arg1 (by decide))).trans (W3_arg m c main_arg1 (by decide) (by decide) (by decide)),
       (h c _ (mem_uc main_arg2 (by decide))).trans (W3_arg m c main_arg2 (by decide) (by decide) (by decide)),
       (h c _ (mem_uc main_arg3 (by decide))).trans (W3_arg m c main_arg3 (by decide) (by decide) (by decide))⟩)

end Cert.Kernel.Run

end
-- ==== Proof.KRuns1.lean ====
/-
  The attention call, what its three control cases share: each window's block at a grid point, the two conditions of
  the body (first key tile of a query tile; last key tile) in closed form over the 64 grid points, where the output
  window is idle, and the four scratch buffers the body carries from one key tile to the next (the projected queries,
  the running maximum, the running normaliser, the running weighted sum).
-/
import proofs.«101180_j55310588838086_2_alg».proof.Proof.Gen.KernelIdeal.Launch
import proofs.«101180_j55310588838086_2_alg».proof.Proof.Gen.KernelIdeal.Skeleton
import proofs.«101180_j55310588838086_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

-- the buffers' contents when the call is entered
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or kept from the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two conditions -/

/-- The first key tile of a query tile: the third grid coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The last key tile of a query tile: the third grid coordinate is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from a query tile's last key tile the output window is idle: nothing is stored into it and it is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last key tile it is live. -/
theorem liveAt1_4 : ∀ t : Fin cfg1.N, cond1_1 (grid1.coords t) → cfg1.idle 4 (grid1.coords t) = false := by decide +kernel

/-! ## The staging and scratch buffers -/

/-- One staging buffer of the output window, through which its contents are stated. -/
abbrev VO1_4 : View sig .tc .vmem S1x2048x1024 .f32 := (Memref.whole cc1_stg4_0 : Memref sig .tc .vmem S1x2048x1024 .f32).view
abbrev ms1_0 (t : Fin cfg1.N) : Memref sig .tc .vmem S1x2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x2048x1024 .f32 := win1_4.stage (cfg1.slots t 4)
abbrev hs1_4 (t : Fin cfg1.N) : (ms1_4 t).IsWhole := hstage1_4 ((cfg1.slots t 4).cast nbuf1_4)
/-- The scratch buffers: the projected queries, the running maximum, the running normaliser, the running weighted sum. -/
abbrev scM1_0 : Memref sig .tc .vmem S2048x1024 .bf16 := Memref.whole cc1_scratch0
abbrev scM1_1 : Memref sig .tc .vmem S2048x1 .f32 := Memref.whole cc1_scratch1
abbrev scM1_2 : Memref sig .tc .vmem S2048x1 .f32 := Memref.whole cc1_scratch2
abbrev scM1_3 : Memref sig .tc .vmem S2048x1024 .f32 := Memref.whole cc1_scratch3
abbrev VS1_0 : View sig .tc .vmem S2048x1024 .bf16 := scM1_0.view
abbrev VS1_1 : View sig .tc .vmem S2048x1 .f32 := scM1_1.view
abbrev VS1_2 : View sig .tc .vmem S2048x1 .f32 := scM1_2.view
abbrev VS1_3 : View sig .tc .vmem S2048x1024 .f32 := scM1_3.view

/-- The other call's eight staging buffers, each at some contents: they ride through this call untouched. -/
def stg8 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- The call's invariant at its start: the other call's staging buffers and the four scratch buffers at some
    contents, and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1_0 fullShare d) ∗ (∃ d, owns (c : Thread nD τ) scM1_1 fullShare d)
          ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

end Cert.KernelIdeal.Run

end
-- ==== Proof.KRun1A.lean ====
/-
  The attention call's body at the first key tile of a query tile: it projects the tile of queries into the first
  scratch buffer, resets the running maximum to −∞ and the running normaliser and weighted sum to zero, then takes the
  first streaming step; nothing is stored into the output buffer. Found here: the pieces each scratch buffer ends with.
-/
import proofs.«101180_j55310588838086_2_alg».proof.Proof.KRuns1

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at such a point, on whole buffers: the four inputs at their contents, the output buffer handed back
    untouched, every scratch buffer at anything before and at its written pieces after. -/
noncomputable def kernelRun1_A (c : Dev nD) (i : grid1.Coords) (arg3 : Memref sig .tc .vmem S1x2048x1024 .bf16) (harg3 : arg3.IsWhole) (arg4 : Memref sig .tc .vmem S1024x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x2048x1024 .f32) (harg7 : arg7.IsWhole) (arg8 : Memref sig .tc .vmem S2048x1024 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1024 .f32) (harg11 : arg11.IsWhole) (hc0 : cond1_0 i) (hc1 : ¬cond1_1 i)
    (x0 : Vec F S1x2048x1024 .bf16) (x1 : Vec F S1024x1024 .bf16) (x2 x3 : Vec F S1x512x1024 .bf16) :
    Σ' (L4 : List (View.Piece (Elt F) S1x2048x1024 .f32)) (LS0 : List (View.Piece (Elt F) S2048x1024 .bf16)) (LS1 : List (View.Piece (Elt F) S2048x1 .f32)) (LS2 : List (View.Piece (Elt F) S2048x1 .f32)),
      { LS3 : List (View.Piece (Elt F) S2048x1024 .f32) //
      ∀ (xi4 : Vec F S1x2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11) K } := by
  refine ⟨[], ?_, ?_, ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; iexact HS3

end Cert.KernelIdeal.Run

end
-- ==== Proof.KRun1B.lean ====
/-
  The attention call's body at a key tile that is neither first nor last: one more streaming step from the state the
  tile before left; nothing is stored into the output buffer. The projected queries are only read.
  Found here: the pieces each buffer it stores into ends with.
-/
import proofs.«101180_j55310588838086_2_alg».proof.Proof.KRun1A

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S1x2048x1024 .bf16) (harg3 : arg3.IsWhole) (arg4 : Memref sig .tc .vmem S1024x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x2048x1024 .f32) (harg7 : arg7.IsWhole) (arg8 : Memref sig .tc .vmem S2048x1024 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1024 .f32) (harg11 : arg11.IsWhole) (hc0 : ¬cond1_0 i) (hc1 : ¬cond1_1 i)
    (x0 : Vec F S1x2048x1024 .bf16) (x1 : Vec F S1024x1024 .bf16) (x2 x3 : Vec F S1x512x1024 .bf16)
    (xs0 : Vec F S2048x1024 .bf16) (xs1 xs2 : Vec F S2048x1 .f32) (xs3 : Vec F S2048x1024 .f32) :
    Σ' (L4 : List (View.Piece (Elt F) S1x2048x1024 .f32)) (LS1 : List (View.Piece (Elt F) S2048x1 .f32)) (LS2 : List (View.Piece (Elt F) S2048x1 .f32)),
      { LS3 : List (View.Piece (Elt F) S2048x1024 .f32) //
      ∀ (xi4 : Vec F S1x2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ owns (c : Thread nD τ) arg8 fullShare xs0 ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11) K } := by
  refine ⟨[], ?_, ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]
    · iexists _; isplitr; · ipureintro; exact harg8.read_unread _
      iexact HS0
    isplitl [HS1]; · iexists _; iexact HS1
    isplitl [HS2]; · iexists _; iexact HS2
    iexists _; iexact HS3

end Cert.KernelIdeal.Run

end
-- ==== Proof.KRun1C.lean ====
/-
  The attention call's body at the last key tile of a query tile: one more streaming step from the state the tile before left, then the
  weighted sum over the normaliser stored into the output buffer. The projected queries are only read.
  Found here: the pieces each buffer it stores into ends with.
-/
import proofs.«101180_j55310588838086_2_alg».proof.Proof.KRun1B

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S1x2048x1024 .bf16) (harg3 : arg3.IsWhole) (arg4 : Memref sig .tc .vmem S1024x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x2048x1024 .f32) (harg7 : arg7.IsWhole) (arg8 : Memref sig .tc .vmem S2048x1024 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1024 .f32) (harg11 : arg11.IsWhole) (hc0 : ¬cond1_0 i) (hc1 : cond1_1 i)
    (x0 : Vec F S1x2048x1024 .bf16) (x1 : Vec F S1024x1024 .bf16) (x2 x3 : Vec F S1x512x1024 .bf16)
    (xs0 : Vec F S2048x1024 .bf16) (xs1 xs2 : Vec F S2048x1 .f32) (xs3 : Vec F S2048x1024 .f32) :
    Σ' (L4 : List (View.Piece (Elt F) S1x2048x1024 .f32)) (LS1 : List (View.Piece (Elt F) S2048x1 .f32)) (LS2 : List (View.Piece (Elt F) S2048x1 .f32)),
      { LS3 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)
                ∗ owns (c : Thread nD τ) arg8 fullShare xs0 ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; iexact H4
    isplitl [HS0]
    · iexists _; isplitr; · ipureintro; exact harg8.read_unread _
      iexact HS0
    isplitl [HS1]; · iexists _; iexact HS1
    isplitl [HS2]; · iexists _; iexact HS2
    iexists _; iexact HS3

end Cert.KernelIdeal.Run

end
-- ==== Proof.KFrame1.lean ====
/-
  The attention call point by point: what its output buffer and its four scratch buffers hold after each grid point
  (by recursion on the point: the first key tile of a query tile starts a fresh streaming state, every later one
  continues the state the point before left, the last one also stores the output), the call's invariant carrying that
  state from point to point, its proof data and the per-point obligation.
-/
import proofs.«101180_j55310588838086_2_alg».proof.Proof.KRun1C

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output buffer and the four scratch buffers after a point. -/
structure St1 (F : FTy → Type) [FloatOps F] where
  out : Vec F S1x2048x1024 .f32
  q : Vec F S2048x1024 .bf16
  m : Vec F S2048x1 .f32
  l : Vec F S2048x1 .f32
  acc : Vec F S2048x1024 .f32

section Region1

variable (V : (c : Dev nD) → (b : Ref sig .tc) → Buf (Elt F) ((c : Thread nD τ).loc b))

/-- After the first key tile of a query tile: the scratch buffers at the pieces that case wrote (the output buffer a placeholder nothing reads). -/
def caseA (c : Dev nD) (t : Fin cfg1.N) (hc0 : cond1_0 (grid1.coords t)) (hc1 : ¬cond1_1 (grid1.coords t)) : St1 F :=
  ⟨VO1_4.read (Elt F) (VO1_4.writes (Elt F) VO1_4.junk (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t)).1),
   VS1_0.read (Elt F) (VS1_0.writes (Elt F) VS1_0.junk (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t)).2.1),
   VS1_1.read (Elt F) (VS1_1.writes (Elt F) VS1_1.junk (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t)).2.2.1),
   VS1_2.read (Elt F) (VS1_2.writes (Elt F) VS1_2.junk (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t)).2.2.2.1),
   VS1_3.read (Elt F) (VS1_3.writes (Elt F) VS1_3.junk (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t)).2.2.2.2.1)⟩

/-- After a middle key tile, from the state `p` the point before left: the queries kept, the three running quantities at the pieces written. -/
def caseB (c : Dev nD) (t : Fin cfg1.N) (hc0 : ¬cond1_0 (grid1.coords t)) (hc1 : ¬cond1_1 (grid1.coords t)) (p : St1 F) : St1 F :=
  ⟨VO1_4.read (Elt F) (VO1_4.writes (Elt F) VO1_4.junk (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.q p.m p.l p.acc).1),
   p.q,
   VS1_1.read (Elt F) (VS1_1.writes (Elt F) VS1_1.junk (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.q p.m p.l p.acc).2.1),
   VS1_2.read (Elt F) (VS1_2.writes (Elt F) VS1_2.junk (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.q p.m p.l p.acc).2.2.1),
   VS1_3.read (Elt F) (VS1_3.writes (Elt F) VS1_3.junk (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.q p.m p.l p.acc).2.2.2.1)⟩

/-- After the last key tile: as a middle one, and the output buffer at the pieces written. -/
def caseC (c : Dev nD) (t : Fin cfg1.N) (hc0 : ¬cond1_0 (grid1.coords t)) (hc1 : cond1_1 (grid1.coords t)) (p : St1 F) : St1 F :=
  ⟨VO1_4.read (Elt F) (VO1_4.writes (Elt F) VO1_4.junk (kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.q p.m p.l p.acc).1),
   p.q,
   VS1_1.read (Elt F) (VS1_1.writes (Elt F) VS1_1.junk (kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.q p.m p.l p.acc).2.1),
   VS1_2.read (Elt F) (VS1_2.writes (Elt F) VS1_2.junk (kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.q p.m p.l p.acc).2.2.1),
   VS1_3.read (Elt F) (VS1_3.writes (Elt F) VS1_3.junk (kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.q p.m p.l p.acc).2.2.2.1)⟩

/-! ## The written pieces cover their buffers -/

theorem scoverA_0 (c : Dev nD) (t : Fin cfg1.N) (hc0) (hc1) (y : S2048x1024.Idx) :
    ∃ pc ∈ (kernelRun1_A (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t)).2.1, y ∈ pc.1.set :=
  View.cover_of_tiledL _ S2048x1024.size (by sl_kernel_rfl) y
theorem scoverA_1 (c : Dev nD) (t : Fin cfg1.N) (hc0) (hc1) (y : S2048x1.Idx) :
    ∃ pc ∈ (kernelRun1_A (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t)).2.2.1, y ∈ pc.1.set :=
  View.cover_of_tiledL _ S2048x1.size (by sl_kernel_rfl) y
theorem scoverA_2 (c : Dev nD) (t : Fin cfg1.N) (hc0) (hc1) (y : S2048x1.Idx) :
    ∃ pc ∈ (kernelRun1_A (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t)).2.2.2.1, y ∈ pc.1.set :=
  View.cover_of_tiledL _ S2048x1.size (by sl_kernel_rfl) y
theorem scoverA_3 (c : Dev nD) (t : Fin cfg1.N) (hc0) (hc1) (y : S2048x1024.Idx) :
    ∃ pc ∈ (kernelRun1_A (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t)).2.2.2.2.1, y ∈ pc.1.set :=
  View.cover_of_tiledL _ S2048x1024.size (by sl_kernel_rfl) y

theorem scoverB_1 (c : Dev nD) (t : Fin cfg1.N) (hc0) (hc1) (p : St1 F) (y : S2048x1.Idx) :
    ∃ pc ∈ (kernelRun1_B (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.q p.m p.l p.acc).2.1, y ∈ pc.1.set :=
  View.cover_of_tiledL _ S2048x1.size (by sl_kernel_rfl) y
theorem scoverB_2 (c : Dev nD) (t : Fin cfg1.N) (hc0) (hc1) (p : St1 F) (y : S2048x1.Idx) :
    ∃ pc ∈ (kernelRun1_B (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.q p.m p.l p.acc).2.2.1, y ∈ pc.1.set :=
  View.cover_of_tiledL _ S2048x1.size (by sl_kernel_rfl) y
theorem scoverB_3 (c : Dev nD) (t : Fin cfg1.N) (hc0) (hc1) (p : St1 F) (y : S2048x1024.Idx) :
    ∃ pc ∈ (kernelRun1_B (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.q p.m p.l p.acc).2.2.2.1, y ∈ pc.1.set :=
  View.cover_of_tiledL _ S2048x1024.size (by sl_kernel_rfl) y

theorem coverC_4 (c : Dev nD) (t : Fin cfg1.N) (hc0) (hc1) (p : St1 F) (y : S1x2048x1024.Idx) :
    ∃ pc ∈ (kernelRun1_C (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.q p.m p.l p.acc).1, y ∈ pc.1.set :=
  View.cover_of_tiledL _ S1x2048x1024.size (by sl_kernel_rfl) y
theorem scoverC_1 (c : Dev nD) (t : Fin cfg1.N) (hc0) (hc1) (p : St1 F) (y : S2048x1.Idx) :
    ∃ pc ∈ (kernelRun1_C (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.q p.m p.l p.acc).2.1, y ∈ pc.1.set :=
  View.cover_of_tiledL _ S2048x1.size (by sl_kernel_rfl) y
theorem scoverC_2 (c : Dev nD) (t : Fin cfg1.N) (hc0) (hc1) (p : St1 F) (y : S2048x1.Idx) :
    ∃ pc ∈ (kernelRun1_C (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.q p.m p.l p.acc).2.2.1, y ∈ pc.1.set :=
  View.cover_of_tiledL _ S2048x1.size (by sl_kernel_rfl) y
theorem scoverC_3 (c : Dev nD) (t : Fin cfg1.N) (hc0) (hc1) (p : St1 F) (y : S2048x1024.Idx) :
    ∃ pc ∈ (kernelRun1_C (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.q p.m p.l p.acc).2.2.2.1, y ∈ pc.1.set :=
  View.cover_of_tiledL _ S2048x1024.size (by sl_kernel_rfl) y

/-! ## The state after each point -/

theorem notLast_of_first (t : Fin cfg1.N) (h0 : t.val % 8 = 0) : ¬cond1_1 (grid1.coords t) :=
  fun h => by have := (hcond1_1 t).mp h; omega

/-- The buffers after the body at position `n`. -/
def outsAt1 (c : Dev nD) : (n : ℕ) → n < cfg1.N → St1 F
  | 0, hn => caseA V c ⟨0, hn⟩ ((hcond1_0 ⟨0, hn⟩).mpr (Nat.zero_mod _)) (notLast_of_first ⟨0, hn⟩ (Nat.zero_mod _))
  | n + 1, hn =>
    if h0 : (n + 1) % 8 = 0 then
      caseA V c ⟨n + 1, hn⟩ ((hcond1_0 ⟨n + 1, hn⟩).mpr h0) (notLast_of_first ⟨n + 1, hn⟩ h0)
    else if h1 : (n + 1) % 8 = 7 then
      caseC V c ⟨n + 1, hn⟩ (fun h => h0 ((hcond1_0 ⟨n + 1, hn⟩).mp h)) ((hcond1_1 ⟨n + 1, hn⟩).mpr h1) (outsAt1 c n (Nat.lt_of_succ_lt hn))
    else
      caseB V c ⟨n + 1, hn⟩ (fun h => h0 ((hcond1_0 ⟨n + 1, hn⟩).mp h)) (fun h => h1 ((hcond1_1 ⟨n + 1, hn⟩).mp h)) (outsAt1 c n (Nat.lt_of_succ_lt hn))

theorem outsAt1_A (c : Dev nD) (t : Fin cfg1.N) (h0 : t.val % 8 = 0) :
    outsAt1 V c t.val t.isLt = caseA V c t ((hcond1_0 t).mpr h0) (notLast_of_first t h0) := by
  obtain ⟨n, hn⟩ := t
  cases n with
  | zero => exact rfl
  | succ n => exact (dif_pos h0).trans rfl

theorem outsAt1_B (c : Dev nD) (t : Fin cfg1.N) (h0 : ¬t.val % 8 = 0) (h1 : ¬t.val % 8 = 7) :
    outsAt1 V c t.val t.isLt = caseB V c t (fun h => h0 ((hcond1_0 t).mp h)) (fun h => h1 ((hcond1_1 t).mp h))
      (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = caseC V c t (fun h => h0 ((hcond1_0 t).mp h)) ((hcond1_1 t).mpr h1)
      (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The scratch buffers at a state. -/
def scr (c : Dev nD) (p : St1 F) : sProp 𝕄 :=
  iprop(owns (c : Thread nD τ) scM1_0 fullShare p.q ∗ owns (c : Thread nD τ) scM1_1 fullShare p.m
    ∗ owns (c : Thread nD τ) scM1_2 fullShare p.l ∗ owns (c : Thread nD τ) scM1_3 fullShare p.acc)

/-- The call's invariant before position `n`: at the start every scratch buffer at anything; afterwards the scratch
    buffers at the state the point before left, beside the other call's staging buffers and the generator register. -/
def PhiS (c : Dev nD) : (n : ℕ) → n ≤ cfg1.N → sProp 𝕄
  | 0, _ => Pipeline.ΦA spec1 c
  | n + 1, hn => iprop(stg8 (F := F) c ∗ scr c (outsAt1 V c n hn) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(stg8 (F := F) c ∗ scr c (outsAt1 V c n hn) ∗ (∃ r, prngReg c r)) := rfl
theorem PhiS_pos (c : Dev nD) (n : ℕ) (h : n ≤ cfg1.N) (hz : n ≠ 0) :
    PhiS V c n h = iprop(stg8 (F := F) c ∗ scr c (outsAt1 V c (n - 1) (by omega)) ∗ (∃ r, prngReg c r)) := by
  cases n with
  | zero => exact absurd rfl hz
  | succ n => rfl

/-- The proof data of the call on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).out
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).out := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

theorem leaves_in (c : Dev nD) (t : Fin cfg1.N) :
    (dat1 V c).leavesExact 0 t = owns (c : Thread nD τ) (ms1_0 t) fullShare (iblk1 V c 0 t)
    ∧ (dat1 V c).leavesExact 1 t = owns (c : Thread nD τ) (ms1_1 t) fullShare (iblk1 V c 1 t)
    ∧ (dat1 V c).leavesExact 2 t = owns (c : Thread nD τ) (ms1_2 t) fullShare (iblk1 V c 2 t)
    ∧ (dat1 V c).leavesExact 3 t = owns (c : Thread nD τ) (ms1_3 t) fullShare (iblk1 V c 3 t) := by
  refine ⟨?_, ?_, ?_, ?_⟩
  · unfold Dat.leavesExact; rw [liveAt1_0 t, after1_0]
  · unfold Dat.leavesExact; rw [liveAt1_1 t, after1_1]
  · unfold Dat.leavesExact; rw [liveAt1_2 t, after1_2]
  · unfold Dat.leavesExact; rw [liveAt1_3 t, after1_3]

end Region1

end Cert.KernelIdeal.Run

end
-- ==== Proof.KBody1.lean ====
/-
  The attention call's per-point obligation: the grid point's position among its query tile's key tiles says which
  of the three cases the body is in; the invariant hands the body the scratch buffers at the state the point before
  left (at anything at the very first point) and takes them back at this point's state.
-/
import proofs.«101180_j55310588838086_2_alg».proof.Proof.KFrame1

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  obtain ⟨hl0, hl1, hl2, hl3⟩ := leaves_in V c t
  rw [hl0, hl1, hl2, hl3]
  have hN : t.val < 64 := lt_of_lt_of_eq t.isLt (show cfg1.N = 64 from N_1)
  by_cases h0 : t.val % 8 = 0
  · have hc1 : ¬cond1_1 (grid1.coords t) := notLast_of_first t h0
    rw [Dat.leavesExact_idle (dat1 V c) 4 t (idleAt1_4 t hc1) (noFlush1_4 t hc1)]
    rw [outsAt1_A V c t h0]
    by_cases hz : t.val = 0
    · rw [PhiS_castSucc V c t, PhiS_zero V c _ _ hz, PhiA1_eq]
      unfold scr caseA; (try dsimp only)
      iintro ⟨⟨⟨G0, G1, G2, G3, G4, G5, G6, G7, HS0, HS1, HS2, HS3⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ _ _ _ _ ((hcond1_0 t).mpr h0) hc1 (iblk1 V c 0 t) (iblk1 V c 1 t) (iblk1 V c 2 t) (iblk1 V c 3 t)).2.2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, ⟨%es3, HS3⟩⟩
      isplitl [G0 G1 G2 G3 G4 G5 G6 G7 HS0 HS1 HS2 HS3 Hg]
      · isplitl [G0 G1 G2 G3 G4 G5 G6 G7]
        · unfold stg8
          isplitl [G0]; · iexact G0
          isplitl [G1]; · iexact G1
          isplitl [G2]; · iexact G2
          isplitl [G3]; · iexact G3
          isplitl [G4]; · iexact G4
          isplitl [G5]; · iexact G5
          isplitl [G6]; · iexact G6
          iexact G7
        isplitl [HS0 HS1 HS2 HS3]
        · isplitl [HS0]
          · unfold owns; iexists _; isplitr
            swap; · iexact HS0
            ipureintro; exact View.read_writes_of_cover _ _ _ _ _ (scoverA_0 V c t _ _)
          isplitl [HS1]
          · unfold owns; iexists _; isplitr
            swap; · iexact HS1
            ipureintro; exact View.read_writes_of_cover _ _ _ _ _ (scoverA_1 V c t _ _)
          isplitl [HS2]
          · unfold owns; iexists _; isplitr
            swap; · iexact HS2
            ipureintro; exact View.read_writes_of_cover _ _ _ _ _ (scoverA_2 V c t _ _)
          · unfold owns; iexists _; isplitr
            swap; · iexact HS3
            ipureintro; exact View.read_writes_of_cover _ _ _ _ _ (scoverA_3 V c t _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      unfold scr caseA; (try dsimp only)
      iintro ⟨⟨G, ⟨HS0, HS1, HS2, HS3⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ _ _ _ _ ((hcond1_0 t).mpr h0) hc1 (iblk1 V c 0 t) (iblk1 V c 1 t) (iblk1 V c 2 t) (iblk1 V c 3 t)).2.2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      isplitl [HS3]; · iexists _; iexact HS3
      iintro ⟨H0, H1, H2, H3, H4, ⟨%es0, HS0⟩, ⟨%es1, HS1⟩, ⟨%es2, HS2⟩, ⟨%es3, HS3⟩⟩
      isplitl [G HS0 HS1 HS2 HS3 Hg]
      · isplitl [G]; · iexact G
        isplitl [HS0 HS1 HS2 HS3]
        · isplitl [HS0]
          · unfold owns; iexists _; isplitr
            swap; · iexact HS0
            ipureintro; exact View.read_writes_of_cover _ _ _ _ _ (scoverA_0 V c t _ _)
          isplitl [HS1]
          · unfold owns; iexists _; isplitr
            swap; · iexact HS1
            ipureintro; exact View.read_writes_of_cover _ _ _ _ _ (scoverA_1 V c t _ _)
          isplitl [HS2]
          · unfold owns; iexists _; isplitr
            swap; · iexact HS2
            ipureintro; exact View.read_writes_of_cover _ _ _ _ _ (scoverA_2 V c t _ _)
          · unfold owns; iexists _; isplitr
            swap; · iexact HS3
            ipureintro; exact View.read_writes_of_cover _ _ _ _ _ (scoverA_3 V c t _ _)
        iexact Hg
      isplitl [Ho]; · iexact Ho
      isplitl [H0]; · iexact H0
      isplitl [H1]; · iexact H1
      isplitl [H2]; · iexact H2
      isplitl [H3]; · iexact H3
      iexists _; iexact H4
  · have hc0 : ¬cond1_0 (grid1.coords t) := fun h => h0 ((hcond1_0 t).mp h)
    have hz : t.val ≠ 0 := fun e => h0 (by rw [e])
    by_cases h1 : t.val % 8 = 7
    · have hc1 : cond1_1 (grid1.coords t) := (hcond1_1 t).mpr h1
      rw [show (dat1 V c).leavesExact 4 t = owns (c : Thread nD τ) (ms1_4 t) fullShare ((dat1 V c).after 4 t) from by
        unfold Dat.leavesExact; rw [liveAt1_4 t hc1], after1_4]
      rw [outsAt1_C V c t h0 h1]
      rw [PhiS_castSucc V c t, PhiS_pos V c _ _ hz]
      unfold scr caseC; (try dsimp only)
      iintro ⟨⟨G, ⟨HS0, HS1, HS2, HS3⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ _ _ _ _ _ _ hc0 hc1 (iblk1 V c 0 t) (iblk1 V c 1 t) (iblk1 V c 2 t) (iblk1 V c 3 t) _ _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, ⟨%e4, H4⟩, HS0, ⟨%es1, HS1⟩, ⟨%es2, HS2⟩, ⟨%es3, HS3⟩⟩
      isplitl [G HS0 HS1 HS2 HS3 Hg]
      · isplitl [G]; · iexact G
        isplitl [HS0 HS1 HS2 HS3]
        · isplitl [HS0]; · iexact HS0
          isplitl [HS1]
          · unfold owns; iexists _; isplitr
            swap; · iexact HS1
            ipureintro; exact View.read_writes_of_cover _ _ _ _ _ (scoverC_1 V c t _ _ _)
          isplitl [HS2]
          · unfold owns; iexists _; isplitr
            swap; · iexact HS2
            ipureintro; exact View.read_writes_of_cover _ _ _ _ _ (scoverC_2 V c t _ _ _)
          · unfold owns; iexists _; isplitr
            swap; · iexact HS3
            ipureintro; exact View.read_writes_of_cover _ _ _ _ _ (scoverC_3 V c t _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC_4 V c t _ _ _)
    · have hc1 : ¬cond1_1 (grid1.coords t) := fun h => h1 ((hcond1_1 t).mp h)
      rw [Dat.leavesExact_idle (dat1 V c) 4 t (idleAt1_4 t hc1) (noFlush1_4 t hc1)]
      rw [outsAt1_B V c t h0 h1]
      rw [PhiS_castSucc V c t, PhiS_pos V c _ _ hz]
      unfold scr caseB; (try dsimp only)
      iintro ⟨⟨G, ⟨HS0, HS1, HS2, HS3⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ _ _ _ _ _ _ hc0 hc1 (iblk1 V c 0 t) (iblk1 V c 1 t) (iblk1 V c 2 t) (iblk1 V c 3 t) _ _ _ _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, HS0, ⟨%es1, HS1⟩, ⟨%es2, HS2⟩, ⟨%es3, HS3⟩⟩
      isplitl [G HS0 HS1 HS2 HS3 Hg]
      · isplitl [G]; · iexact G
        isplitl [HS0 HS1 HS2 HS3]
        · isplitl [HS0]; · iexact HS0
          isplitl [HS1]
          · unfold owns; iexists _; isplitr
            swap; · iexact HS1
            ipureintro; exact View.read_writes_of_cover _ _ _ _ _ (scoverB_1 V c t _ _ _)
          isplitl [HS2]
          · unfold owns; iexists _; isplitr
            swap; · iexact HS2
            ipureintro; exact View.read_writes_of_cover _ _ _ _ _ (scoverB_2 V c t _ _ _)
          · unfold owns; iexists _; isplitr
            swap; · iexact HS3
            ipureintro; exact View.read_writes_of_cover _ _ _ _ _ (scoverB_3 V c t _ _ _)
        iexact Hg
      isplitl [Ho]; · iexact Ho
      isplitl [H0]; · iexact H0
      isplitl [H1]; · iexact H1
      isplitl [H2]; · iexact H2
      isplitl [H3]; · iexact H3
      iexists _; iexact H4

/-- The pipelined call's obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the launch's form back: the scratch buffers' contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl, PhiS_pos V c _ _ ht, PhiA1_eq]
  unfold scr stg8
  iintro ⟨⟨G0, G1, G2, G3, G4, G5, G6, G7⟩, ⟨HS0, HS1, HS2, HS3⟩, Hg⟩
  isplitr [Hg]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [HS0]; · iexists _; iexact HS0
    isplitl [HS1]; · iexists _; iexact HS1
    isplitl [HS2]; · iexists _; iexact HS2
    iexists _; iexact HS3
  iexact Hg

end Region1

end Cert.KernelIdeal.Run

end
-- ==== Proof.KRegion0.lean ====
/-
  The key/value projection call: on each tile of 2048 rows of one batch element the body multiplies the tile of
  activations by the two resident weight matrices and stores the two products. Here: each window's block at a grid
  point, what the body leaves in the two output buffers as functions of the three input blocks, the body's triple, and
  the per-point obligation of the pipelined call.
-/
import proofs.«101180_j55310588838086_2_alg».proof.Proof.Gen.KernelIdeal.Launch
import proofs.«101180_j55310588838086_2_alg».proof.Proof.Gen.KernelIdeal.Skeleton
import proofs.«101180_j55310588838086_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

-- the buffers' contents when the call is entered
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the block was fetched there or kept
    from the point before (its index did not move). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole tile of rows, and a whole weight matrix: the two rectangles the body loads and stores through. -/
abbrev rTile : Rect S1x2048x1024 := Rect.unit (s := S1x2048x1024) ![0, 0, 0] S1x2048x1024.size inb_S1x2048x1024_S1x2048x1024_0_0_0
abbrev rMat : Rect S1024x1024 := Rect.unit (s := S1024x1024) ![0, 0] S1024x1024.size inb_S1024x1024_S1024x1024_0_0

/-- What the body leaves in the key buffer: the tile times the first weight matrix, stored whole. -/
def out0_3 (x0 : Vec F S1x2048x1024 .bf16) (x1 : Vec F S1024x1024 .bf16) : Vec F S1x2048x1024 .bf16 :=
  View.canon [⟨rTile, k0_pay2 (View.ld x0 rTile) (View.ld x1 rMat)⟩]
/-- What it leaves in the value buffer: the tile times the second weight matrix, stored whole. -/
def out0_4 (x0 : Vec F S1x2048x1024 .bf16) (x2 : Vec F S1024x1024 .bf16) : Vec F S1x2048x1024 .bf16 :=
  View.canon [⟨rTile, k0_pay3 (View.ld x0 rTile) (View.ld x2 rMat)⟩]

/-- One store of the whole tile covers the buffer. -/
theorem cover0_tile (p0 : Vec F S1x2048x1024 .bf16) (y : S1x2048x1024.Idx) :
    ∃ pc ∈ ([⟨rTile, p0⟩] : List (View.Piece (Elt F) S1x2048x1024 .bf16)), y ∈ pc.1.set :=
  View.cover_of_tiled [⟨rTile, p0⟩] S1x2048x1024.size (by rfl) y

set_option maxHeartbeats 2000000 in
/-- The body on whole staging buffers: the three inputs at their contents, the two outputs at anything; it ends with
    the inputs as they were and the outputs at the two products. -/
theorem sound_kernel0 (c : Dev nD) (E : Set ℕ) (i : grid0.Coords)
    (arg2 : Memref sig .tc .vmem S1x2048x1024 .bf16) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1x2048x1024 .bf16) (harg5 : arg5.IsWhole)
    (arg6 : Memref sig .tc .vmem S1x2048x1024 .bf16) (harg6 : arg6.IsWhole)
    (x0 : Vec F S1x2048x1024 .bf16) (x1 x2 : Vec F S1024x1024 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1) ∗ owns (c : Thread nD τ) arg6 fullShare (out0_4 x0 x2)) -∗ K ⟨⟩))
      ⊢ wp frame (wpE (defs₀ (F := F)) Variants.none c none) E (cc0__kv_proj_kernel i arg2 harg2 arg3 harg3 arg4 harg4 arg5 harg5 arg6 harg6) K := by
  simp only [cc0__kv_proj_kernel_eq_skeleton]; unfold cc0__kv_proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_tile _)
  iexists _; isplitr
  swap; · iexact H4
  ipureintro
  exact View.read_writes_eq_canon _ _ _ (cover0_tile _)

/-- The proof data of the call on core `c`: the arrays as the call finds them; after the body each input's buffer at
    its block and the two outputs' at the products of the point's blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipelined call's obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Run

end
-- ==== Proof.KMain.lean ====
/-
  The whole program's run: ten host operations (the activations and the three transposed weight matrices converted,
  the query weights scaled by 1/32), the key/value projection call, the attention call. The buffers' contents at each
  boundary are a fold from the launch memory; every weakly fair execution terminates with the result array at what the
  attention call's write-backs leave and the four argument arrays as launched.
-/
import proofs.«101180_j55310588838086_2_alg».proof.Proof.KBody1
import proofs.«101180_j55310588838086_2_alg».proof.Proof.KRegion0
import proofs.«101180_j55310588838086_2_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev W0 : Dev nD → Valuation τ sig (Elt F) := fun c b => m (c, b)
/-- After the host operations (the projection call's entry). -/
abbrev W1 : Dev nD → Valuation τ sig (Elt F) := fun c => StableHlo.after hostOps0 (W0 m c)
abbrev VV1 : (c : Dev nD) → (b : Ref sig .tc) → Buf (Elt F) ((c : Thread nD τ).loc b) := fun c b => W1 m c b
/-- After the projection call: its arrays at what its write-backs leave, every other buffer as entered. -/
def W2 (c : Dev nD) : Valuation τ sig (Elt F) :=
  Pipeline.withArrays spec0 c (W1 m c) fun w => (dat0 (VV1 m) c).arrAt w cfg0.N
theorem W2_arr (c : Dev nD) (w : Fin cfg0.W) :
    W2 m c (Proc.devRef .tc (Pipeline.arrRef spec0 w)) = (dat0 (VV1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev VV2 : (c : Dev nD) → (b : Ref sig .tc) → Buf (Elt F) ((c : Thread nD τ).loc b) := fun c b => W2 m c b
theorem hF0 (c : Dev nD) (w : Fin cfg0.W) : (dat0 (VV1 m) c).arrAt w cfg0.N = VV2 m c (Pipeline.arrRef spec0 w) :=
  (W2_arr m c w).symm
theorem hrest0 (c : Dev nD) : ∀ b, b ∉ Finset.univ.image (Pipeline.arrRef spec0) → VV2 m c b = VV1 m c b :=
  fun b hb => W2_of_ne m c b fun w e => hb (Finset.mem_image.mpr ⟨w, Finset.mem_univ _, e⟩)

/-- After the attention call. -/
def W3 (c : Dev nD) : Valuation τ sig (Elt F) :=
  Pipeline.withArrays spec1 c (W2 m c) fun w => (dat1 (VV2 m) c).arrAt w cfg1.N
theorem W3_arr (c : Dev nD) (w : Fin cfg1.W) :
    W3 m c (Proc.devRef .tc (Pipeline.arrRef spec1 w)) = (dat1 (VV2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev VV3 : (c : Dev nD) → (b : Ref sig .tc) → Buf (Elt F) ((c : Thread nD τ).loc b) := fun c b => W3 m c b
theorem hF1 (c : Dev nD) (w : Fin cfg1.W) : (dat1 (VV2 m) c).arrAt w cfg1.N = VV3 m c (Pipeline.arrRef spec1 w) :=
  (W3_arr m c w).symm
theorem hrest1 (c : Dev nD) : ∀ b, b ∉ Finset.univ.image (Pipeline.arrRef spec1) → VV3 m c b = VV2 m c b :=
  fun b hb => W3_of_ne m c b fun w e => hb (Finset.mem_image.mpr ⟨w, Finset.mem_univ _, e⟩)

/-- An argument array ends as launched: no host operation writes it and neither call stages it. -/
theorem W3_arg (c : Dev nD) (r : Ref sig .tc) (h0 : ∀ w, Pipeline.arrRef spec0 w ≠ r) (h1 : ∀ w, Pipeline.arrRef spec1 w ≠ r)
    (hw : r ∉ (hostOps0_W : List (Ref sig .tc))) : W3 m c (Proc.devRef .tc r) = m ((c : Thread nD τ).loc r) :=
  (W3_of_ne m c r h1).trans ((W2_of_ne m c r h0).trans (Gen.V1_of m c r hw))

/-! ## The proof data and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (VV1 m) c
  | ⟨1, _⟩ => fun c => dat1 (VV2 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The two calls as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (VV1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VV1 m c) (VV2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VV2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VV2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VV2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (VV2 m) c); unfold Pipeline.ΦA
    iintro ⟨Hp, -, Hr⟩
    isplitl [Hr]; · iexact Hr
    iexact Hp
  hout c := by
    rw [Pipeline.ownSems0_none]
    refine BIBase.Entails.trans (hout1 (VV2 m) c) ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VV2 m c) (VV3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub Gen.hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting, with
    the result array at what the attention call's write-backs leave and the four argument arrays as launched. -/
theorem run_main (ρ : Dev nD → PrngReg) : θ_run defs (onTc (τ := τ) (main (F := F))) ⟨m, fun _ => 0, ρ⟩ (fun r => ∀ c : Dev nD,
      r.2.mem ((c.tc : Thread nD τ).loc main_v10) = (dat1 (VV2 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v10 (by decide))).trans (W3_arr m c 4),
       (h c _ (mem_uc main_arg0 (by decide))).trans (W3_arg m c main_arg0 (by decide) (by decide) (by decide)),
       (h c _ (mem_uc main_arg1 (by decide))).trans (W3_arg m c main_arg1 (by decide) (by decide) (by decide)),
       (h c _ (mem_uc main_arg2 (by decide))).trans (W3_arg m c main_arg2 (by decide) (by decide) (by decide)),
       (h c _ (mem_uc main_arg3 (by decide))).trans (W3_arg m c main_arg3 (by decide) (by decide) (by decide))⟩)

end Cert.KernelIdeal.Run

end
-- ==== Proof.KPieces.lean ====
/-
  What the attention body leaves in its scratch buffers and its output buffer, case by case, as the body's own
  arithmetic of the buffers it was handed: the first key tile projects the queries and takes a streaming step from the
  reset state; every later tile takes a step from the state before; the last also stores the quotient.
-/
import proofs.«101180_j55310588838086_2_alg».proof.Proof.KFrame1
import Idealize.ShloMosaic.Lib.Pipeline.Value

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- One streaming step on the scratch state: the new running maximum, normaliser and weighted sum. -/
def stepM (q : Vec F S2048x1024 .bf16) (x2 : Vec F S1x512x1024 .bf16) (m : Vec F S2048x1 .f32) : Vec F S2048x1 .f32 :=
  k1_pay2 (k1_pay9 q x2 m)
def stepL (q : Vec F S2048x1024 .bf16) (x2 : Vec F S1x512x1024 .bf16) (m l : Vec F S2048x1 .f32) : Vec F S2048x1 .f32 :=
  k1_pay12 q x2 m l
def stepAcc (q : Vec F S2048x1024 .bf16) (x2 x3 : Vec F S1x512x1024 .bf16) (m : Vec F S2048x1 .f32) (acc : Vec F S2048x1024 .f32) :
    Vec F S2048x1024 .f32 :=
  k1_pay1 (k1_pay13 q x2 x3 m acc)

/-- The zero offsets of a whole rank-2 rectangle, and of a whole rank-3 one, as constant functions. -/
theorem pieces_hz2 : (![0, 0] : Fin 2 → Nat) = fun _ => 0 := funext fun a => by fin_cases a <;> rfl
theorem pieces_hz3 : (![0, 0, 0] : Fin 3 → Nat) = fun _ => 0 := funext fun a => by fin_cases a <;> rfl

/-! ## The first key tile of a query tile -/

theorem caseA_q (c : Dev nD) (t : Fin cfg1.N) (hc0 : cond1_0 (grid1.coords t)) (hc1 : ¬cond1_1 (grid1.coords t)) :
    (caseA V c t hc0 hc1).q = k1_pay4 (iblk1 V c 0 t) (iblk1 V c 1 t) := by
  unfold caseA; dsimp only
  rw [View.read_writes_eq_canon _ _ _ (scoverA_0 V c t hc0 hc1)]
  unfold kernelRun1_A
  dsimp only
  sl_unfold_words
  rw [View.canon_unit_zero (S := S2048x1024) pieces_hz2]
  simp only [View.readAt_eq_ld, (hs1_0 t).read_unread, (hs1_1 t).read_unread, (hs1_2 t).read_unread, (hs1_3 t).read_unread, (Memref.isWhole_whole _).read_unread,
    View.ld_unit_zero (S := S2048x1024) pieces_hz2, View.ld_unit_zero (S := S2048x1) pieces_hz2, View.ld_unit_zero (S := S1024x1024) pieces_hz2,
    View.ld_unit_zero (S := S1x512x1024) pieces_hz3, View.ld_unit_zero (S := S1x2048x1024) pieces_hz3]
theorem caseA_m (c : Dev nD) (t : Fin cfg1.N) (hc0 : cond1_0 (grid1.coords t)) (hc1 : ¬cond1_1 (grid1.coords t)) :
    (caseA V c t hc0 hc1).m = stepM (k1_pay4 (iblk1 V c 0 t) (iblk1 V c 1 t)) (iblk1 V c 2 t) (k1_pay5 (F := F)) := by
  unfold caseA; dsimp only
  rw [View.read_writes_eq_canon _ _ _ (scoverA_1 V c t hc0 hc1)]
  unfold kernelRun1_A
  dsimp only
  sl_unfold_words
  rw [View.canon_cons_unit_zero (S := S2048x1) pieces_hz2, View.readCov_unit_zero (S := S2048x1024) _ pieces_hz2,
    View.readCov_unit_zero (S := S2048x1) _ pieces_hz2]
  unfold stepM
  simp only [View.readAt_eq_ld, (hs1_0 t).read_unread, (hs1_1 t).read_unread, (hs1_2 t).read_unread, (hs1_3 t).read_unread, (Memref.isWhole_whole _).read_unread,
    View.ld_unit_zero (S := S2048x1024) pieces_hz2, View.ld_unit_zero (S := S2048x1) pieces_hz2, View.ld_unit_zero (S := S1024x1024) pieces_hz2,
    View.ld_unit_zero (S := S1x512x1024) pieces_hz3, View.ld_unit_zero (S := S1x2048x1024) pieces_hz3]
theorem caseA_l (c : Dev nD) (t : Fin cfg1.N) (hc0 : cond1_0 (grid1.coords t)) (hc1 : ¬cond1_1 (grid1.coords t)) :
    (caseA V c t hc0 hc1).l = stepL (k1_pay4 (iblk1 V c 0 t) (iblk1 V c 1 t)) (iblk1 V c 2 t) (k1_pay5 (F := F)) (k1_pay6 (F := F)) := by
  unfold caseA; dsimp only
  rw [View.read_writes_eq_canon _ _ _ (scoverA_2 V c t hc0 hc1)]
  unfold kernelRun1_A
  dsimp only
  sl_unfold_words
  rw [View.canon_cons_unit_zero (S := S2048x1) pieces_hz2, View.readCov_unit_zero (S := S2048x1024) _ pieces_hz2,
    View.readCov_unit_zero (S := S2048x1) _ pieces_hz2, View.readCov_unit_zero (S := S2048x1) _ pieces_hz2]
  unfold stepL
  simp only [View.readAt_eq_ld, (hs1_0 t).read_unread, (hs1_1 t).read_unread, (hs1_2 t).read_unread, (hs1_3 t).read_unread, (Memref.isWhole_whole _).read_unread,
    View.ld_unit_zero (S := S2048x1024) pieces_hz2, View.ld_unit_zero (S := S2048x1) pieces_hz2, View.ld_unit_zero (S := S1024x1024) pieces_hz2,
    View.ld_unit_zero (S := S1x512x1024) pieces_hz3, View.ld_unit_zero (S := S1x2048x1024) pieces_hz3]
theorem caseA_acc (c : Dev nD) (t : Fin cfg1.N) (hc0 : cond1_0 (grid1.coords t)) (hc1 : ¬cond1_1 (grid1.coords t)) :
    (caseA V c t hc0 hc1).acc = stepAcc (k1_pay4 (iblk1 V c 0 t) (iblk1 V c 1 t)) (iblk1 V c 2 t) (iblk1 V c 3 t) (k1_pay5 (F := F)) (k1_pay7 (F := F)) := by
  unfold caseA; dsimp only
  rw [View.read_writes_eq_canon _ _ _ (scoverA_3 V c t hc0 hc1)]
  unfold kernelRun1_A
  dsimp only
  sl_unfold_words
  rw [View.canon_cons_unit_zero (S := S2048x1024) pieces_hz2, View.readCov_unit_zero (S := S2048x1024) _ pieces_hz2,
    View.readCov_unit_zero (S := S2048x1) _ pieces_hz2, View.readCov_unit_zero (S := S2048x1024) _ pieces_hz2]
  unfold stepAcc
  simp only [View.readAt_eq_ld, (hs1_0 t).read_unread, (hs1_1 t).read_unread, (hs1_2 t).read_unread, (hs1_3 t).read_unread, (Memref.isWhole_whole _).read_unread,
    View.ld_unit_zero (S := S2048x1024) pieces_hz2, View.ld_unit_zero (S := S2048x1) pieces_hz2, View.ld_unit_zero (S := S1024x1024) pieces_hz2,
    View.ld_unit_zero (S := S1x512x1024) pieces_hz3, View.ld_unit_zero (S := S1x2048x1024) pieces_hz3]

/-! ## A middle key tile -/

theorem caseB_q (c : Dev nD) (t : Fin cfg1.N) (hc0 : ¬cond1_0 (grid1.coords t)) (hc1 : ¬cond1_1 (grid1.coords t)) (p : St1 F) :
    (caseB V c t hc0 hc1 p).q = p.q := by
  unfold caseB; dsimp only
theorem caseB_m (c : Dev nD) (t : Fin cfg1.N) (hc0 : ¬cond1_0 (grid1.coords t)) (hc1 : ¬cond1_1 (grid1.coords t)) (p : St1 F) :
    (caseB V c t hc0 hc1 p).m = stepM p.q (iblk1 V c 2 t) p.m := by
  unfold caseB; dsimp only
  rw [View.read_writes_eq_canon _ _ _ (scoverB_1 V c t hc0 hc1 p)]
  unfold kernelRun1_B
  dsimp only
  sl_unfold_words
  rw [View.canon_unit_zero (S := S2048x1) pieces_hz2]
  unfold stepM
  simp only [View.readAt_eq_ld, (hs1_2 t).read_unread, (hs1_3 t).read_unread, (Memref.isWhole_whole _).read_unread,
    View.ld_unit_zero (S := S2048x1024) pieces_hz2, View.ld_unit_zero (S := S2048x1) pieces_hz2, View.ld_unit_zero (S := S1x512x1024) pieces_hz3]
theorem caseB_l (c : Dev nD) (t : Fin cfg1.N) (hc0 : ¬cond1_0 (grid1.coords t)) (hc1 : ¬cond1_1 (grid1.coords t)) (p : St1 F) :
    (caseB V c t hc0 hc1 p).l = stepL p.q (iblk1 V c 2 t) p.m p.l := by
  unfold caseB; dsimp only
  rw [View.read_writes_eq_canon _ _ _ (scoverB_2 V c t hc0 hc1 p)]
  unfold kernelRun1_B
  dsimp only
  sl_unfold_words
  rw [View.canon_unit_zero (S := S2048x1) pieces_hz2]
  unfold stepL
  simp only [View.readAt_eq_ld, (hs1_2 t).read_unread, (hs1_3 t).read_unread, (Memref.isWhole_whole _).read_unread,
    View.ld_unit_zero (S := S2048x1024) pieces_hz2, View.ld_unit_zero (S := S2048x1) pieces_hz2, View.ld_unit_zero (S := S1x512x1024) pieces_hz3]
theorem caseB_acc (c : Dev nD) (t : Fin cfg1.N) (hc0 : ¬cond1_0 (grid1.coords t)) (hc1 : ¬cond1_1 (grid1.coords t)) (p : St1 F) :
    (caseB V c t hc0 hc1 p).acc = stepAcc p.q (iblk1 V c 2 t) (iblk1 V c 3 t) p.m p.acc := by
  unfold caseB; dsimp only
  rw [View.read_writes_eq_canon _ _ _ (scoverB_3 V c t hc0 hc1 p)]
  unfold kernelRun1_B
  dsimp only
  sl_unfold_words
  rw [View.canon_unit_zero (S := S2048x1024) pieces_hz2]
  unfold stepAcc
  simp only [View.readAt_eq_ld, (hs1_2 t).read_unread, (hs1_3 t).read_unread, (Memref.isWhole_whole _).read_unread,
    View.ld_unit_zero (S := S2048x1024) pieces_hz2, View.ld_unit_zero (S := S2048x1) pieces_hz2, View.ld_unit_zero (S := S1x512x1024) pieces_hz3]

/-! ## The last key tile -/

theorem caseC_q (c : Dev nD) (t : Fin cfg1.N) (hc0 : ¬cond1_0 (grid1.coords t)) (hc1 : cond1_1 (grid1.coords t)) (p : St1 F) :
    (caseC V c t hc0 hc1 p).q = p.q := by
  unfold caseC; dsimp only
theorem caseC_m (c : Dev nD) (t : Fin cfg1.N) (hc0 : ¬cond1_0 (grid1.coords t)) (hc1 : cond1_1 (grid1.coords t)) (p : St1 F) :
    (caseC V c t hc0 hc1 p).m = stepM p.q (iblk1 V c 2 t) p.m := by
  unfold caseC; dsimp only
  rw [View.read_writes_eq_canon _ _ _ (scoverC_1 V c t hc0 hc1 p)]
  unfold kernelRun1_C
  dsimp only
  sl_unfold_words
  rw [View.canon_unit_zero (S := S2048x1) pieces_hz2]
  unfold stepM
  simp only [View.readAt_eq_ld, (hs1_2 t).read_unread, (hs1_3 t).read_unread, (Memref.isWhole_whole _).read_unread,
    View.ld_unit_zero (S := S2048x1024) pieces_hz2, View.ld_unit_zero (S := S2048x1) pieces_hz2, View.ld_unit_zero (S := S1x512x1024) pieces_hz3]
theorem caseC_l (c : Dev nD) (t : Fin cfg1.N) (hc0 : ¬cond1_0 (grid1.coords t)) (hc1 : cond1_1 (grid1.coords t)) (p : St1 F) :
    (caseC V c t hc0 hc1 p).l = stepL p.q (iblk1 V c 2 t) p.m p.l := by
  unfold caseC; dsimp only
  rw [View.read_writes_eq_canon _ _ _ (scoverC_2 V c t hc0 hc1 p)]
  unfold kernelRun1_C
  dsimp only
  sl_unfold_words
  rw [View.canon_unit_zero (S := S2048x1) pieces_hz2]
  unfold stepL
  simp only [View.readAt_eq_ld, (hs1_2 t).read_unread, (hs1_3 t).read_unread, (Memref.isWhole_whole _).read_unread,
    View.ld_unit_zero (S := S2048x1024) pieces_hz2, View.ld_unit_zero (S := S2048x1) pieces_hz2, View.ld_unit_zero (S := S1x512x1024) pieces_hz3]
theorem caseC_acc (c : Dev nD) (t : Fin cfg1.N) (hc0 : ¬cond1_0 (grid1.coords t)) (hc1 : cond1_1 (grid1.coords t)) (p : St1 F) :
    (caseC V c t hc0 hc1 p).acc = stepAcc p.q (iblk1 V c 2 t) (iblk1 V c 3 t) p.m p.acc := by
  unfold caseC; dsimp only
  rw [View.read_writes_eq_canon _ _ _ (scoverC_3 V c t hc0 hc1 p)]
  unfold kernelRun1_C
  dsimp only
  sl_unfold_words
  rw [View.canon_unit_zero (S := S2048x1024) pieces_hz2]
  unfold stepAcc
  simp only [View.readAt_eq_ld, (hs1_2 t).read_unread, (hs1_3 t).read_unread, (Memref.isWhole_whole _).read_unread,
    View.ld_unit_zero (S := S2048x1024) pieces_hz2, View.ld_unit_zero (S := S2048x1) pieces_hz2, View.ld_unit_zero (S := S1x512x1024) pieces_hz3]
/-- The output tile: the new weighted sum over the new normaliser. -/
theorem caseC_out (c : Dev nD) (t : Fin cfg1.N) (hc0 : ¬cond1_0 (grid1.coords t)) (hc1 : cond1_1 (grid1.coords t)) (p : St1 F) :
    (caseC V c t hc0 hc1 p).out = k1_pay3 (stepAcc p.q (iblk1 V c 2 t) (iblk1 V c 3 t) p.m p.acc) (stepL p.q (iblk1 V c 2 t) p.m p.l) := by
  unfold caseC; dsimp only
  rw [View.read_writes_eq_canon _ _ _ (coverC_4 V c t hc0 hc1 p)]
  unfold kernelRun1_C
  dsimp only
  sl_unfold_words
  rw [View.canon_unit_zero (S := S1x2048x1024) pieces_hz3, View.readCov_unit_zero (S := S2048x1024) _ pieces_hz2,
    View.readCov_unit_zero (S := S2048x1) _ pieces_hz2]
  unfold stepAcc stepL
  simp only [View.readAt_eq_ld, (hs1_0 t).read_unread, (hs1_1 t).read_unread, (hs1_2 t).read_unread, (hs1_3 t).read_unread, (Memref.isWhole_whole _).read_unread,
    View.ld_unit_zero (S := S2048x1024) pieces_hz2, View.ld_unit_zero (S := S2048x1) pieces_hz2, View.ld_unit_zero (S := S1024x1024) pieces_hz2,
    View.ld_unit_zero (S := S1x512x1024) pieces_hz3, View.ld_unit_zero (S := S1x2048x1024) pieces_hz3]

end Region1

end Cert.KernelIdeal.Run

end
-- ==== Proof.LibLayout.lean ====
/-
  Layout operations read at an index, for the shapes a row-batched kernel meets: a stack [a, b, c] of b rows per
  member flattened to [a·b, c] and back (row p·b + n of the flat array is row n of member p), a per-member row [a, c]
  given a unit middle axis [a, 1, c] and broadcast over the b rows of its member, and a vector [a] stood up as a
  column [a, 1].  Row-major order: the position of (p, n, d) in [a, b, c] is (p·b + n)·c + d.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- [a, b, c] flattened to [m, c] with m = a·b: row r = p·b + n of the result is row n of member p. -/
theorem shapeCast_abc_mc_apply {a b c m : ℕ} (x : (⟨3, ![a, b, c]⟩ : Shape).Idx → α)
    (h : (⟨3, ![a, b, c]⟩ : Shape).ShapeCasts ⟨2, ![m, c]⟩) (r : Fin m) (p : Fin a) (n : Fin b) (d : Fin c)
    (hr : r.val = p.val * b + n.val) : shapeCast ⟨2, ![m, c]⟩ x h (ix2 r d) = x (ix3 p n d) :=
  shapeCast_apply x h _ _ (by
    rw [Shape.rowMajor_val_three, Shape.rowMajor_val_two]
    show (p.val * b + n.val) * c + d.val = r.val * c + d.val
    rw [hr])

/-- [m, c] with m = a·b split to [a, b, c]: row n of member p is row r = p·b + n of the operand. -/
theorem shapeCast_mc_abc_apply {a b c m : ℕ} (x : (⟨2, ![m, c]⟩ : Shape).Idx → α)
    (h : (⟨2, ![m, c]⟩ : Shape).ShapeCasts ⟨3, ![a, b, c]⟩) (r : Fin m) (p : Fin a) (n : Fin b) (d : Fin c)
    (hr : r.val = p.val * b + n.val) : shapeCast ⟨3, ![a, b, c]⟩ x h (ix3 p n d) = x (ix2 r d) :=
  shapeCast_apply x h _ _ (by
    rw [Shape.rowMajor_val_three, Shape.rowMajor_val_two]
    show r.val * c + d.val = (p.val * b + n.val) * c + d.val
    rw [hr])

/-- [a, c] given a unit middle axis [a, 1, c]: the entries are the same. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- [a, 1, c] broadcast over the middle axis to [a, b, c]: every row n of member p is the member's one row. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (d : Fin c) :
    broadcastTo ⟨3, ![a, b, c]⟩ v h (ix3 p n d) = v (ix3 p (0 : Fin 1) d) := by
  refine broadcastTo_apply v h (ix3 p n d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A per-member row [a, c] given a unit middle axis and broadcast over its member's b rows: entry (p, n, d) is the
    member's entry (p, d). -/
theorem keep_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (n : Fin b) (d : Fin c) :
    broadcastTo ⟨3, ![a, b, c]⟩ (shapeCast ⟨3, ![a, 1, c]⟩ x h1) h2 (ix3 p n d) = x (ix2 p d) := by
  rw [broadcastTo_a1c_abc_apply, shapeCast_ac_a1c_apply]

/-- A vector [a] stood up as a column [a, 1]. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A bias vector [b] as a row [1, b] broadcast down a rows: entry (p, q) is the bias at q. -/
theorem bias_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

end Cert.LibLayout

end
-- ==== Proof.LibRowsDot.lean ====
/-
  A product of a matrix with the transpose of another, A · Bᵀ ("bi,hi->bh": both operands contracted on their last
  axis), as a kernel's `tpu.matmul` into the zero accumulator, read at the extended reals at an index given by
  coordinates: entry (p, q) is the sum over k of A(p, k) · B(q, k). Stated for arbitrary extents and operand formats,
  over the library's dimension numbers `DotDims.transposedRhs M K N`.
-/
import Idealize.ShloMosaic.Lib.ValueIdx
import Idealize.ShloMosaic.PureOps.Ideal.Laws

namespace Cert.Lib.RowsDot

open Idealize.ShloMosaic Idealize.ShloMosaic.ValueIdx

variable {M K N : ℕ} {φ₁ φ₂ : FTy}

/-- The left operand's row is the output's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The right operand's row is the output's column. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- Entry (p, q) of A · Bᵀ accumulated into zero is the sum over k of A(p, k) · B(q, k). -/
theorem matmul_zero_apply (A : FVec Ideal ⟨2, ![M, K]⟩ φ₁) (B : FVec Ideal ⟨2, ![N, K]⟩ φ₂) (p : Fin M) (q : Fin N) :
    matmul (DotDims.transposedRhs M K N) none A B (constant ⟨2, ![M, N]⟩ .f32 0x00000000#32) (ix2 p q)
      = ∑ k : Fin K, A (ix2 p k) * B (ix2 q k) := by
  simp only [matmul]
  rw [Ideal.matmul_constant_zero_apply,
    ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q)
      ((contrEquiv1 (DotDims.transposedRhs M K N) K rfl rfl).symm k) = ix2 p k := funext fun a => Fin.ext (by
    match a with
    | ⟨0, _⟩ => exact lhs_row _ _
    | ⟨1, _⟩ => exact ((DotDims.transposedRhs M K N).lhsIdx_val_of_single rfl _ _).trans hk)
  have er : (DotDims.transposedRhs M K N).rhsIdx (ix2 p q)
      ((contrEquiv1 (DotDims.transposedRhs M K N) K rfl rfl).symm k) = ix2 q k := funext fun a => Fin.ext (by
    match a with
    | ⟨0, _⟩ => exact rhs_row _ _
    | ⟨1, _⟩ => exact ((DotDims.transposedRhs M K N).rhsIdx_val_of_single rfl _ _).trans hk)
  rw [el, er]

end Cert.Lib.RowsDot
-- ==== Proof.LibRowMax.lean ====
/-
  A maximum along the rows of a matrix, read at an index.  A `vector.multi_reduction <maximumf>` over axis 1 of an
  [a, b] matrix of extended reals, from the accumulator word of −∞, has at p the fold of `max` from that word's value
  over the b columns of row p; stood up as an [a, 1] column (a keepdims maximum) it has that fold at (p, ·).
-/
import Idealize.ShloMosaic.Lib.Pipeline.Value
import Idealize.ShloMosaic.Lib.ValueIdx
import Idealize.ShloMosaic.Lib.ValueLayout
import Idealize.ShloMosaic.PureOps.Ideal.Laws
import proofs.«101180_j55310588838086_2_alg».proof.Proof.LibLayout

noncomputable section

namespace Cert.Lib.RowMax

open Idealize.ShloMosaic Idealize.ShloMosaic.ValueIdx

/-- The maximum over axis 1 of an [a, b] matrix, from the accumulator word of −∞: entry p is the fold of `max` over
    row p, started at that word's value. -/
theorem reduce_cols_max {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  refine Finset.fold_congr fun k _ => congrArg src (funext fun c => Fin.ext ?_)
  rw [h.lift_val]
  match c with
  | ⟨0, _⟩ => rfl
  | ⟨1, _⟩ => rfl

/-- The keepdims row maximum: the column of the maxima over axis 1, at (p, ·), is the fold of `max` over row p. -/
theorem rowmax_column {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ)
    (hc : (⟨1, ![a]⟩ : Shape).ShapeCasts ⟨2, ![a, 1]⟩) (p : Fin a) (u : Fin 1) :
    shapeCast ⟨2, ![a, 1]⟩ (multiReduction .maximumf [1] ⟨1, ![a]⟩ src 0xFF800000#32 h hφ hacc) hc (ix2 p u)
      = (Finset.univ : Finset (Fin b)).fold max (Ideal.ofBits .f32 0xFF800000#32) (fun k => src (ix2 p k)) :=
  (Cert.LibLayout.shapeCast_a_a1_apply _ hc p u).trans (reduce_cols_max src h hφ hacc p)

end Cert.Lib.RowMax

end
-- ==== Proof.LibRowSum.lean ====
/-
  A sum along the rows of a matrix, read at an index.  A `vector.multi_reduction <add>` over axis 1 of an [a, b]
  matrix of extended reals, from the zero accumulator, has at p the sum over the b columns of row p; stood up as an
  [a, 1] column (a keepdims sum) it has that sum at (p, ·).  The squared row norms ‖x_p‖² of a matrix are the case
  of the matrix multiplied entrywise by itself.
-/
import Idealize.ShloMosaic.Lib.Pipeline.Value
import Idealize.ShloMosaic.Lib.ValueIdx
import Idealize.ShloMosaic.Lib.ValueLayout
import Idealize.ShloMosaic.PureOps.Ideal.Laws
import proofs.«101180_j55310588838086_2_alg».proof.Proof.LibLayout

noncomputable section

namespace Cert.Lib.RowSum

open Idealize.ShloMosaic Idealize.ShloMosaic.ValueIdx

/-- The sum over axis 1 of an [a, b] matrix, from a zero accumulator: entry p is the sum of row p. -/
theorem reduce_cols {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun c => Fin.ext ?_)
  rw [h.lift_val]
  match c with
  | ⟨0, _⟩ => rfl
  | ⟨1, _⟩ => rfl

/-- The keepdims row sum: the column of the sums over axis 1, at (p, ·), is the sum of row p. -/
theorem rowsum_column {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ src 0x00000000#32 h hφ hacc) hc (ix2 p u)
      = ∑ k : Fin b, src (ix2 p k) :=
  (Cert.LibLayout.shapeCast_a_a1_apply _ hc p u).trans (reduce_cols src h hφ hacc p)

end Cert.Lib.RowSum

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.LibVecIx2.lean ====
/-
  Vector layout operations of a kernel body read at a rank-2 index built from its two coordinates: a block of a
  matrix (one column, one row, one entry), a column or a row broadcast over a matrix, an entry extracted as a scalar,
  a sum over the rows of a matrix, and a one-row matrix made from a vector. Each is stated in closed form (no side
  condition), so that a rewriting pass can push an index through a long chain of such operations.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.VecIx2

open Idealize.ShloMosaic Idealize.ShloMosaic.ValueIdx

variable {α : Type}

theorem slices_lt0 {a b m n o0 o1 : ℕ} (h : (⟨2, ![a, b]⟩ : Shape).Slices ![o0, o1] ⟨2, ![m, n]⟩) (hm : 0 < m) : o0 < a := by
  obtain ⟨_, h2⟩ := h
  have := h2 (0 : Fin 2)
  have e : (![o0, o1] : Fin 2 → ℕ) 0 + m ≤ a := this
  have e' : o0 + m ≤ a := e
  omega

theorem slices_lt1 {a b m n o0 o1 : ℕ} (h : (⟨2, ![a, b]⟩ : Shape).Slices ![o0, o1] ⟨2, ![m, n]⟩) (hn : 0 < n) : o1 < b := by
  obtain ⟨_, h2⟩ := h
  have := h2 (1 : Fin 2)
  have e : (![o0, o1] : Fin 2 → ℕ) 1 + n ≤ b := this
  have e' : o1 + n ≤ b := e
  omega

/-- Column `o` of a matrix, as an [a, 1] block: entry (p, ·) is the matrix at (p, o). -/
theorem slice_col {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, slices_lt1 h Nat.one_pos⟩) :=
  extractStridedSlice_apply _ _ _ _ _ (fun ax => by
    match ax with
    | ⟨0, _⟩ => exact (Nat.zero_add _).symm
    | ⟨1, _⟩ => show o = o + u.val; omega)

/-- Row `o` of a matrix, as a [1, b] block: entry (·, q) is the matrix at (o, q). -/
theorem slice_row {a b : ℕ} (o : ℕ) (X : (⟨2, ![a, b]⟩ : Shape).Idx → α)
    (h : (⟨2, ![a, b]⟩ : Shape).Slices ![o, 0] ⟨2, ![1, b]⟩) (u : Fin 1) (q : Fin b) :
    extractStridedSlice ⟨2, ![1, b]⟩ ![o, 0] X h (ix2 u q) = X (ix2 ⟨o, slices_lt0 h Nat.one_pos⟩ q) :=
  extractStridedSlice_apply _ _ _ _ _ (fun ax => by
    match ax with
    | ⟨0, _⟩ => show o = o + u.val; omega
    | ⟨1, _⟩ => exact (Nat.zero_add _).symm)

/-- Entry (o0, o1) of a matrix, as a [1, 1] block. -/
theorem slice_11 {a b : ℕ} (o0 o1 : ℕ) (X : (⟨2, ![a, b]⟩ : Shape).Idx → α)
    (h : (⟨2, ![a, b]⟩ : Shape).Slices ![o0, o1] ⟨2, ![1, 1]⟩) (u v : Fin 1) :
    extractStridedSlice ⟨2, ![1, 1]⟩ ![o0, o1] X h (ix2 u v)
      = X (ix2 ⟨o0, slices_lt0 h Nat.one_pos⟩ ⟨o1, slices_lt1 h Nat.one_pos⟩) :=
  extractStridedSlice_apply _ _ _ _ _ (fun ax => by
    match ax with
    | ⟨0, _⟩ => show o0 = o0 + u.val; omega
    | ⟨1, _⟩ => show o1 = o1 + v.val; omega)

/-- The one entry of a [1, 1] matrix extracted as a scalar. -/
theorem extractAt_11 (x : (⟨2, ![1, 1]⟩ : Shape).Idx → α) (h : ∀ a, (![0, 0] : Fin 2 → ℕ) a < (⟨2, ![1, 1]⟩ : Shape).size a) :
    extractAt ![0, 0] x h = x (ix2 (0 : Fin 1) (0 : Fin 1)) := by
  unfold extractAt
  refine congrArg x (funext fun a => ?_)
  match a with
  | ⟨0, _⟩ => rfl
  | ⟨1, _⟩ => rfl

/-- An [a, 1] column broadcast over [a, b]: entry (p, q) is the column at p. -/
theorem bcast_col {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A sum over the rows of an [a, b] matrix of extended reals, from a zero accumulator: entry q is the column's sum. -/
theorem reduce_rows {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  refine Finset.sum_congr rfl fun k _ => congrArg src (funext fun c => Fin.ext ?_)
  rw [h.lift_val]
  match c with
  | ⟨0, _⟩ => rfl
  | ⟨1, _⟩ => rfl

/-- The same sum, with the accumulator's neutrality stated on the words themselves (as a printed program states it). -/
theorem reduce_rows' {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (q : Fin b) :
    multiReduction .add [0] ⟨1, ![b]⟩ src 0x00000000#32 h hφ hacc (ix1 q) = ∑ k : Fin a, src (ix2 k q) :=
  reduce_rows src h hφ hacc q

end Cert.Lib.VecIx2

end
-- ==== Proof.KStepIdeal.lean ====
/-
  The attention body's arithmetic read entry by entry at the extended reals: the score tile as dot products of a query
  row with the tile's key rows, the new running maximum, the two exponentials, the new normaliser and weighted sum, the
  final quotient; and the two projection kernels' products.
-/
import proofs.«101180_j55310588838086_2_alg».proof.Proof.Gen.KernelIdeal.Skeleton
import proofs.«101180_j55310588838086_2_alg».proof.Proof.LibLayout
import proofs.«101180_j55310588838086_2_alg».proof.Proof.LibRowsDot
import proofs.«101180_j55310588838086_2_alg».proof.Proof.LibRowMax
import proofs.«101180_j55310588838086_2_alg».proof.Proof.LibRowSum
import proofs.«101180_j55310588838086_2_alg».proof.Proof.LibPlainDot
import proofs.«101180_j55310588838086_2_alg».proof.Proof.LibVecIx2
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.StepIdeal

open Cert.KernelIdeal Cert.KernelIdeal.Gen
open Idealize.ShloMosaic Idealize.ShloMosaic.ValueIdx

/-- The dot product of query row `r` with key row `k` of the tile. -/
def sc (Q : Vec Ideal S2048x1024 .bf16) (X2 : Vec Ideal S1x512x1024 .bf16) (r : Fin 2048) (k : Fin 512) : EReal :=
  ∑ d : Fin 1024, Q (ix2 r d) * X2 (ix3 (0 : Fin 1) k d)

/-- The score tile. -/
theorem pay8_at (Q : Vec Ideal S2048x1024 .bf16) (X2 : Vec Ideal S1x512x1024 .bf16) (r : Fin 2048) (k : Fin 512) :
    k1_pay8 (F := Ideal) Q X2 (ix2 r k) = sc Q X2 r k := by
  unfold k1_pay8 sc
  refine (Cert.Lib.RowsDot.matmul_zero_apply (M := 2048) (K := 1024) (N := 512) Q
    (shapeCast S512x1024 X2 shapeCasts_S1x512x1024_S512x1024) r k).trans ?_
  refine Finset.sum_congr rfl fun d _ => ?_
  exact congrArg (Q (ix2 r d) * ·)
    (Cert.LibLayout.shapeCast_abc_mc_apply X2 shapeCasts_S1x512x1024_S512x1024 k (0 : Fin 1) k d (by simp))

/-- The new running maximum of row `r`: the old one joined with the tile's row maximum. -/
theorem pay9_at (Q : Vec Ideal S2048x1024 .bf16) (X2 : Vec Ideal S1x512x1024 .bf16) (M : Vec Ideal S2048x1 .f32) (r : Fin 2048) (u : Fin 1) :
    k1_pay9 (F := Ideal) Q X2 M (ix2 r u)
      = max (M (ix2 r u)) (Finset.univ.fold max (Ideal.ofBits .f32 0xFF800000#32) fun k : Fin 512 => sc Q X2 r k) := by
  unfold k1_pay9
  rw [maximumf_apply]
  refine congrArg (max (M (ix2 r u))) ?_
  refine (Cert.Lib.RowMax.rowmax_column (k1_pay8 (F := Ideal) Q X2) reduces_S2048x512_S2048 (.inl rfl) rfl
    shapeCasts_S2048_S2048x1 r u).trans ?_
  exact Finset.fold_congr fun k _ => pay8_at Q X2 r k

/-- The rescaling factor exp (old maximum − new maximum). -/
theorem pay10_at (Q : Vec Ideal S2048x1024 .bf16) (X2 : Vec Ideal S1x512x1024 .bf16) (M : Vec Ideal S2048x1 .f32) (r : Fin 2048) (u : Fin 1) :
    k1_pay10 (F := Ideal) Q X2 M (ix2 r u) = Ideal.exp (M (ix2 r u) - k1_pay9 (F := Ideal) Q X2 M (ix2 r u)) := by
  unfold k1_pay10
  rfl

/-- The tile's exponentials exp (score − new maximum). -/
theorem pay11_at (Q : Vec Ideal S2048x1024 .bf16) (X2 : Vec Ideal S1x512x1024 .bf16) (M : Vec Ideal S2048x1 .f32) (r : Fin 2048) (k : Fin 512) :
    k1_pay11 (F := Ideal) Q X2 M (ix2 r k) = Ideal.exp (sc Q X2 r k - k1_pay9 (F := Ideal) Q X2 M (ix2 r (0 : Fin 1))) := by
  unfold k1_pay11
  show Ideal.exp (k1_pay8 (F := Ideal) Q X2 (ix2 r k)
    - broadcastTo S2048x512 (k1_pay9 (F := Ideal) Q X2 M) broadcasts_S2048x1_S2048x512 (ix2 r k)) = _
  rw [pay8_at, Cert.Lib.VecIx2.bcast_col]

/-- The new normaliser: the old one rescaled plus the tile's exponentials summed. -/
theorem pay12_at (Q : Vec Ideal S2048x1024 .bf16) (X2 : Vec Ideal S1x512x1024 .bf16) (M L : Vec Ideal S2048x1 .f32) (r : Fin 2048) (u : Fin 1) :
    k1_pay12 (F := Ideal) Q X2 M L (ix2 r u)
      = k1_pay10 (F := Ideal) Q X2 M (ix2 r u) * L (ix2 r u) + ∑ k : Fin 512, k1_pay11 (F := Ideal) Q X2 M (ix2 r k) := by
  unfold k1_pay12
  simp only [shapeCast_self]
  rw [addf_apply, mulf_apply]
  refine congrArg (k1_pay10 (F := Ideal) Q X2 M (ix2 r u) * L (ix2 r u) + ·) ?_
  exact Cert.Lib.RowSum.rowsum_column (k1_pay11 (F := Ideal) Q X2 M) reduces_S2048x512_S2048 (.inl rfl) rfl
    shapeCasts_S2048_S2048x1 r u

/-- The new weighted sum: the old one rescaled plus the tile's exponentials against the tile's value rows. -/
theorem pay13_at (Q : Vec Ideal S2048x1024 .bf16) (X2 X3 : Vec Ideal S1x512x1024 .bf16) (M : Vec Ideal S2048x1 .f32)
    (A : Vec Ideal S2048x1024 .f32) (r : Fin 2048) (e : Fin 1024) :
    k1_pay13 (F := Ideal) Q X2 X3 M A (ix2 r e)
      = k1_pay10 (F := Ideal) Q X2 M (ix2 r (0 : Fin 1)) * A (ix2 r e)
        + ∑ k : Fin 512, k1_pay11 (F := Ideal) Q X2 M (ix2 r k) * X3 (ix3 (0 : Fin 1) k e) := by
  unfold k1_pay13
  rw [addf_apply, mulf_apply, Cert.Lib.VecIx2.bcast_col]
  refine congrArg (k1_pay10 (F := Ideal) Q X2 M (ix2 r (0 : Fin 1)) * A (ix2 r e) + ·) ?_
  refine (Cert.PlainDot.matmul_zero_plain_apply (M := 2048) (K := 512) (N := 1024) (φ₁ := .bf16) (φ₂ := .bf16) none
    (truncf .bf16 (k1_pay11 (F := Ideal) Q X2 M) bitsLt_bf16_f32)
    (shapeCast S512x1024 X3 shapeCasts_S1x512x1024_S512x1024) r e).trans ?_
  refine Finset.sum_congr rfl fun k _ => ?_
  rw [truncf_apply]
  exact congrArg (k1_pay11 (F := Ideal) Q X2 M (ix2 r k) * ·)
    (Cert.LibLayout.shapeCast_abc_mc_apply X3 shapeCasts_S1x512x1024_S512x1024 k (0 : Fin 1) k e (by simp))

/-- The output tile: the weighted sum over the normaliser. -/
theorem pay3_at (A : Vec Ideal S2048x1024 .f32) (L : Vec Ideal S2048x1 .f32) (u : Fin 1) (r : Fin 2048) (e : Fin 1024) :
    k1_pay3 (F := Ideal) A L (ix3 u r e) = Ideal.div (A (ix2 r e)) (L (ix2 r (0 : Fin 1))) := by
  have hu : u = 0 := Subsingleton.elim u 0
  subst hu
  unfold k1_pay3
  refine (Cert.LibLayout.shapeCast_mc_abc_apply _ _ r (0 : Fin 1) r e (by simp)).trans ?_
  rw [divf_apply]
  exact congrArg _ (Cert.Lib.VecIx2.bcast_col _ _ r e)

/-- The projected query tile. -/
theorem pay4_at (X0 : Vec Ideal S1x2048x1024 .bf16) (X1 : Vec Ideal S1024x1024 .bf16) (r : Fin 2048) (e : Fin 1024) :
    k1_pay4 (F := Ideal) X0 X1 (ix2 r e) = ∑ d : Fin 1024, X0 (ix3 (0 : Fin 1) r d) * X1 (ix2 d e) := by
  unfold k1_pay4
  simp only [shapeCast_self]
  rw [truncf_apply]
  refine (Cert.PlainDot.matmul_zero_plain_apply (M := 2048) (K := 1024) (N := 1024) (φ₁ := .bf16) (φ₂ := .bf16) none
    (shapeCast S2048x1024 X0 shapeCasts_S1x2048x1024_S2048x1024) X1 r e).trans ?_
  refine Finset.sum_congr rfl fun d _ => ?_
  exact congrArg (· * X1 (ix2 d e))
    (Cert.LibLayout.shapeCast_abc_mc_apply X0 shapeCasts_S1x2048x1024_S2048x1024 r (0 : Fin 1) r d (by simp))

/-- Two stores change nothing but the spelling of the shape. -/
theorem pay1_eq (A : FVec Ideal S2048x1024 .f32) : k1_pay1 (F := Ideal) A = A := by
  unfold k1_pay1
  exact shapeCast_self _ _
theorem pay2_eq (M : FVec Ideal S2048x1 .f32) : k1_pay2 (F := Ideal) M = M := by
  unfold k1_pay2
  exact shapeCast_self _ _

/-- The reset values: −∞ for the maximum, zero for the normaliser and the weighted sum. -/
theorem pay5_at (r : Fin 2048) (u : Fin 1) : k1_pay5 (F := Ideal) (ix2 r u) = Ideal.ofBits .f32 0xFF800000#32 := by
  unfold k1_pay5
  simp only [shapeCast_self]
  rfl
theorem pay6_at (r : Fin 2048) (u : Fin 1) : k1_pay6 (F := Ideal) (ix2 r u) = Ideal.ofBits .f32 0x00000000#32 := by
  unfold k1_pay6
  simp only [shapeCast_self]
  rfl
theorem pay7_at (r : Fin 2048) (e : Fin 1024) : k1_pay7 (F := Ideal) (ix2 r e) = Ideal.ofBits .f32 0x00000000#32 := by
  unfold k1_pay7
  simp only [shapeCast_self]
  rfl

/-- The key and value projection tiles. -/
theorem kpay2_at (X0 : Vec Ideal S1x2048x1024 .bf16) (W : Vec Ideal S1024x1024 .bf16) (u : Fin 1) (r : Fin 2048) (e : Fin 1024) :
    k0_pay2 (F := Ideal) X0 W (ix3 u r e) = ∑ d : Fin 1024, X0 (ix3 (0 : Fin 1) r d) * W (ix2 d e) := by
  have hu : u = 0 := Subsingleton.elim u 0
  subst hu
  unfold k0_pay2 k0_pay1
  simp only [shapeCast_self]
  refine (Cert.LibLayout.shapeCast_mc_abc_apply _ shapeCasts_S2048x1024_S1x2048x1024 r (0 : Fin 1) r e (by simp)).trans ?_
  rw [truncf_apply]
  refine (Cert.PlainDot.matmul_zero_plain_apply (M := 2048) (K := 1024) (N := 1024) (φ₁ := .bf16) (φ₂ := .bf16) none
    (shapeCast S2048x1024 X0 shapeCasts_S1x2048x1024_S2048x1024) W r e).trans ?_
  refine Finset.sum_congr rfl fun d _ => ?_
  exact congrArg (· * W (ix2 d e))
    (Cert.LibLayout.shapeCast_abc_mc_apply X0 shapeCasts_S1x2048x1024_S2048x1024 r (0 : Fin 1) r d (by simp))
theorem kpay3_at (X0 : Vec Ideal S1x2048x1024 .bf16) (W : Vec Ideal S1024x1024 .bf16) (u : Fin 1) (r : Fin 2048) (e : Fin 1024) :
    k0_pay3 (F := Ideal) X0 W (ix3 u r e) = ∑ d : Fin 1024, X0 (ix3 (0 : Fin 1) r d) * W (ix2 d e) := by
  have hu : u = 0 := Subsingleton.elim u 0
  subst hu
  unfold k0_pay3 k0_pay1
  simp only [shapeCast_self]
  refine (Cert.LibLayout.shapeCast_mc_abc_apply _ shapeCasts_S2048x1024_S1x2048x1024 r (0 : Fin 1) r e (by simp)).trans ?_
  rw [truncf_apply]
  refine (Cert.PlainDot.matmul_zero_plain_apply (M := 2048) (K := 1024) (N := 1024) (φ₁ := .bf16) (φ₂ := .bf16) none
    (shapeCast S2048x1024 X0 shapeCasts_S1x2048x1024_S2048x1024) W r e).trans ?_
  refine Finset.sum_congr rfl fun d _ => ?_
  exact congrArg (· * W (ix2 d e))
    (Cert.LibLayout.shapeCast_abc_mc_apply X0 shapeCasts_S1x2048x1024_S2048x1024 r (0 : Fin 1) r d (by simp))

end Cert.KernelIdeal.StepIdeal

end
-- ==== Proof.Spec.lean ====
/-
  Single-head attention over f32[4, 4096, 1024] with linear projections, as one function of the argument
  arrays at the extended reals, index by index: the projections are x · Wᵀ, a row's scores are the dot products of its
  query with every key divided by 32 = √1024, the weights are exp (score − row maximum) over their row sum, and an
  output entry is the weights' sum against a column of the values.
-/
import Idealize.ShloMosaic.PureOps.Ideal
import Idealize.ShloMosaic.Lib.ValueIdx

noncomputable section

namespace Cert.Proof.Spec

open Idealize.ShloMosaic Idealize.ShloMosaic.ValueIdx

/-- The activations' shape and a weight matrix's. -/
abbrev SX : Shape := ⟨3, ![4, 4096, 1024]⟩
abbrev SW : Shape := ⟨2, ![1024, 1024]⟩

/-- A linear projection y = x · Wᵀ at batch `b`, row `r`, output feature `e`. -/
def proj (x : SX.Idx → EReal) (w : SW.Idx → EReal) (b : Fin 4) (r : Fin 4096) (e : Fin 1024) : EReal :=
  ∑ d : Fin 1024, x (ix3 b r d) * w (ix2 e d)

/-- The scaled score of query row `q` against key row `k`: their dot product over the features, divided by 32. -/
def score (x : SX.Idx → EReal) (wq wk : SW.Idx → EReal) (b : Fin 4) (q k : Fin 4096) : EReal :=
  Ideal.div (∑ e : Fin 1024, proj x wq b q e * proj x wk b k e) (Ideal.ofBits .f32 0x42000000#32)

/-- A row's maximal score (the fold starts at −∞, and the result is joined with −∞ once more). -/
def rowMax (x : SX.Idx → EReal) (wq wk : SW.Idx → EReal) (b : Fin 4) (q : Fin 4096) : EReal :=
  max (Ideal.ofBits .f32 0xFF800000#32)
    (Finset.univ.fold max (Ideal.ofBits .f32 0xFF800000#32) fun k : Fin 4096 => score x wq wk b q k)

/-- The exponential of a score less its row's maximum. -/
def expo (x : SX.Idx → EReal) (wq wk : SW.Idx → EReal) (b : Fin 4) (q k : Fin 4096) : EReal :=
  Ideal.exp (score x wq wk b q k - rowMax x wq wk b q)

/-- The attention output: the softmax weights of row `q` summed against column `e` of the values. -/
def attn (x : SX.Idx → EReal) (wq wk wv : SW.Idx → EReal) : SX.Idx → EReal := fun i =>
  ∑ k : Fin 4096,
    Ideal.div (expo x wq wk (i 0) (i 1) k)
      (Ideal.ofBits .f32 0x00000000#32 + ∑ k' : Fin 4096, expo x wq wk (i 0) (i 1) k')
    * proj x wv (i 0) k (i 2)

end Cert.Proof.Spec

end
-- ==== Proof.SpecFlash.lean ====
/-
  The same attention written the streaming way: the query projection carries the factor 1/32, a row's 4096 scores
  are visited in 8 tiles of 512 keys, and a running maximum, a running normaliser and a running weighted sum are
  rescaled at each tile; the output entry is the weighted sum over the normaliser after the last tile.
-/
import proofs.«101180_j55310588838086_2_alg».proof.Proof.Spec

noncomputable section

namespace Cert.Proof.Spec

open Idealize.ShloMosaic Idealize.ShloMosaic.ValueIdx

/-- The query projection with the score scale folded into the weights: x · (Wᵀ · 1/32). -/
def projS (x : SX.Idx → EReal) (w : SW.Idx → EReal) (b : Fin 4) (r : Fin 4096) (e : Fin 1024) : EReal :=
  ∑ d : Fin 1024, x (ix3 b r d) * (w (ix2 e d) * Ideal.ofBits .f32 0x3D000000#32)

/-- Key row `k` of tile `j` (rows j·512 … j·512+511; row 0 beyond the last tile, which nothing reads). -/
def keyRow (j : ℕ) (k : Fin 512) : Fin 4096 := if h : j * 512 + k.val < 4096 then ⟨j * 512 + k.val, h⟩ else 0

/-- The already-scaled score of query row `q` against key `k` of tile `j`. -/
def tileScore (x : SX.Idx → EReal) (wq wk : SW.Idx → EReal) (b : Fin 4) (q : Fin 4096) (j : ℕ) (k : Fin 512) : EReal :=
  ∑ e : Fin 1024, projS x wq b q e * proj x wk b (keyRow j k) e

/-- The streaming state after `j` tiles over extended-real scores `s` and values `v`:
    (running maximum, running normaliser, running weighted sum). -/
def erun (s v : ℕ → Fin 512 → EReal) : ℕ → EReal × EReal × EReal
  | 0 => (⊥, 0, 0)
  | j + 1 =>
    let st := erun s v j
    let m' : EReal := max st.1 (Finset.univ.fold max ⊥ fun k => s j k)
    let α : EReal := Ideal.exp (st.1 - m')
    (m', α * st.2.1 + ∑ k, Ideal.exp (s j k - m'),
         α * st.2.2 + ∑ k, Ideal.exp (s j k - m') * v j k)

/-- The streaming attention output at an entry. -/
def attnFlash (x : SX.Idx → EReal) (wq wk wv : SW.Idx → EReal) : SX.Idx → EReal := fun i =>
  Ideal.div
    (erun (tileScore x wq wk (i 0) (i 1)) (fun j k => proj x wv (i 0) (keyRow j k) (i 2)) 8).2.2
    (erun (tileScore x wq wk (i 0) (i 1)) (fun j k => proj x wv (i 0) (keyRow j k) (i 2)) 8).2.1

end Cert.Proof.Spec

end
-- ==== Proof.LibOnlineSoftmax.lean ====
/-
  The streaming ("online") softmax equals the plain softmax.

  A row of `n * b` real scores is read in `n` consecutive tiles of width `b`, with a real value attached to
  each score. The streaming form keeps a running maximum `m` (an extended real, `⊥` before the first tile), a
  running normaliser `l` and a running weighted sum `a`; at each tile the maximum is raised to cover the tile,
  `l` and `a` are rescaled by `exp (m_old - m_new)` and the tile's terms `exp (s - m_new)` are added. After
  `n ≥ 1` tiles of width `b ≥ 1` the quotient `a / l` is the plain softmax-weighted sum of the values over the
  whole row, the plain form subtracting the whole row's maximum. Everything is stated over the extended reals with
  the extended exponential (`exp ⊥ = 0`) and division; the inputs are real.

  Contents:
  * `coe_sum`: the cast of a finite real sum is the sum of the casts;
  * `exists_greatest`, `fold_max_coe_eq`: the fold of `max` from `⊥` over casts of reals is the cast of the
    greatest attained value;
  * `sum_tiles_nat`: a sum over `Fin (n * b)` cut into `n` tiles of width `b`;
  * `run`, `run_real`: the streaming state, and its closed form in the reals after at least one tile;
  * `softmax_real`: the plain form as one real quotient;
  * `flash_eq_softmax`: the two agree.
-/
import Idealize.ShloMosaic.PureOps.Ideal

noncomputable section

namespace Cert.Lib.OnlineSoftmax

open Idealize.ShloMosaic

/-! ### Casts of finite real sums -/

/-- The cast of a finite sum of reals is the sum of the casts. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The cast of the larger of two reals is the larger of the casts. -/
theorem coe_max (x y : ℝ) : ((max x y : ℝ) : EReal) = max (x : EReal) (y : EReal) :=
  EReal.coe_strictMono.monotone.map_max

/-- A sum of extended exponentials of real differences is the cast of the real sum. -/
theorem sum_exp_coe {ι : Type*} [Fintype ι] (t : ι → ℝ) (M : ℝ) :
    ∑ k, Ideal.exp ((t k : EReal) - (M : EReal)) = ((∑ k, Real.exp (t k - M) : ℝ) : EReal) := by
  rw [coe_sum]
  refine Finset.sum_congr rfl fun k _ => ?_
  rw [← EReal.coe_sub, Ideal.exp_coe]

/-- The same with a real weight on each term. -/
theorem sum_exp_mul_coe {ι : Type*} [Fintype ι] (t u : ι → ℝ) (M : ℝ) :
    ∑ k, Ideal.exp ((t k : EReal) - (M : EReal)) * (u k : EReal)
      = ((∑ k, Real.exp (t k - M) * u k : ℝ) : EReal) := by
  rw [coe_sum]
  refine Finset.sum_congr rfl fun k _ => ?_
  rw [← EReal.coe_sub, Ideal.exp_coe, ← EReal.coe_mul]

/-! ### The greatest value of finitely many reals -/

/-- Finitely many reals, at least one, have a greatest value, and it is attained. -/
theorem exists_greatest {ι : Type*} [Fintype ι] [Nonempty ι] (f : ι → ℝ) :
    ∃ M : ℝ, (∀ k, f k ≤ M) ∧ ∃ k, f k = M := by
  obtain ⟨k0, -, hk0⟩ := Finset.exists_max_image Finset.univ f Finset.univ_nonempty
  exact ⟨f k0, fun k => hk0 k (Finset.mem_univ k), k0, rfl⟩

/-- The fold of `max` from `⊥` over the casts of finitely many reals is the cast of their greatest value. -/
theorem fold_max_coe_eq {ι : Type*} [Fintype ι] (f : ι → ℝ) (M : ℝ)
    (hle : ∀ k, f k ≤ M) (hex : ∃ k, f k = M) :
    Finset.univ.fold max ⊥ (fun k => (f k : EReal)) = (M : EReal) := by
  apply le_antisymm
  · rw [Finset.fold_max_le]
    exact ⟨bot_le, fun k _ => EReal.coe_le_coe_iff.mpr (hle k)⟩
  · rw [Finset.le_fold_max]
    obtain ⟨k, hk⟩ := hex
    exact Or.inr ⟨k, Finset.mem_univ k, by rw [hk]⟩

/-! ### A row cut into tiles -/

/-- A sum over the first `n * b` naturals is the sum over `n` tiles of the sums over each tile's `b` elements. -/
theorem sum_range_tiles {A : Type*} [AddCommMonoid A] (n b : ℕ) (g : ℕ → A) :
    ∑ i ∈ Finset.range (n * b), g i = ∑ i ∈ Finset.range n, ∑ k ∈ Finset.range b, g (i * b + k) := by
  induction n with
  | zero => simp
  | succ n ih => rw [Nat.succ_mul, Finset.sum_range_add, ih, Finset.sum_range_succ]

/-- The same with the row indexed by `Fin (n * b)` and each tile by `Fin b`. -/
theorem sum_tiles_nat {A : Type*} [AddCommMonoid A] (n b : ℕ) (g : ℕ → A) :
    ∑ i : Fin (n * b), g i.val = ∑ i ∈ Finset.range n, ∑ k : Fin b, g (i * b + k.val) := by
  rw [← Finset.sum_range (fun i => g i), sum_range_tiles]
  refine Finset.sum_congr rfl fun i _ => ?_
  rw [Finset.sum_range (fun k => g (i * b + k))]

/-! ### The streaming state -/

/-- The streaming state after j tiles: (running maximum, running normaliser, running weighted sum). -/
def run {b : ℕ} (s v : ℕ → Fin b → ℝ) : ℕ → EReal × EReal × EReal
  | 0 => (⊥, 0, 0)
  | j + 1 =>
    let st := run s v j
    let m' : EReal := max st.1 (Finset.univ.fold max ⊥ fun k => (s j k : EReal))
    let α : EReal := Ideal.exp (st.1 - m')
    (m', α * st.2.1 + ∑ k, Ideal.exp ((s j k : EReal) - m'),
         α * st.2.2 + ∑ k, Ideal.exp ((s j k : EReal) - m') * (v j k : EReal))

theorem run_zero {b : ℕ} (s v : ℕ → Fin b → ℝ) : run s v 0 = (⊥, 0, 0) := rfl

/-- The running maximum after one more tile. -/
theorem run_succ_max {b : ℕ} (s v : ℕ → Fin b → ℝ) (j : ℕ) :
    (run s v (j + 1)).1 = max (run s v j).1 (Finset.univ.fold max ⊥ fun k => (s j k : EReal)) := rfl

/-- The running normaliser after one more tile. -/
theorem run_succ_norm {b : ℕ} (s v : ℕ → Fin b → ℝ) (j : ℕ) :
    (run s v (j + 1)).2.1 =
      Ideal.exp ((run s v j).1 - (run s v (j + 1)).1) * (run s v j).2.1
        + ∑ k, Ideal.exp ((s j k : EReal) - (run s v (j + 1)).1) := rfl

/-- The running weighted sum after one more tile. -/
theorem run_succ_acc {b : ℕ} (s v : ℕ → Fin b → ℝ) (j : ℕ) :
    (run s v (j + 1)).2.2 =
      Ideal.exp ((run s v j).1 - (run s v (j + 1)).1) * (run s v j).2.2
        + ∑ k, Ideal.exp ((s j k : EReal) - (run s v (j + 1)).1) * (v j k : EReal) := rfl

/-- Raising the subtracted maximum from `M` to `M'` rescales the sum by `exp (M - M')`; with the next tile's
    terms added this is the sum over one more tile. -/
theorem rescale_sum {b : ℕ} (s c : ℕ → Fin b → ℝ) (j : ℕ) (M M' : ℝ) :
    Real.exp (M - M') * (∑ i ∈ Finset.range j, ∑ k, Real.exp (s i k - M) * c i k)
        + ∑ k, Real.exp (s j k - M') * c j k
      = ∑ i ∈ Finset.range (j + 1), ∑ k, Real.exp (s i k - M') * c i k := by
  rw [Finset.sum_range_succ, Finset.mul_sum]
  congr 1
  refine Finset.sum_congr rfl fun i _ => ?_
  rw [Finset.mul_sum]
  refine Finset.sum_congr rfl fun k _ => ?_
  rw [← mul_assoc, ← Real.exp_add]
  congr 2
  ring

/-- The same without weights. -/
theorem rescale_sum_one {b : ℕ} (s : ℕ → Fin b → ℝ) (j : ℕ) (M M' : ℝ) :
    Real.exp (M - M') * (∑ i ∈ Finset.range j, ∑ k, Real.exp (s i k - M))
        + ∑ k, Real.exp (s j k - M')
      = ∑ i ∈ Finset.range (j + 1), ∑ k, Real.exp (s i k - M') := by
  simpa using rescale_sum s (fun _ _ => 1) j M M'

/-- After at least one tile of positive width the streaming state is real: the running maximum is the greatest score
    read so far, and the normaliser and the weighted sum are the sums, over all scores read so far, of
    `exp (score - maximum)` and of that times the value. -/
theorem run_real {b : ℕ} (hb : 0 < b) (s v : ℕ → Fin b → ℝ) (j : ℕ) (hj : 0 < j) :
    ∃ M : ℝ, (run s v j).1 = (M : EReal) ∧ (∀ i < j, ∀ k, s i k ≤ M) ∧ (∃ i < j, ∃ k, s i k = M) ∧
      (run s v j).2.1 = ((∑ i ∈ Finset.range j, ∑ k, Real.exp (s i k - M) : ℝ) : EReal) ∧
      (run s v j).2.2 = ((∑ i ∈ Finset.range j, ∑ k, Real.exp (s i k - M) * v i k : ℝ) : EReal) := by
  haveI : Nonempty (Fin b) := ⟨⟨0, hb⟩⟩
  obtain ⟨j, rfl⟩ : ∃ j', j = j' + 1 := ⟨j - 1, by omega⟩
  clear hj
  induction j with
  | zero =>
    obtain ⟨Mt, hMle, hMex⟩ := exists_greatest (s 0)
    have hfold := fold_max_coe_eq (s 0) Mt hMle hMex
    have hm : (run s v (0 + 1)).1 = (Mt : EReal) := by
      rw [run_succ_max, run_zero, hfold]
      exact max_eq_right bot_le
    refine ⟨Mt, hm, ?_, ?_, ?_, ?_⟩
    · intro i hi k
      obtain rfl : i = 0 := by omega
      exact hMle k
    · obtain ⟨k, hk⟩ := hMex
      exact ⟨0, by omega, k, hk⟩
    · rw [run_succ_norm, hm, run_zero]
      show Ideal.exp (⊥ - (Mt : EReal)) * 0 + _ = _
      rw [mul_zero, zero_add, sum_exp_coe, Finset.sum_range_one]
    · rw [run_succ_acc, hm, run_zero]
      show Ideal.exp (⊥ - (Mt : EReal)) * 0 + _ = _
      rw [mul_zero, zero_add, sum_exp_mul_coe, Finset.sum_range_one]
  | succ j ih =>
    obtain ⟨M, h1, hle, hex, h2, h3⟩ := ih
    obtain ⟨Mt, hMle, hMex⟩ := exists_greatest (s (j + 1))
    have hfold := fold_max_coe_eq (s (j + 1)) Mt hMle hMex
    have hm : (run s v (j + 1 + 1)).1 = ((max M Mt : ℝ) : EReal) := by
      rw [run_succ_max, h1, hfold, coe_max]
    refine ⟨max M Mt, hm, ?_, ?_, ?_, ?_⟩
    · intro i hi k
      rcases Nat.lt_succ_iff_lt_or_eq.mp hi with h | rfl
      · exact (hle i h k).trans (le_max_left _ _)
      · exact (hMle k).trans (le_max_right _ _)
    · rcases le_total M Mt with h | h
      · obtain ⟨k, hk⟩ := hMex
        exact ⟨j + 1, by omega, k, by rw [hk, max_eq_right h]⟩
      · obtain ⟨i, hi, k, hk⟩ := hex
        exact ⟨i, by omega, k, by rw [hk, max_eq_left h]⟩
    · rw [run_succ_norm, hm, h1, h2, ← EReal.coe_sub, Ideal.exp_coe, ← EReal.coe_mul, sum_exp_coe,
        ← EReal.coe_add, rescale_sum_one]
    · rw [run_succ_acc, hm, h1, h3, ← EReal.coe_sub, Ideal.exp_coe, ← EReal.coe_mul, sum_exp_mul_coe,
        ← EReal.coe_add, rescale_sum]

/-! ### The plain form -/

/-- The plain softmax-weighted sum over `N` real scores, `M` their greatest value, is one real quotient. -/
theorem softmax_real {N : ℕ} (x w : Fin N → ℝ) (M : ℝ) (hle : ∀ i, x i ≤ M) (hex : ∃ i, x i = M) :
    (∑ i : Fin N,
        Ideal.div (Ideal.exp ((x i : EReal) - max ⊥ (Finset.univ.fold max ⊥ fun i' : Fin N => (x i' : EReal))))
                  (0 + ∑ i' : Fin N, Ideal.exp ((x i' : EReal)
                      - max ⊥ (Finset.univ.fold max ⊥ fun i'' : Fin N => (x i'' : EReal))))
          * (w i : EReal))
      = (((∑ i, Real.exp (x i - M) * w i) / (∑ i, Real.exp (x i - M)) : ℝ) : EReal) := by
  haveI : Nonempty (Fin N) := let ⟨i, _⟩ := hex; ⟨i⟩
  have hmax : max ⊥ (Finset.univ.fold max ⊥ fun i' : Fin N => (x i' : EReal)) = (M : EReal) := by
    rw [fold_max_coe_eq x M hle hex]
    exact max_eq_right bot_le
  have hL : 0 < ∑ i, Real.exp (x i - M) :=
    Finset.sum_pos (fun i _ => Real.exp_pos _) Finset.univ_nonempty
  rw [hmax, Finset.sum_div, coe_sum, sum_exp_coe, zero_add]
  refine Finset.sum_congr rfl fun i _ => ?_
  rw [Ideal.div_coe hL.ne', ← EReal.coe_sub, Ideal.exp_coe, ← EReal.coe_mul, ← EReal.coe_mul]
  congr 1
  ring

/-! ### The two forms agree -/

/-- After `n ≥ 1` tiles of width `b ≥ 1` the streaming quotient is the plain softmax-weighted sum over the row. -/
theorem flash_eq_softmax (n b : ℕ) (hn : 0 < n) (hb : 0 < b) (x w : ℕ → ℝ) :
    Ideal.div (run (fun j (k : Fin b) => x (j * b + k.val)) (fun j (k : Fin b) => w (j * b + k.val)) n).2.2
              (run (fun j (k : Fin b) => x (j * b + k.val)) (fun j (k : Fin b) => w (j * b + k.val)) n).2.1
      = ∑ i : Fin (n * b),
          Ideal.div (Ideal.exp ((x i.val : EReal) - max ⊥ (Finset.univ.fold max ⊥ fun i' : Fin (n * b) => (x i'.val : EReal))))
                    (0 + ∑ i' : Fin (n * b), Ideal.exp ((x i'.val : EReal) - max ⊥ (Finset.univ.fold max ⊥ fun i'' : Fin (n * b) => (x i''.val : EReal))))
            * (w i.val : EReal) := by
  obtain ⟨M, -, hle, hex, h2, h3⟩ :=
    run_real hb (fun j (k : Fin b) => x (j * b + k.val)) (fun j (k : Fin b) => w (j * b + k.val)) n hn
  have hle' : ∀ i : Fin (n * b), x i.val ≤ M := by
    intro i
    have hi : i.val / b < n := Nat.div_lt_of_lt_mul (lt_of_lt_of_eq i.isLt (Nat.mul_comm n b))
    have h := hle (i.val / b) hi ⟨i.val % b, Nat.mod_lt _ hb⟩
    simpa [Nat.div_add_mod'] using h
  have hex' : ∃ i : Fin (n * b), x i.val = M := by
    obtain ⟨i, hi, k, hk⟩ := hex
    have hlt : i * b + k.val < n * b :=
      calc i * b + k.val < i * b + b := Nat.add_lt_add_left k.isLt _
        _ = (i + 1) * b := (Nat.succ_mul _ _).symm
        _ ≤ n * b := Nat.mul_le_mul_right b hi
    exact ⟨⟨i * b + k.val, hlt⟩, hk⟩
  have hL : 0 < ∑ i ∈ Finset.range n, ∑ k : Fin b, Real.exp (x (i * b + k.val) - M) := by
    haveI : Nonempty (Fin b) := ⟨⟨0, hb⟩⟩
    exact Finset.sum_pos (fun i _ => Finset.sum_pos (fun k _ => Real.exp_pos _) Finset.univ_nonempty)
      (Finset.nonempty_range_iff.mpr hn.ne')
  refine Eq.trans ?_ (softmax_real (fun i : Fin (n * b) => x i.val) (fun i => w i.val) M hle' hex').symm
  rw [h2, h3, Ideal.div_coe hL.ne', ← EReal.coe_mul,
    sum_tiles_nat n b (fun i => Real.exp (x i - M) * w i), sum_tiles_nat n b (fun i => Real.exp (x i - M))]
  congr 1
  ring

end Cert.Lib.OnlineSoftmax

end
-- ==== Proof.Bridge.lean ====
/-
  The streaming form of the attention equals the plain form when every argument entry is real.

  With real arguments every projection, score and tile score is the cast of a real; the tile scores, which carry
  the factor 1/32 inside the query projection, are the plain scores of the tile's key rows; the streaming state over
  casts of reals is the streaming state of the online-softmax law, whose quotient after the 8 tiles of 512 keys is
  the softmax-weighted sum over all 4096 keys.
-/
import proofs.«101180_j55310588838086_2_alg».proof.Proof.Spec
import proofs.«101180_j55310588838086_2_alg».proof.Proof.SpecFlash
import proofs.«101180_j55310588838086_2_alg».proof.Proof.LibOnlineSoftmax

noncomputable section

namespace Cert.Proof.Bridge

open Idealize.ShloMosaic Idealize.ShloMosaic.ValueIdx
open Cert.Proof.Spec Cert.Lib.OnlineSoftmax

/-! ### The four constants -/

/-- The word of +0.0 denotes 0. -/
theorem ofBits_zero : Ideal.ofBits .f32 0x00000000#32 = 0 := by
  simp [Ideal.ofBits, Ideal.ieee]

/-- The word of −∞ denotes ⊥. -/
theorem ofBits_negInf : Ideal.ofBits .f32 0xFF800000#32 = ⊥ := by
  simp [Ideal.ofBits, Ideal.ieee]

/-- The word of 32.0 denotes the real 32. -/
theorem ofBits_32 : Ideal.ofBits .f32 0x42000000#32 = ((32 : ℝ) : EReal) := by
  simp [Ideal.ofBits, Ideal.ieee, -EReal.coe_mul]; norm_num

/-- The word of 0.03125 denotes the real 1/32. -/
theorem ofBits_inv32 : Ideal.ofBits .f32 0x3D000000#32 = ((1 / 32 : ℝ) : EReal) := by
  simp [Ideal.ofBits, Ideal.ieee, -EReal.coe_mul]; norm_num

/-! ### Real arguments: projections and scores are casts of reals -/

/-- The projection over real arrays. -/
def projR (xr : SX.Idx → ℝ) (wr : SW.Idx → ℝ) (b : Fin 4) (r : Fin 4096) (e : Fin 1024) : ℝ :=
  ∑ d : Fin 1024, xr (ix3 b r d) * wr (ix2 e d)

/-- The scaled score over real arrays: the dot product of the two projections, times 1/32. -/
def scoreR (xr : SX.Idx → ℝ) (qr kr : SW.Idx → ℝ) (b : Fin 4) (q k : Fin 4096) : ℝ :=
  (∑ e : Fin 1024, projR xr qr b q e * projR xr kr b k e) * (1 / 32)

/-- The projection of casts of reals is the cast of the real projection. -/
theorem proj_coe (xr : SX.Idx → ℝ) (wr : SW.Idx → ℝ) (b : Fin 4) (r : Fin 4096) (e : Fin 1024) :
    proj (fun i => (xr i : EReal)) (fun i => (wr i : EReal)) b r e = (projR xr wr b r e : EReal) := by
  unfold proj projR
  rw [coe_sum]
  exact Finset.sum_congr rfl fun d _ => (EReal.coe_mul _ _).symm

/-- The scaled projection of casts of reals is the cast of the real projection times 1/32. -/
theorem projS_coe (xr : SX.Idx → ℝ) (wr : SW.Idx → ℝ) (b : Fin 4) (r : Fin 4096) (e : Fin 1024) :
    projS (fun i => (xr i : EReal)) (fun i => (wr i : EReal)) b r e = ((projR xr wr b r e * (1 / 32) : ℝ) : EReal) := by
  unfold projS projR
  rw [ofBits_inv32, Finset.sum_mul, coe_sum]
  refine Finset.sum_congr rfl fun d _ => ?_
  rw [← EReal.coe_mul, ← EReal.coe_mul, mul_assoc]

/-- The score of casts of reals is the cast of the real score. -/
theorem score_coe (xr : SX.Idx → ℝ) (qr kr : SW.Idx → ℝ) (b : Fin 4) (q k : Fin 4096) :
    score (fun i => (xr i : EReal)) (fun i => (qr i : EReal)) (fun i => (kr i : EReal)) b q k
      = (scoreR xr qr kr b q k : EReal) := by
  unfold score scoreR
  rw [ofBits_32, Ideal.div_coe (by norm_num : (32 : ℝ) ≠ 0), EReal.coe_mul, coe_sum]
  refine congrArg (fun t => t * ((1 / 32 : ℝ) : EReal)) ?_
  refine Finset.sum_congr rfl fun e _ => ?_
  rw [proj_coe, proj_coe, EReal.coe_mul]

/-- The tile score of casts of reals is the cast of the real score against the tile's key row: the factor 1/32
    carried by the query projection comes out of the sum over the features. -/
theorem tileScore_coe (xr : SX.Idx → ℝ) (qr kr : SW.Idx → ℝ) (b : Fin 4) (q : Fin 4096) :
    tileScore (fun i => (xr i : EReal)) (fun i => (qr i : EReal)) (fun i => (kr i : EReal)) b q
      = fun j k => (scoreR xr qr kr b q (keyRow j k) : EReal) := by
  funext j k
  unfold tileScore scoreR
  rw [Finset.sum_mul, coe_sum]
  refine Finset.sum_congr rfl fun e _ => ?_
  rw [projS_coe, proj_coe, ← EReal.coe_mul]
  congr 1
  ring

/-! ### The streaming state over casts of reals -/

/-- Over casts of real scores and values the streaming state is the state of the online-softmax law. -/
theorem erun_coe (sr vr : ℕ → Fin 512 → ℝ) (j : ℕ) :
    erun (fun j k => (sr j k : EReal)) (fun j k => (vr j k : EReal)) j = run sr vr j := by
  induction j with
  | zero => rfl
  | succ j ih => simp only [erun, run, ih]

/-! ### The row of 4096 keys in 8 tiles of 512 -/

/-- The key row at position `n` of the row of 4096 keys (row 0 beyond the end). -/
def keyAt (n : ℕ) : Fin 4096 := if h : n < 4096 then ⟨n, h⟩ else 0

/-- Key `k` of tile `j` sits at position `j * 512 + k` of the row. -/
theorem keyRow_eq (j : ℕ) (k : Fin 512) : keyRow j k = keyAt (j * 512 + k.val) := rfl

/-- The key row at the position of a key is that key. -/
theorem keyAt_val (k : Fin 4096) : keyAt k.val = k := by
  unfold keyAt
  rw [dif_pos k.isLt]

/-- The softmax-weighted sum of real values `ws` under real scores `xs` over the 4096 keys, the row maximum
    subtracted, in the shape the plain form spells. -/
def softRow (xs ws : Fin 4096 → ℝ) : EReal :=
  ∑ k : Fin 4096,
    Ideal.div (Ideal.exp ((xs k : EReal) - max ⊥ (Finset.univ.fold max ⊥ fun k' : Fin 4096 => (xs k' : EReal))))
              (0 + ∑ k' : Fin 4096, Ideal.exp ((xs k' : EReal)
                  - max ⊥ (Finset.univ.fold max ⊥ fun k'' : Fin 4096 => (xs k'' : EReal))))
      * (ws k : EReal)

/-- The streaming quotient after the 8 tiles of 512 keys is the softmax-weighted sum over the 4096 keys. -/
theorem flash_row (xs ws : Fin 4096 → ℝ) :
    Ideal.div (run (fun j (k : Fin 512) => xs (keyRow j k)) (fun j (k : Fin 512) => ws (keyRow j k)) 8).2.2
              (run (fun j (k : Fin 512) => xs (keyRow j k)) (fun j (k : Fin 512) => ws (keyRow j k)) 8).2.1
      = softRow xs ws := by
  have h := flash_eq_softmax 8 512 (by norm_num) (by norm_num) (fun n => xs (keyAt n)) (fun n => ws (keyAt n))
  simp only [keyAt_val] at h
  exact h

/-! ### The two forms over real arguments -/

/-- The plain form over casts of reals is the softmax-weighted sum of the real value projections under the real
    scores. -/
theorem attn_coe (xr : SX.Idx → ℝ) (qr kr vr : SW.Idx → ℝ) (b : Fin 4) (q : Fin 4096) (e : Fin 1024) :
    attn (fun i => (xr i : EReal)) (fun i => (qr i : EReal)) (fun i => (kr i : EReal)) (fun i => (vr i : EReal))
        (ix3 b q e)
      = softRow (fun k => scoreR xr qr kr b q k) (fun k => projR xr vr b k e) := by
  show ∑ k : Fin 4096,
      Ideal.div (expo _ _ _ b q k) (Ideal.ofBits .f32 0x00000000#32 + ∑ k' : Fin 4096, expo _ _ _ b q k')
        * proj _ _ b k e = _
  simp only [expo, rowMax, score_coe, proj_coe, ofBits_zero, ofBits_negInf]
  rfl

/-- The streaming form over casts of reals is the same sum. -/
theorem attnFlash_coe (xr : SX.Idx → ℝ) (qr kr vr : SW.Idx → ℝ) (b : Fin 4) (q : Fin 4096) (e : Fin 1024) :
    attnFlash (fun i => (xr i : EReal)) (fun i => (qr i : EReal)) (fun i => (kr i : EReal)) (fun i => (vr i : EReal))
        (ix3 b q e)
      = softRow (fun k => scoreR xr qr kr b q k) (fun k => projR xr vr b k e) := by
  show Ideal.div
      (erun (tileScore _ _ _ b q) (fun j k => proj _ _ b (keyRow j k) e) 8).2.2
      (erun (tileScore _ _ _ b q) (fun j k => proj _ _ b (keyRow j k) e) 8).2.1 = _
  rw [tileScore_coe]
  simp only [proj_coe]
  rw [erun_coe (fun j k => scoreR xr qr kr b q (keyRow j k)) (fun j k => projR xr vr b (keyRow j k) e)]
  exact flash_row (fun k => scoreR xr qr kr b q k) (fun k => projR xr vr b k e)

/-! ### The statement -/

/-- With every argument entry real, the streaming form of the attention equals the plain form. -/
theorem attnFlash_eq_attn (x : SX.Idx → EReal) (wq wk wv : SW.Idx → EReal)
    (hx : ∀ i, ∃ r : ℝ, x i = (r : EReal)) (hq : ∀ i, ∃ r : ℝ, wq i = (r : EReal))
    (hk : ∀ i, ∃ r : ℝ, wk i = (r : EReal)) (hv : ∀ i, ∃ r : ℝ, wv i = (r : EReal)) :
    attnFlash x wq wk wv = attn x wq wk wv := by
  choose xr hxr using hx
  choose qr hqr using hq
  choose kr hkr using hk
  choose vr hvr using hv
  obtain rfl : x = fun i => (xr i : EReal) := funext hxr
  obtain rfl : wq = fun i => (qr i : EReal) := funext hqr
  obtain rfl : wk = fun i => (kr i : EReal) := funext hkr
  obtain rfl : wv = fun i => (vr i : EReal) := funext hvr
  funext i
  obtain ⟨b, q, e, rfl⟩ : ∃ b q e, i = ix3 b q e := ⟨_, _, _, eq_ix3 i⟩
  rw [attnFlash_coe, attn_coe]

end Cert.Proof.Bridge

end
-- ==== Proof.KInduct.lean ====
/-
  The attention call's scratch state is the streaming softmax state: within a query tile, after the key tile number j
  the running maximum, normaliser and weighted sum of a row are the streaming state after j+1 tiles over that row's
  scores against the key tiles seen so far — by induction on the key tile, the first one starting from the reset
  state (−∞, 0, 0) — and the tile stored at the last key tile is the weighted sum over the normaliser.
-/
import proofs.«101180_j55310588838086_2_alg».proof.Proof.KPieces
import proofs.«101180_j55310588838086_2_alg».proof.Proof.KStepIdeal
import proofs.«101180_j55310588838086_2_alg».proof.Proof.SpecFlash
import proofs.«101180_j55310588838086_2_alg».proof.Proof.Bridge

set_option maxRecDepth 16384

noncomputable section

namespace Cert.KernelIdeal.Run

open Cert.KernelIdeal Cert.KernelIdeal.Gen Cert.KernelIdeal.StepIdeal
open Idealize.ShloMosaic Idealize.ShloMosaic.TcCoe Idealize.SL.Sem Idealize.ShloMosaic.ValueIdx
open Cert.Proof.Spec

/-- One streaming step at an entry of row `r`: if the handed state is the streaming state after `j` tiles, the
    body's step leaves the state after `j + 1`. -/
theorem step_erun (Q : Vec Ideal S2048x1024 .bf16) (X2 X3 : Vec Ideal S1x512x1024 .bf16) (M L : Vec Ideal S2048x1 .f32)
    (A : Vec Ideal S2048x1024 .f32) (s v : ℕ → Fin 512 → EReal) (j : ℕ) (r : Fin 2048) (e : Fin 1024)
    (hs : ∀ k, sc Q X2 r k = s j k) (hv : ∀ k, X3 (ix3 (0 : Fin 1) k e) = v j k)
    (hm : M (ix2 r (0 : Fin 1)) = (erun s v j).1) (hl : L (ix2 r (0 : Fin 1)) = (erun s v j).2.1)
    (ha : A (ix2 r e) = (erun s v j).2.2) :
    stepM (F := Ideal) Q X2 M (ix2 r (0 : Fin 1)) = (erun s v (j + 1)).1
    ∧ stepL (F := Ideal) Q X2 M L (ix2 r (0 : Fin 1)) = (erun s v (j + 1)).2.1
    ∧ stepAcc (F := Ideal) Q X2 X3 M A (ix2 r e) = (erun s v (j + 1)).2.2 := by
  have h9 : k1_pay9 (F := Ideal) Q X2 M (ix2 r (0 : Fin 1)) = (erun s v (j + 1)).1 := by
    rw [pay9_at, hm, Cert.Proof.Bridge.ofBits_negInf]
    simp only [hs]
    try rfl
  have h10 : k1_pay10 (F := Ideal) Q X2 M (ix2 r (0 : Fin 1)) = Ideal.exp ((erun s v j).1 - (erun s v (j + 1)).1) := by
    rw [pay10_at, h9, hm]
  have h11 : ∀ k, k1_pay11 (F := Ideal) Q X2 M (ix2 r k) = Ideal.exp (s j k - (erun s v (j + 1)).1) := fun k => by
    rw [pay11_at, h9, hs]
  refine ⟨?_, ?_, ?_⟩
  · unfold stepM; rw [pay2_eq]; exact h9
  · unfold stepL; rw [pay12_at, h10, hl]; simp only [h11]; try rfl
  · unfold stepAcc; rw [pay1_eq, pay13_at, h10, ha]; simp only [h11, hv]; try rfl

section Region1

variable (V : (c : Dev nD) → (b : Ref sig .tc) → Buf (Elt Ideal) ((c : Thread nD τ).loc b)) (c : Dev nD)

/-- The four input windows' blocks at position `n` of the grid (anything beyond the grid). -/
def xb (n : ℕ) : Vec Ideal S1x2048x1024 .bf16 := if h : n < cfg1.N then iblk1 V c 0 ⟨n, h⟩ else fun _ => 0
def wb (n : ℕ) : Vec Ideal S1024x1024 .bf16 := if h : n < cfg1.N then iblk1 V c 1 ⟨n, h⟩ else fun _ => 0
def kb (n : ℕ) : Vec Ideal S1x512x1024 .bf16 := if h : n < cfg1.N then iblk1 V c 2 ⟨n, h⟩ else fun _ => 0
def vb (n : ℕ) : Vec Ideal S1x512x1024 .bf16 := if h : n < cfg1.N then iblk1 V c 3 ⟨n, h⟩ else fun _ => 0
theorem xb_at (n : ℕ) (h : n < cfg1.N) : xb V c n = iblk1 V c 0 ⟨n, h⟩ := dif_pos h
theorem wb_at (n : ℕ) (h : n < cfg1.N) : wb V c n = iblk1 V c 1 ⟨n, h⟩ := dif_pos h
theorem kb_at (n : ℕ) (h : n < cfg1.N) : kb V c n = iblk1 V c 2 ⟨n, h⟩ := dif_pos h
theorem vb_at (n : ℕ) (h : n < cfg1.N) : vb V c n = iblk1 V c 3 ⟨n, h⟩ := dif_pos h

/-- Query tile `g`'s projected queries, its rows' scores against key tile `j`, and the value entries of column `e`. -/
def Q0 (g : ℕ) : Vec Ideal S2048x1024 .bf16 := k1_pay4 (F := Ideal) (xb V c (g * 8 + 0)) (wb V c (g * 8 + 0))
def S1 (g : ℕ) (r : Fin 2048) : ℕ → Fin 512 → EReal := fun j k => sc (Q0 V c g) (kb V c (g * 8 + j)) r k
def V1 (g : ℕ) (e : Fin 1024) : ℕ → Fin 512 → EReal := fun j k => vb V c (g * 8 + j) (ix3 (0 : Fin 1) k e)

/-- The state after key tile `j` of query tile `g`. -/
theorem inv (g : ℕ) : ∀ (j : ℕ) (hj : j < 8) (hn : g * 8 + j < cfg1.N),
    (outsAt1 V c (g * 8 + j) hn).q = Q0 V c g ∧
    ∀ (r : Fin 2048) (e : Fin 1024),
      (outsAt1 V c (g * 8 + j) hn).m (ix2 r (0 : Fin 1)) = (erun (S1 V c g r) (V1 V c g e) (j + 1)).1
      ∧ (outsAt1 V c (g * 8 + j) hn).l (ix2 r (0 : Fin 1)) = (erun (S1 V c g r) (V1 V c g e) (j + 1)).2.1
      ∧ (outsAt1 V c (g * 8 + j) hn).acc (ix2 r e) = (erun (S1 V c g r) (V1 V c g e) (j + 1)).2.2
  | 0, hj, hn => by
    have h0 : (⟨g * 8 + 0, hn⟩ : Fin cfg1.N).val % 8 = 0 := by show (g * 8 + 0) % 8 = 0; omega
    have hA : outsAt1 V c (g * 8 + 0) hn = caseA V c ⟨g * 8 + 0, hn⟩ ((hcond1_0 _).mpr h0) (notLast_of_first _ h0) :=
      outsAt1_A V c ⟨g * 8 + 0, hn⟩ h0
    rw [hA]
    refine ⟨?_, fun r e => ?_⟩
    · rw [caseA_q]; unfold Q0; rw [xb_at V c _ hn, wb_at V c _ hn]
    · obtain ⟨h1, h2, h3⟩ := step_erun
        (Q := k1_pay4 (F := Ideal) (iblk1 V c 0 ⟨g * 8 + 0, hn⟩) (iblk1 V c 1 ⟨g * 8 + 0, hn⟩))
        (X2 := iblk1 V c 2 ⟨g * 8 + 0, hn⟩) (X3 := iblk1 V c 3 ⟨g * 8 + 0, hn⟩)
        (M := k1_pay5 (F := Ideal)) (L := k1_pay6 (F := Ideal)) (A := k1_pay7 (F := Ideal))
        (S1 V c g r) (V1 V c g e) 0 r e
        (fun k => by unfold S1 Q0; rw [xb_at V c _ hn, wb_at V c _ hn, kb_at V c _ hn])
        (fun k => by unfold V1; rw [vb_at V c _ hn])
        (by rw [pay5_at, Cert.Proof.Bridge.ofBits_negInf]; rfl)
        (by rw [pay6_at, Cert.Proof.Bridge.ofBits_zero]; rfl)
        (by rw [pay7_at, Cert.Proof.Bridge.ofBits_zero]; rfl)
      rw [caseA_m, caseA_l, caseA_acc]
      exact ⟨h1, h2, h3⟩
  | j + 1, hj, hn => by
    have hn' : g * 8 + j < cfg1.N := by omega
    obtain ⟨ihq, ih⟩ := inv g j (by omega) hn'
    have h0 : ¬(⟨g * 8 + (j + 1), hn⟩ : Fin cfg1.N).val % 8 = 0 := by show ¬(g * 8 + (j + 1)) % 8 = 0; omega
    have hprev : ∀ h', outsAt1 V c ((⟨g * 8 + (j + 1), hn⟩ : Fin cfg1.N).val - 1) h' = outsAt1 V c (g * 8 + j) hn' := fun h' => rfl
    by_cases h1 : (⟨g * 8 + (j + 1), hn⟩ : Fin cfg1.N).val % 8 = 7
    · have hC : outsAt1 V c (g * 8 + (j + 1)) hn
          = caseC V c ⟨g * 8 + (j + 1), hn⟩ (fun h => h0 ((hcond1_0 _).mp h)) ((hcond1_1 _).mpr h1) (outsAt1 V c (g * 8 + j) hn') :=
        (outsAt1_C V c ⟨g * 8 + (j + 1), hn⟩ h0 h1).trans (by rw [hprev])
      rw [hC]
      refine ⟨by rw [caseC_q]; exact ihq, fun r e => ?_⟩
      obtain ⟨im, il, ia⟩ := ih r e
      obtain ⟨h1', h2', h3'⟩ := step_erun
        (Q := (outsAt1 V c (g * 8 + j) hn').q)
        (X2 := iblk1 V c 2 ⟨g * 8 + (j + 1), hn⟩) (X3 := iblk1 V c 3 ⟨g * 8 + (j + 1), hn⟩)
        (M := (outsAt1 V c (g * 8 + j) hn').m) (L := (outsAt1 V c (g * 8 + j) hn').l) (A := (outsAt1 V c (g * 8 + j) hn').acc)
        (S1 V c g r) (V1 V c g e) (j + 1) r e
        (fun k => by unfold S1; rw [ihq, kb_at V c _ hn])
        (fun k => by unfold V1; rw [vb_at V c _ hn])
        im il ia
      rw [caseC_m, caseC_l, caseC_acc]
      exact ⟨h1', h2', h3'⟩
    · have hB : outsAt1 V c (g * 8 + (j + 1)) hn
          = caseB V c ⟨g * 8 + (j + 1), hn⟩ (fun h => h0 ((hcond1_0 _).mp h)) (fun h => h1 ((hcond1_1 _).mp h)) (outsAt1 V c (g * 8 + j) hn') :=
        (outsAt1_B V c ⟨g * 8 + (j + 1), hn⟩ h0 h1).trans (by rw [hprev])
      rw [hB]
      refine ⟨by rw [caseB_q]; exact ihq, fun r e => ?_⟩
      obtain ⟨im, il, ia⟩ := ih r e
      obtain ⟨h1', h2', h3'⟩ := step_erun
        (Q := (outsAt1 V c (g * 8 + j) hn').q)
        (X2 := iblk1 V c 2 ⟨g * 8 + (j + 1), hn⟩) (X3 := iblk1 V c 3 ⟨g * 8 + (j + 1), hn⟩)
        (M := (outsAt1 V c (g * 8 + j) hn').m) (L := (outsAt1 V c (g * 8 + j) hn').l) (A := (outsAt1 V c (g * 8 + j) hn').acc)
        (S1 V c g r) (V1 V c g e) (j + 1) r e
        (fun k => by unfold S1; rw [ihq, kb_at V c _ hn])
        (fun k => by unfold V1; rw [vb_at V c _ hn])
        im il ia
      rw [caseB_m, caseB_l, caseB_acc]
      exact ⟨h1', h2', h3'⟩

/-- The tile stored at the last key tile of query tile `g`: entry (r, e) is the streaming quotient after all 8 tiles. -/
theorem out_tile (g : ℕ) (hn : g * 8 + (6 + 1) < cfg1.N) (u : Fin 1) (r : Fin 2048) (e : Fin 1024) :
    (outsAt1 V c (g * 8 + (6 + 1)) hn).out (ix3 u r e)
      = Ideal.div (erun (S1 V c g r) (V1 V c g e) 8).2.2 (erun (S1 V c g r) (V1 V c g e) 8).2.1 := by
  have hn' : g * 8 + 6 < cfg1.N := by omega
  have h0 : ¬(⟨g * 8 + (6 + 1), hn⟩ : Fin cfg1.N).val % 8 = 0 := by show ¬(g * 8 + (6 + 1)) % 8 = 0; omega
  have h1 : (⟨g * 8 + (6 + 1), hn⟩ : Fin cfg1.N).val % 8 = 7 := by show (g * 8 + (6 + 1)) % 8 = 7; omega
  have hprev : ∀ h', outsAt1 V c ((⟨g * 8 + (6 + 1), hn⟩ : Fin cfg1.N).val - 1) h' = outsAt1 V c (g * 8 + 6) hn' := fun h' => rfl
  have hC : outsAt1 V c (g * 8 + (6 + 1)) hn
      = caseC V c ⟨g * 8 + (6 + 1), hn⟩ (fun h => h0 ((hcond1_0 _).mp h)) ((hcond1_1 _).mpr h1) (outsAt1 V c (g * 8 + 6) hn') :=
    (outsAt1_C V c ⟨g * 8 + (6 + 1), hn⟩ h0 h1).trans (by rw [hprev])
  obtain ⟨-, h7⟩ := inv V c g (6 + 1) (by omega) hn
  obtain ⟨-, hl, ha⟩ := h7 r e
  rw [hC] at hl ha ⊢
  rw [caseC_out, pay3_at]
  rw [caseC_l] at hl
  rw [caseC_acc] at ha
  rw [hl, ha]

end Region1

end Cert.KernelIdeal.Run

end
-- ==== Proof.KBlocks1.lean ====
/-
  The attention call's windows and its result array, index by index: a block of the activations, of the query
  weights, of the key and of the value array read at an entry is the array at the entry the grid point's position
  names (batch = point / 16, query tile = point / 8 mod 2, key tile = point mod 8); the result array's tiles, each
  written back once at its query tile's last key tile, cover it, so every entry of the result is the streaming
  quotient of its row.
-/
import proofs.«101180_j55310588838086_2_alg».proof.Proof.KInduct
import Idealize.ShloMosaic.Lib.Pipeline.Value

set_option maxRecDepth 16384

noncomputable section

namespace Cert.KernelIdeal.Run

open Cert.KernelIdeal Cert.KernelIdeal.Gen Cert.KernelIdeal.StepIdeal
open Idealize.ShloMosaic Idealize.ShloMosaic.TcCoe Idealize.SL.Sem Idealize.ShloMosaic.ValueIdx
open Idealize.ShloMosaic.Pipeline (Dat)
open Cert.Proof.Spec

section Region1

variable (V : (c : Dev nD) → (b : Ref sig .tc) → Buf (Elt Ideal) ((c : Thread nD τ).loc b)) (c : Dev nD)

/-- The four operand arrays as the call finds them. -/
abbrev cX : S4x4096x1024.Idx → EReal := V c main_v0
abbrev cWq : S1024x1024.Idx → EReal := V c main_v4
abbrev cK : S4x4096x1024.Idx → EReal := V c main_v9_0
abbrev cV : S4x4096x1024.Idx → EReal := V c main_v9_1

/-- The windows' block indices at a grid point, decided over the 64 points. -/
theorem idx1 : ∀ t : Fin cfg1.N,
    win1_0.index t (0 : Fin 3) = t.val / 16 ∧ win1_0.index t (1 : Fin 3) = t.val / 8 % 2 ∧ win1_0.index t (2 : Fin 3) = 0
    ∧ win1_1.index t (0 : Fin 2) = 0 ∧ win1_1.index t (1 : Fin 2) = 0
    ∧ win1_2.index t (0 : Fin 3) = t.val / 16 ∧ win1_2.index t (1 : Fin 3) = t.val % 8 ∧ win1_2.index t (2 : Fin 3) = 0
    ∧ win1_3.index t (0 : Fin 3) = t.val / 16 ∧ win1_3.index t (1 : Fin 3) = t.val % 8 ∧ win1_3.index t (2 : Fin 3) = 0
    ∧ win1_4.index t (0 : Fin 3) = t.val / 16 ∧ win1_4.index t (1 : Fin 3) = t.val / 8 % 2 ∧ win1_4.index t (2 : Fin 3) = 0 :=
  (by decide +kernel : ∀ t : Fin grid1.N, _)

/-- A tile of activations at an entry. -/
theorem xb_read (n : ℕ) (hn : n < cfg1.N) (u : Fin 1) (r : Fin 2048) (d : Fin 1024) (b : Fin 4) (row : Fin 4096)
    (hb : b.val = n / 16) (hrow : row.val = n / 8 % 2 * 2048 + r.val) :
    xb V c n (ix3 u r d) = cX V c (ix3 b row d) := by
  rw [xb_at V c n hn]
  unfold iblk1
  rw [View.read_apply]
  show V c main_v0 _ = V c main_v0 _
  congr 1
  funext a
  apply Fin.ext
  obtain ⟨e0, e1, e2, -⟩ := idx1 ⟨n, hn⟩
  have hu : u.val = 0 := by omega
  match a with
  | ⟨0, _⟩ => show win1_0.index ⟨n, hn⟩ (0 : Fin 3) * 1 + 1 * u.val = b.val; rw [e0]; show n / 16 * 1 + 1 * u.val = b.val; omega
  | ⟨1, _⟩ => show win1_0.index ⟨n, hn⟩ (1 : Fin 3) * 2048 + 1 * r.val = row.val; rw [e1]; show n / 8 % 2 * 2048 + 1 * r.val = row.val; omega
  | ⟨2, _⟩ => show win1_0.index ⟨n, hn⟩ (2 : Fin 3) * 1024 + 1 * d.val = d.val; rw [e2]; omega

/-- The query weights' one block is the whole matrix. -/
theorem wb_read (n : ℕ) (hn : n < cfg1.N) (d e : Fin 1024) : wb V c n (ix2 d e) = cWq V c (ix2 d e) := by
  rw [wb_at V c n hn]
  unfold iblk1
  rw [View.read_apply]
  show V c main_v4 _ = V c main_v4 _
  congr 1
  funext a
  apply Fin.ext
  obtain ⟨-, -, -, e0, e1, -⟩ := idx1 ⟨n, hn⟩
  match a with
  | ⟨0, _⟩ => show win1_1.index ⟨n, hn⟩ (0 : Fin 2) * 1024 + 1 * d.val = d.val; rw [e0]; omega
  | ⟨1, _⟩ => show win1_1.index ⟨n, hn⟩ (1 : Fin 2) * 1024 + 1 * e.val = e.val; rw [e1]; omega

/-- A key tile at an entry. -/
theorem kb_read (n : ℕ) (hn : n < cfg1.N) (u : Fin 1) (k : Fin 512) (d : Fin 1024) (b : Fin 4) (row : Fin 4096)
    (hb : b.val = n / 16) (hrow : row.val = n % 8 * 512 + k.val) :
    kb V c n (ix3 u k d) = cK V c (ix3 b row d) := by
  rw [kb_at V c n hn]
  unfold iblk1
  rw [View.read_apply]
  show V c main_v9_0 _ = V c main_v9_0 _
  congr 1
  funext a
  apply Fin.ext
  obtain ⟨-, -, -, -, -, e0, e1, e2, -⟩ := idx1 ⟨n, hn⟩
  have hu : u.val = 0 := by omega
  match a with
  | ⟨0, _⟩ => show win1_2.index ⟨n, hn⟩ (0 : Fin 3) * 1 + 1 * u.val = b.val; rw [e0]; show n / 16 * 1 + 1 * u.val = b.val; omega
  | ⟨1, _⟩ => show win1_2.index ⟨n, hn⟩ (1 : Fin 3) * 512 + 1 * k.val = row.val; rw [e1]; show n % 8 * 512 + 1 * k.val = row.val; omega
  | ⟨2, _⟩ => show win1_2.index ⟨n, hn⟩ (2 : Fin 3) * 1024 + 1 * d.val = d.val; rw [e2]; omega

/-- A value tile at an entry. -/
theorem vb_read (n : ℕ) (hn : n < cfg1.N) (u : Fin 1) (k : Fin 512) (d : Fin 1024) (b : Fin 4) (row : Fin 4096)
    (hb : b.val = n / 16) (hrow : row.val = n % 8 * 512 + k.val) :
    vb V c n (ix3 u k d) = cV V c (ix3 b row d) := by
  rw [vb_at V c n hn]
  unfold iblk1
  rw [View.read_apply]
  show V c main_v9_1 _ = V c main_v9_1 _
  congr 1
  funext a
  apply Fin.ext
  obtain ⟨-, -, -, -, -, -, -, -, e0, e1, e2, -⟩ := idx1 ⟨n, hn⟩
  have hu : u.val = 0 := by omega
  match a with
  | ⟨0, _⟩ => show win1_3.index ⟨n, hn⟩ (0 : Fin 3) * 1 + 1 * u.val = b.val; rw [e0]; show n / 16 * 1 + 1 * u.val = b.val; omega
  | ⟨1, _⟩ => show win1_3.index ⟨n, hn⟩ (1 : Fin 3) * 512 + 1 * k.val = row.val; rw [e1]; show n % 8 * 512 + 1 * k.val = row.val; omega
  | ⟨2, _⟩ => show win1_3.index ⟨n, hn⟩ (2 : Fin 3) * 1024 + 1 * d.val = d.val; rw [e2]; omega

/-! ## The result array -/

/-- The query tile (0 … 7) and the row within it of a row of the result. -/
def gOf (i : S4x4096x1024.Idx) : ℕ := (i 0).val * 2 + (i 1).val / 2048
def rOf (i : S4x4096x1024.Idx) : Fin 2048 := ⟨(i 1).val % 2048, Nat.mod_lt _ (by decide)⟩

/-- The result array, entry by entry: the streaming quotient of the entry's row and column. -/
def Gout : S4x4096x1024.Idx → EReal := fun i =>
  Ideal.div (erun (S1 V c (gOf i) (rOf i)) (V1 V c (gOf i) (i 2)) 8).2.2 (erun (S1 V c (gOf i) (rOf i)) (V1 V c (gOf i) (i 2)) 8).2.1

theorem outsAt1_congr {n n' : ℕ} (h : n = n') (hn : n < cfg1.N) (hn' : n' < cfg1.N) : outsAt1 V c n hn = outsAt1 V c n' hn' := by
  subst h; rfl

/-- What a query tile's last key tile writes back is its tile of the result. -/
theorem flushed1_eq (t : Fin cfg1.N) (hf : (cfg1.win 4).flush t = true) :
    (dat1 V c).flushed 4 t = ((cfg1.win 4).blk t).view.read (Elt Ideal) (Gout V c) := by
  have h7 : t.val % 8 = 7 := (flush1_4 t).mp hf
  have hN : t.val < 64 := lt_of_lt_of_eq t.isLt (show cfg1.N = 64 from N_1)
  show (cfg1.win 4).cut (grid1.coords t) ((dat1 V c).after 4 t) = _
  rw [after1_4]
  have hn : t.val / 8 * 8 + (6 + 1) < cfg1.N := by have hN' : cfg1.N = 64 := N_1; omega
  rw [outsAt1_congr V c (show t.val = t.val / 8 * 8 + (6 + 1) by omega) t.isLt hn]
  funext y
  obtain ⟨u, r, e, rfl⟩ : ∃ (u : Fin 1) (r : Fin 2048) (e : Fin 1024), y = ix3 u r e := ⟨y 0, y 1, y 2, eq_ix3 y⟩
  rw [View.read_apply]
  show (outsAt1 V c (t.val / 8 * 8 + (6 + 1)) hn).out (ix3 u r e) = Gout V c (((cfg1.win 4).blk t).view.emb (ix3 u r e))
  rw [out_tile V c (t.val / 8) hn u r e]
  obtain ⟨-, -, -, -, -, -, -, -, -, -, -, e0, e1, e2⟩ := idx1 t
  have hu : u.val = 0 := by omega
  have c0 : ((((cfg1.win 4).blk t).view.emb (ix3 u r e)) 0).val = t.val / 16 := by
    show win1_4.index t (0 : Fin 3) * 1 + 1 * u.val = t.val / 16; rw [e0]; omega
  have c1 : ((((cfg1.win 4).blk t).view.emb (ix3 u r e)) 1).val = t.val / 8 % 2 * 2048 + r.val := by
    show win1_4.index t (1 : Fin 3) * 2048 + 1 * r.val = _; rw [e1]; omega
  have c2 : (((cfg1.win 4).blk t).view.emb (ix3 u r e)) 2 = e := by
    apply Fin.ext; show win1_4.index t (2 : Fin 3) * 1024 + 1 * e.val = e.val; rw [e2]; omega
  have hg : gOf (((cfg1.win 4).blk t).view.emb (ix3 u r e)) = t.val / 8 := by
    unfold gOf; rw [c0, c1]; have := r.isLt; omega
  have hr : rOf (((cfg1.win 4).blk t).view.emb (ix3 u r e)) = r := by
    apply Fin.ext; unfold rOf; show _ % 2048 = r.val; rw [c1]; have := r.isLt; omega
  unfold Gout
  rw [hg, hr, c2]

/-- An index of the result is in point `t`'s tile iff each coordinate is in the tile's range. -/
theorem mem_blk1 (t : Fin cfg1.N) (i : S4x4096x1024.Idx) :
    i ∈ ((cfg1.win 4).blk t).view.set ↔ ∀ a : Fin 3, win1_4.index t a * S1x2048x1024.size a ≤ (i a).val
      ∧ (i a).val < win1_4.index t a * S1x2048x1024.size a + S1x2048x1024.size a := by
  show i ∈ ((View.whole main_v10).slice (win1_4.rect t)).set ↔ _
  rw [View.set_slice_whole, Rect.mem_set_unit]
  exact Iff.rfl

/-- Every entry of the result lies in the tile some query tile's last point writes back. -/
theorem cover1 (i : S4x4096x1024.Idx) :
    ∃ t : Fin cfg1.N, (cfg1.win 4).flush t = true ∧ i ∈ ((cfg1.win 4).blk t).view.set := by
  have h0 : (i 0).val < 4 := (i 0).isLt
  have h1 : (i 1).val < 4096 := (i 1).isLt
  have h2 : (i 2).val < 1024 := (i 2).isLt
  have hN : cfg1.N = 64 := N_1
  refine ⟨⟨((i 0).val * 2 + (i 1).val / 2048) * 8 + 7, by omega⟩, (flush1_4 _).mpr (by show (((i 0).val * 2 + (i 1).val / 2048) * 8 + 7) % 8 = 7; omega), ?_⟩
  rw [mem_blk1]
  obtain ⟨-, -, -, -, -, -, -, -, -, -, -, e0, e1, e2⟩ := idx1 ⟨((i 0).val * 2 + (i 1).val / 2048) * 8 + 7, by omega⟩
  intro a
  match a with
  | ⟨0, _⟩ =>
    show win1_4.index _ (0 : Fin 3) * 1 ≤ (i 0).val ∧ (i 0).val < win1_4.index _ (0 : Fin 3) * 1 + 1
    rw [e0]; show (((i 0).val * 2 + (i 1).val / 2048) * 8 + 7) / 16 * 1 ≤ (i 0).val ∧ (i 0).val < (((i 0).val * 2 + (i 1).val / 2048) * 8 + 7) / 16 * 1 + 1; omega
  | ⟨1, _⟩ =>
    show win1_4.index _ (1 : Fin 3) * 2048 ≤ (i 1).val ∧ (i 1).val < win1_4.index _ (1 : Fin 3) * 2048 + 2048
    rw [e1]; show (((i 0).val * 2 + (i 1).val / 2048) * 8 + 7) / 8 % 2 * 2048 ≤ (i 1).val ∧ (i 1).val < (((i 0).val * 2 + (i 1).val / 2048) * 8 + 7) / 8 % 2 * 2048 + 2048; omega
  | ⟨2, _⟩ =>
    show win1_4.index _ (2 : Fin 3) * 1024 ≤ (i 2).val ∧ (i 2).val < win1_4.index _ (2 : Fin 3) * 1024 + 1024
    rw [e2]; omega

/-- The result array after the call. -/
theorem final1 : (dat1 V c).arrAt 4 cfg1.N = Gout V c :=
  (dat1 V c).arrAt_eq_of_cover 4 (Gout V c) (fun t hf => flushed1_eq V c t hf) (cover1)

end Region1

end Cert.KernelIdeal.Run

end
-- ==== Proof.KBlocks0.lean ====
/-
  What the attention call finds in its operands: the ten host operations read at an entry (the activations
  unchanged by the change of format, the three weight matrices transposed, the query weights also scaled by 1/32), and
  the key and value arrays the projection call leaves: every tile of 2048 rows written back once, each entry the
  activations' row against a column of the transposed weights.
-/
import proofs.«101180_j55310588838086_2_alg».proof.Proof.KMain
import proofs.«101180_j55310588838086_2_alg».proof.Proof.KStepIdeal
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.Run

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The arrays involved, as functions into the extended reals -/

/-- The four argument arrays. -/
abbrev aX (c : Dev nD) : S4x4096x1024.Idx → EReal := m ((c : Thread nD τ).loc main_arg0)
abbrev aQ (c : Dev nD) : S1024x1024.Idx → EReal := m ((c : Thread nD τ).loc main_arg1)
abbrev aK (c : Dev nD) : S1024x1024.Idx → EReal := m ((c : Thread nD τ).loc main_arg2)
abbrev aV (c : Dev nD) : S1024x1024.Idx → EReal := m ((c : Thread nD τ).loc main_arg3)
/-- What the host operations leave: the activations, and the three transposed weight matrices. -/
abbrev hX (c : Dev nD) : S4x4096x1024.Idx → EReal := VV1 m c main_v0
abbrev hWq (c : Dev nD) : S1024x1024.Idx → EReal := VV1 m c main_v4
abbrev hWk (c : Dev nD) : S1024x1024.Idx → EReal := VV1 m c main_v6
abbrev hWv (c : Dev nD) : S1024x1024.Idx → EReal := VV1 m c main_v8
/-- The key and value arrays after the projection call. -/
abbrev arrK (c : Dev nD) : S4x4096x1024.Idx → EReal := (dat0 (VV1 m) c).arrAt 3 cfg0.N
abbrev arrV (c : Dev nD) : S4x4096x1024.Idx → EReal := (dat0 (VV1 m) c).arrAt 4 cfg0.N

/-! ## The host operations before the calls, at an entry -/

/-- A transposed matrix read at (d, e) is the matrix at (e, d). -/
theorem kb0_transposed_at (A : S1024x1024.Idx → EReal) (d e : Fin 1024) :
    transpose (s := S1024x1024) S1024x1024 [1, 0] A transposes_S1024x1024_S1024x1024_1_0 (ix2 d e) = A (ix2 e d) :=
  transpose_apply [1, 0] A transposes_S1024x1024_S1024x1024_1_0 (ix2 d e) (ix2 e d)
    (fun b => match b with | ⟨0, _⟩ => rfl | ⟨1, _⟩ => rfl)

/-- The activations in the narrower format are the activations. -/
theorem hostV0 (c : Dev nD) (i : S4x4096x1024.Idx) : hX m c i = aX m c i := by
  have h : (VV1 m c main_v0 : S4x4096x1024.Idx → EReal)
      = truncf (F := Ideal) (s := S4x4096x1024) (φ := .f32) .bf16 (m ((c : Thread nD τ).loc main_arg0)) bitsLt_bf16_f32 := by
    dsimp only [VV1, W1, W0, hostOps0]; after_results
  show (VV1 m c main_v0 : S4x4096x1024.Idx → EReal) i = _
  rw [h]; rfl

/-- The query weights: transposed and scaled by 1/32. -/
theorem hostV4 (c : Dev nD) (d e : Fin 1024) :
    hWq m c (ix2 d e) = aQ m c (ix2 e d) * Ideal.ofBits .f32 0x3D000000#32 := by
  have h : (VV1 m c main_v4 : S1024x1024.Idx → EReal)
      = truncf (F := Ideal) (s := S1024x1024) (φ := .f32) .bf16
          (mulf (F := Ideal) (s := S1024x1024) (φ := .f32)
            (transpose (s := S1024x1024) S1024x1024 [1, 0] (m ((c : Thread nD τ).loc main_arg1)) transposes_S1024x1024_S1024x1024_1_0)
            (broadcastInDim (s := S_) S1024x1024 ![] bcast_S_S1024x1024 (constant (F := Ideal) S_ .f32 0x3D000000#32)))
          bitsLt_bf16_f32 := by
    dsimp only [VV1, W1, W0, hostOps0]; after_results
  show (VV1 m c main_v4 : S1024x1024.Idx → EReal) (ix2 d e) = _
  rw [h]
  show transpose (s := S1024x1024) S1024x1024 [1, 0] (aQ m c) transposes_S1024x1024_S1024x1024_1_0 (ix2 d e)
      * broadcastInDim (s := S_) S1024x1024 ![] bcast_S_S1024x1024 (constant (F := Ideal) S_ .f32 0x3D000000#32) (ix2 d e) = _
  rw [kb0_transposed_at (aQ m c) d e,
    broadcastInDim_apply ![] bcast_S_S1024x1024 (constant (F := Ideal) S_ .f32 0x3D000000#32) (ix2 d e) (fun a => a.elim0) (fun a => a.elim0)]
  rfl

/-- The key weights, transposed. -/
theorem hostV6 (c : Dev nD) (d e : Fin 1024) : hWk m c (ix2 d e) = aK m c (ix2 e d) := by
  have h : (VV1 m c main_v6 : S1024x1024.Idx → EReal)
      = truncf (F := Ideal) (s := S1024x1024) (φ := .f32) .bf16
          (transpose (s := S1024x1024) S1024x1024 [1, 0] (m ((c : Thread nD τ).loc main_arg2)) transposes_S1024x1024_S1024x1024_1_0) bitsLt_bf16_f32 := by
    dsimp only [VV1, W1, W0, hostOps0]; after_results
  show (VV1 m c main_v6 : S1024x1024.Idx → EReal) (ix2 d e) = _
  rw [h]
  exact kb0_transposed_at (aK m c) d e

/-- The value weights, transposed. -/
theorem hostV8 (c : Dev nD) (d e : Fin 1024) : hWv m c (ix2 d e) = aV m c (ix2 e d) := by
  have h : (VV1 m c main_v8 : S1024x1024.Idx → EReal)
      = truncf (F := Ideal) (s := S1024x1024) (φ := .f32) .bf16
          (transpose (s := S1024x1024) S1024x1024 [1, 0] (m ((c : Thread nD τ).loc main_arg3)) transposes_S1024x1024_S1024x1024_1_0) bitsLt_bf16_f32 := by
    dsimp only [VV1, W1, W0, hostOps0]; after_results
  show (VV1 m c main_v8 : S1024x1024.Idx → EReal) (ix2 d e) = _
  rw [h]
  exact kb0_transposed_at (aV m c) d e

/-! ## The arrays the projection call leaves -/

theorem kb0_zero3 : (![0, 0, 0] : Fin 3 → Nat) = fun _ => 0 := funext fun a => by fin_cases a <;> rfl
theorem kb0_zero2 : (![0, 0] : Fin 2 → Nat) = fun _ => 0 := funext fun a => by fin_cases a <;> rfl

/-- The block indices at point t: the activations' window and the two outputs' windows sit at batch t / 2, row tile
    t % 2, column tile 0; the two weight windows stay at (0, 0). -/
theorem kb0_index : ∀ t : Fin cfg0.N,
    win0_0.index t (0 : Fin 3) = t.val / 2 ∧ win0_0.index t (1 : Fin 3) = t.val % 2 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 2 ∧ win0_3.index t (1 : Fin 3) = t.val % 2 ∧ win0_3.index t (2 : Fin 3) = 0
    ∧ win0_4.index t (0 : Fin 3) = t.val / 2 ∧ win0_4.index t (1 : Fin 3) = t.val % 2 ∧ win0_4.index t (2 : Fin 3) = 0 :=
  (by decide +kernel : ∀ t : Fin grid0.N, _)

/-- The activations' block at point t, at an entry: the activations at batch t / 2, row (t % 2) · 2048 + the row
    inside the tile, the same column. -/
theorem kb0_actBlock_at (c : Dev nD) (t : Fin cfg0.N) (y : S1x2048x1024.Idx) (k : S4x4096x1024.Idx)
    (hk0 : (k 0).val = t.val / 2) (hk1 : (k 1).val = (t.val % 2) * 2048 + (y 1).val) (hk2 : (k 2).val = (y 2).val) :
    (iblk0 (VV1 m) c 0 t : Vec Ideal S1x2048x1024 .bf16) y = hX m c k := by
  obtain ⟨e0, e1, e2, -⟩ := kb0_index t
  unfold iblk0
  rw [View.read_apply]
  show VV1 m c main_v0 _ = VV1 m c main_v0 _
  congr 1
  funext a
  apply Fin.ext
  match a with
  | ⟨0, _⟩ => show win0_0.index t (0 : Fin 3) * 1 + 1 * (y 0).val = (k 0).val; have hy : (y 0).val < 1 := (y 0).isLt; omega
  | ⟨1, _⟩ => show win0_0.index t (1 : Fin 3) * 2048 + 1 * (y 1).val = (k 1).val; omega
  | ⟨2, _⟩ => show win0_0.index t (2 : Fin 3) * 1024 + 1 * (y 2).val = (k 2).val; omega

/-- The key weights' block at any point is the whole transposed matrix. -/
theorem kb0_keyWBlock_at (c : Dev nD) (t : Fin cfg0.N) (y : S1024x1024.Idx) :
    (iblk0 (VV1 m) c 1 t : Vec Ideal S1024x1024 .bf16) y = hWk m c y := by
  obtain ⟨-, -, -, e0, e1, -⟩ := kb0_index t
  unfold iblk0
  rw [View.read_apply]
  show VV1 m c main_v6 _ = VV1 m c main_v6 _
  congr 1
  funext a
  apply Fin.ext
  match a with
  | ⟨0, _⟩ => show win0_1.index t (0 : Fin 2) * 1024 + 1 * (y 0).val = (y 0).val; omega
  | ⟨1, _⟩ => show win0_1.index t (1 : Fin 2) * 1024 + 1 * (y 1).val = (y 1).val; omega

/-- The value weights' block at any point is the whole transposed matrix. -/
theorem kb0_valWBlock_at (c : Dev nD) (t : Fin cfg0.N) (y : S1024x1024.Idx) :
    (iblk0 (VV1 m) c 2 t : Vec Ideal S1024x1024 .bf16) y = hWv m c y := by
  obtain ⟨-, -, -, -, -, e0, e1, -⟩ := kb0_index t
  unfold iblk0
  rw [View.read_apply]
  show VV1 m c main_v8 _ = VV1 m c main_v8 _
  congr 1
  funext a
  apply Fin.ext
  match a with
  | ⟨0, _⟩ => show win0_2.index t (0 : Fin 2) * 1024 + 1 * (y 0).val = (y 0).val; omega
  | ⟨1, _⟩ => show win0_2.index t (1 : Fin 2) * 1024 + 1 * (y 1).val = (y 1).val; omega

/-- The key array as one function of what the host operations leave: entry (b, r, e) is row r of batch b of the
    activations against column e of the transposed key weights. -/
abbrev kb0_keyFun (c : Dev nD) : S4x4096x1024.Idx → EReal :=
  fun i => ∑ d : Fin 1024, hX m c (ix3 (i 0) (i 1) d) * hWk m c (ix2 d (i 2))
/-- The value array likewise, with the transposed value weights. -/
abbrev kb0_valFun (c : Dev nD) : S4x4096x1024.Idx → EReal :=
  fun i => ∑ d : Fin 1024, hX m c (ix3 (i 0) (i 1) d) * hWv m c (ix2 d (i 2))

/-- The key tile of point t at an entry is the entry of the key function its place in the array names. -/
theorem kb0_keyTile_at (c : Dev nD) (t : Fin cfg0.N) (u : Fin 1) (r : Fin 2048) (e : Fin 1024) (k : S4x4096x1024.Idx)
    (hk0 : (k 0).val = t.val / 2) (hk1 : (k 1).val = (t.val % 2) * 2048 + r.val) (hk2 : (k 2).val = e.val) :
    k0_pay2 (F := Ideal) (iblk0 (VV1 m) c 0 t) (iblk0 (VV1 m) c 1 t) (ix3 u r e) = kb0_keyFun m c k := by
  rw [Cert.KernelIdeal.StepIdeal.kpay2_at (iblk0 (VV1 m) c 0 t) (iblk0 (VV1 m) c 1 t) u r e]
  have he : k 2 = e := Fin.ext hk2
  show _ = ∑ d : Fin 1024, hX m c (ix3 (k 0) (k 1) d) * hWk m c (ix2 d (k 2))
  rw [he]
  refine Finset.sum_congr rfl fun d _ => ?_
  rw [kb0_actBlock_at m c t (ix3 (0 : Fin 1) r d) (ix3 (k 0) (k 1) d) hk0 hk1 rfl, kb0_keyWBlock_at m c t (ix2 d e)]

/-- The value tile of point t at an entry is the entry of the value function its place in the array names. -/
theorem kb0_valTile_at (c : Dev nD) (t : Fin cfg0.N) (u : Fin 1) (r : Fin 2048) (e : Fin 1024) (k : S4x4096x1024.Idx)
    (hk0 : (k 0).val = t.val / 2) (hk1 : (k 1).val = (t.val % 2) * 2048 + r.val) (hk2 : (k 2).val = e.val) :
    k0_pay3 (F := Ideal) (iblk0 (VV1 m) c 0 t) (iblk0 (VV1 m) c 2 t) (ix3 u r e) = kb0_valFun m c k := by
  rw [Cert.KernelIdeal.StepIdeal.kpay3_at (iblk0 (VV1 m) c 0 t) (iblk0 (VV1 m) c 2 t) u r e]
  have he : k 2 = e := Fin.ext hk2
  show _ = ∑ d : Fin 1024, hX m c (ix3 (k 0) (k 1) d) * hWv m c (ix2 d (k 2))
  rw [he]
  refine Finset.sum_congr rfl fun d _ => ?_
  rw [kb0_actBlock_at m c t (ix3 (0 : Fin 1) r d) (ix3 (k 0) (k 1) d) hk0 hk1 rfl, kb0_valWBlock_at m c t (ix2 d e)]

/-- What point t writes back to the key array is block t of the key function. -/
theorem kb0_flushedKey (c : Dev nD) (t : Fin cfg0.N) :
    (dat0 (VV1 m) c).flushed 3 t = ((cfg0.win 3).blk t).view.read (Elt Ideal) (kb0_keyFun m c) := by
  show (cfg0.win 3).cut (grid0.coords t) ((dat0 (VV1 m) c).after 3 t) = _
  rw [after0_3]
  unfold out0_3
  rw [View.canon_unit_zero kb0_zero3]
  rw [View.ld_unit_zero (S := S1x2048x1024) kb0_zero3, View.ld_unit_zero (S := S1024x1024) kb0_zero2]
  obtain ⟨-, -, -, -, -, -, -, e0, e1, e2, -⟩ := kb0_index t
  funext y
  show k0_pay2 (F := Ideal) (iblk0 (VV1 m) c 0 t) (iblk0 (VV1 m) c 1 t) ((cfg0.win 3).xinj (grid0.coords t) y)
    = kb0_keyFun m c (((cfg0.win 3).blk t).view.emb y)
  have hy : (cfg0.win 3).xinj (grid0.coords t) y = ix3 (n0 := 1) (n1 := 2048) (n2 := 1024) (y 0) (y 1) (y 2) := by
    funext a; match a with | ⟨0, _⟩ => rfl | ⟨1, _⟩ => rfl | ⟨2, _⟩ => rfl
  refine (congrArg (k0_pay2 (F := Ideal) (iblk0 (VV1 m) c 0 t) (iblk0 (VV1 m) c 1 t)) hy).trans ?_
  refine kb0_keyTile_at m c t (y 0) (y 1) (y 2) _ ?_ ?_ ?_
  · show win0_3.index t (0 : Fin 3) * 1 + 1 * (y 0).val = _
    have hy0 : (y 0).val < 1 := (y 0).isLt
    omega
  · show win0_3.index t (1 : Fin 3) * 2048 + 1 * (y 1).val = _
    omega
  · show win0_3.index t (2 : Fin 3) * 1024 + 1 * (y 2).val = _
    omega

/-- What point t writes back to the value array is block t of the value function. -/
theorem kb0_flushedVal (c : Dev nD) (t : Fin cfg0.N) :
    (dat0 (VV1 m) c).flushed 4 t = ((cfg0.win 4).blk t).view.read (Elt Ideal) (kb0_valFun m c) := by
  show (cfg0.win 4).cut (grid0.coords t) ((dat0 (VV1 m) c).after 4 t) = _
  rw [after0_4]
  unfold out0_4
  rw [View.canon_unit_zero kb0_zero3]
  rw [View.ld_unit_zero (S := S1x2048x1024) kb0_zero3, View.ld_unit_zero (S := S1024x1024) kb0_zero2]
  obtain ⟨-, -, -, -, -, -, -, -, -, -, e0, e1, e2⟩ := kb0_index t
  funext y
  show k0_pay3 (F := Ideal) (iblk0 (VV1 m) c 0 t) (iblk0 (VV1 m) c 2 t) ((cfg0.win 4).xinj (grid0.coords t) y)
    = kb0_valFun m c (((cfg0.win 4).blk t).view.emb y)
  have hy : (cfg0.win 4).xinj (grid0.coords t) y = ix3 (n0 := 1) (n1 := 2048) (n2 := 1024) (y 0) (y 1) (y 2) := by
    funext a; match a with | ⟨0, _⟩ => rfl | ⟨1, _⟩ => rfl | ⟨2, _⟩ => rfl
  refine (congrArg (k0_pay3 (F := Ideal) (iblk0 (VV1 m) c 0 t) (iblk0 (VV1 m) c 2 t)) hy).trans ?_
  refine kb0_valTile_at m c t (y 0) (y 1) (y 2) _ ?_ ?_ ?_
  · show win0_4.index t (0 : Fin 3) * 1 + 1 * (y 0).val = _
    have hy0 : (y 0).val < 1 := (y 0).isLt
    omega
  · show win0_4.index t (1 : Fin 3) * 2048 + 1 * (y 1).val = _
    omega
  · show win0_4.index t (2 : Fin 3) * 1024 + 1 * (y 2).val = _
    omega

/-- An entry of the key array is in point t's block iff each coordinate is in the block's range on its axis. -/
theorem kb0_memKey (t : Fin cfg0.N) (i : S4x4096x1024.Idx) :
    i ∈ ((cfg0.win 3).blk t).view.set ↔ ∀ a : Fin 3, win0_3.index t a * S1x2048x1024.size a ≤ (i a).val ∧ (i a).val < win0_3.index t a * S1x2048x1024.size a + S1x2048x1024.size a := by
  show i ∈ ((View.whole main_v9_0).slice (win0_3.rect t)).set ↔ _
  rw [View.set_slice_whole, Rect.mem_set_unit]
  exact Iff.rfl

/-- The same for the value array. -/
theorem kb0_memVal (t : Fin cfg0.N) (i : S4x4096x1024.Idx) :
    i ∈ ((cfg0.win 4).blk t).view.set ↔ ∀ a : Fin 3, win0_4.index t a * S1x2048x1024.size a ≤ (i a).val ∧ (i a).val < win0_4.index t a * S1x2048x1024.size a + S1x2048x1024.size a := by
  show i ∈ ((View.whole main_v9_1).slice (win0_4.rect t)).set ↔ _
  rw [View.set_slice_whole, Rect.mem_set_unit]
  exact Iff.rfl

/-- Every entry of the key array is in some point's block: row r of batch b in the block of point 2 b + r / 2048. -/
theorem kb0_coverKey (i : S4x4096x1024.Idx) : ∃ t : Fin cfg0.N, (cfg0.win 3).flush t = true ∧ i ∈ ((cfg0.win 3).blk t).view.set := by
  have h0 : (i 0).val < 4 := (i 0).isLt
  have h1 : (i 1).val < 4096 := (i 1).isLt
  have h2 : (i 2).val < 1024 := (i 2).isLt
  obtain ⟨t, htv⟩ : ∃ t : Fin cfg0.N, t.val = (i 0).val * 2 + (i 1).val / 2048 :=
    ⟨⟨(i 0).val * 2 + (i 1).val / 2048, by rw [show cfg0.N = 8 from N_0]; omega⟩, rfl⟩
  refine ⟨t, flush0_3 t, ?_⟩
  rw [kb0_memKey]
  obtain ⟨-, -, -, -, -, -, -, e0, e1, e2, -⟩ := kb0_index t
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 1024 ≤ (i 2).val ∧ (i 2).val < win0_3.index t (2 : Fin 3) * 1024 + 1024; omega

/-- Every entry of the value array is in some point's block. -/
theorem kb0_coverVal (i : S4x4096x1024.Idx) : ∃ t : Fin cfg0.N, (cfg0.win 4).flush t = true ∧ i ∈ ((cfg0.win 4).blk t).view.set := by
  have h0 : (i 0).val < 4 := (i 0).isLt
  have h1 : (i 1).val < 4096 := (i 1).isLt
  have h2 : (i 2).val < 1024 := (i 2).isLt
  obtain ⟨t, htv⟩ : ∃ t : Fin cfg0.N, t.val = (i 0).val * 2 + (i 1).val / 2048 :=
    ⟨⟨(i 0).val * 2 + (i 1).val / 2048, by rw [show cfg0.N = 8 from N_0]; omega⟩, rfl⟩
  refine ⟨t, flush0_4 t, ?_⟩
  rw [kb0_memVal]
  obtain ⟨-, -, -, -, -, -, -, -, -, -, e0, e1, e2⟩ := kb0_index t
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 2048 ≤ (i 1).val ∧ (i 1).val < win0_4.index t (1 : Fin 3) * 2048 + 2048; omega
  | ⟨2, _⟩ => show win0_4.index t (2 : Fin 3) * 1024 ≤ (i 2).val ∧ (i 2).val < win0_4.index t (2 : Fin 3) * 1024 + 1024; omega

/-- The key array after the projection call is the key function. -/
theorem kb0_finalKey (c : Dev nD) : (dat0 (VV1 m) c).arrAt 3 cfg0.N = kb0_keyFun m c :=
  (dat0 (VV1 m) c).arrAt_eq_of_cover 3 (kb0_keyFun m c) (fun t _ => kb0_flushedKey m c t) kb0_coverKey

/-- The value array after the projection call is the value function. -/
theorem kb0_finalVal (c : Dev nD) : (dat0 (VV1 m) c).arrAt 4 cfg0.N = kb0_valFun m c :=
  (dat0 (VV1 m) c).arrAt_eq_of_cover 4 (kb0_valFun m c) (fun t _ => kb0_flushedVal m c t) kb0_coverVal

/-- The key array: entry (b, r, e) is row r of batch b of the activations against column e of the transposed key weights. -/
theorem final0_3 (c : Dev nD) (b : Fin 4) (r : Fin 4096) (e : Fin 1024) :
    arrK m c (ix3 b r e) = ∑ d : Fin 1024, hX m c (ix3 b r d) * hWk m c (ix2 d e) :=
  congrFun (kb0_finalKey m c) (ix3 b r e)

/-- The value array, likewise with the transposed value weights. -/
theorem final0_4 (c : Dev nD) (b : Fin 4) (r : Fin 4096) (e : Fin 1024) :
    arrV m c (ix3 b r e) = ∑ d : Fin 1024, hX m c (ix3 b r d) * hWv m c (ix2 d e) :=
  congrFun (kb0_finalVal m c) (ix3 b r e)

end Cert.KernelIdeal.Run

end
-- ==== Proof.KValue.lean ====
/-
  The kernel's result is the streaming attention of its arguments: what the attention call's rows, scores and
  values are in terms of the four argument arrays (the projected and scaled queries; the key and value arrays the
  projection call left), so that the result array is the streaming form of the specification.
-/
import proofs.«101180_j55310588838086_2_alg».proof.Proof.KBlocks1
import proofs.«101180_j55310588838086_2_alg».proof.Proof.KBlocks0

set_option maxRecDepth 16384

noncomputable section

namespace Cert.KernelIdeal.Run

open Cert.KernelIdeal Cert.KernelIdeal.Gen Cert.KernelIdeal.StepIdeal
open Idealize.ShloMosaic Idealize.ShloMosaic.TcCoe Idealize.SL.Sem Idealize.ShloMosaic.ValueIdx
open Idealize.ShloMosaic.Pipeline (Dat)
open Cert.Proof.Spec

/-- The streaming state after `n` tiles depends on the first `n` tiles only. -/
theorem erun_congr (s s' v v' : ℕ → Fin 512 → EReal) : ∀ n : ℕ, (∀ j < n, ∀ k, s j k = s' j k) → (∀ j < n, ∀ k, v j k = v' j k) →
    erun s v n = erun s' v' n
  | 0, _, _ => rfl
  | n + 1, hs, hv => by
    have ih := erun_congr s s' v v' n (fun j hj => hs j (by omega)) (fun j hj => hv j (by omega))
    have e1 : (fun k => s n k) = fun k => s' n k := funext fun k => hs n (by omega) k
    have e2 : (fun k => v n k) = fun k => v' n k := funext fun k => hv n (by omega) k
    show (max (erun s v n).1 (Finset.univ.fold max ⊥ fun k => s n k),
        Ideal.exp ((erun s v n).1 - max (erun s v n).1 (Finset.univ.fold max ⊥ fun k => s n k)) * (erun s v n).2.1
          + ∑ k, Ideal.exp (s n k - max (erun s v n).1 (Finset.univ.fold max ⊥ fun k => s n k)),
        Ideal.exp ((erun s v n).1 - max (erun s v n).1 (Finset.univ.fold max ⊥ fun k => s n k)) * (erun s v n).2.2
          + ∑ k, Ideal.exp (s n k - max (erun s v n).1 (Finset.univ.fold max ⊥ fun k => s n k)) * v n k)
      = (max (erun s' v' n).1 (Finset.univ.fold max ⊥ fun k => s' n k),
        Ideal.exp ((erun s' v' n).1 - max (erun s' v' n).1 (Finset.univ.fold max ⊥ fun k => s' n k)) * (erun s' v' n).2.1
          + ∑ k, Ideal.exp (s' n k - max (erun s' v' n).1 (Finset.univ.fold max ⊥ fun k => s' n k)),
        Ideal.exp ((erun s' v' n).1 - max (erun s' v' n).1 (Finset.univ.fold max ⊥ fun k => s' n k)) * (erun s' v' n).2.2
          + ∑ k, Ideal.exp (s' n k - max (erun s' v' n).1 (Finset.univ.fold max ⊥ fun k => s' n k)) * v' n k)
    rw [ih, e1]
    simp only [hs n (by omega), hv n (by omega)]

variable (m : (ℓ : Loc nD τ sig) → Buf (Elt Ideal) ℓ) (c : Dev nD)

/-! ## The attention call's operands are what the host operations and the projection call left -/

theorem cX_eq (i : S4x4096x1024.Idx) : cX (VV2 m) c i = aX m c i :=
  (congrFun ((W2_arr m c 0).trans (((dat0 (VV1 m) c).arrAt_in 0 rfl _).trans (A_eq0 (VV1 m) c 0))) i).trans (hostV0 m c i)
theorem cWq_eq (d e : Fin 1024) : cWq (VV2 m) c (ix2 d e) = aQ m c (ix2 e d) * Ideal.ofBits .f32 0x3D000000#32 :=
  (congrFun (W2_of_ne m c main_v4 (by decide)) (ix2 d e)).trans (hostV4 m c d e)
theorem cK_eq (b : Fin 4) (r : Fin 4096) (e : Fin 1024) : cK (VV2 m) c (ix3 b r e) = proj (aX m c) (aK m c) b r e := by
  refine (congrFun (W2_arr m c 3) (ix3 b r e)).trans ((final0_3 m c b r e).trans ?_)
  unfold proj
  exact Finset.sum_congr rfl fun d _ => by rw [hostV0, hostV6]
theorem cV_eq (b : Fin 4) (r : Fin 4096) (e : Fin 1024) : cV (VV2 m) c (ix3 b r e) = proj (aX m c) (aV m c) b r e := by
  refine (congrFun (W2_arr m c 4) (ix3 b r e)).trans ((final0_4 m c b r e).trans ?_)
  unfold proj
  exact Finset.sum_congr rfl fun d _ => by rw [hostV0, hostV8]

/-! ## Its rows' scores and values are the specification's -/

/-- The projected queries of query tile `g`: the scaled projection of the batch's rows. -/
theorem Q0_at (g : ℕ) (hg : g < 8) (r : Fin 2048) (d : Fin 1024) (b : Fin 4) (row : Fin 4096)
    (hb : b.val = g / 2) (hrow : row.val = g % 2 * 2048 + r.val) :
    Q0 (VV2 m) c g (ix2 r d) = projS (aX m c) (aQ m c) b row d := by
  have hn : g * 8 + 0 < cfg1.N := by have hN' : cfg1.N = 64 := N_1; omega
  unfold Q0 projS
  rw [pay4_at]
  refine Finset.sum_congr rfl fun d' _ => ?_
  rw [xb_read (VV2 m) c (g * 8 + 0) hn (0 : Fin 1) r d' b row (by omega) (by omega), wb_read (VV2 m) c (g * 8 + 0) hn d' d,
    cX_eq, cWq_eq]

/-- A row's score against key `k` of tile `j`. -/
theorem S1_at (g : ℕ) (hg : g < 8) (r : Fin 2048) (j : ℕ) (hj : j < 8) (k : Fin 512) (b : Fin 4) (row : Fin 4096)
    (hb : b.val = g / 2) (hrow : row.val = g % 2 * 2048 + r.val) :
    S1 (VV2 m) c g r j k = tileScore (aX m c) (aQ m c) (aK m c) b row j k := by
  have hn : g * 8 + j < cfg1.N := by have hN' : cfg1.N = 64 := N_1; omega
  have hkr : (keyRow j k).val = j * 512 + k.val := by unfold keyRow; rw [dif_pos (by have := k.isLt; omega)]
  unfold S1 sc tileScore
  refine Finset.sum_congr rfl fun d _ => ?_
  rw [Q0_at m c g hg r d b row hb hrow,
    kb_read (VV2 m) c (g * 8 + j) hn (0 : Fin 1) k d b (keyRow j k) (by omega) (by rw [hkr]; omega), cK_eq]

/-- The value entries of column `e`. -/
theorem V1_at (g : ℕ) (hg : g < 8) (e : Fin 1024) (j : ℕ) (hj : j < 8) (k : Fin 512) (b : Fin 4) (hb : b.val = g / 2) :
    V1 (VV2 m) c g e j k = proj (aX m c) (aV m c) b (keyRow j k) e := by
  have hn : g * 8 + j < cfg1.N := by have hN' : cfg1.N = 64 := N_1; omega
  have hkr : (keyRow j k).val = j * 512 + k.val := by unfold keyRow; rw [dif_pos (by have := k.isLt; omega)]
  unfold V1
  rw [vb_read (VV2 m) c (g * 8 + j) hn (0 : Fin 1) k e b (keyRow j k) (by omega) (by rw [hkr]; omega), cV_eq]

/-- THE KERNEL'S RESULT: the streaming attention of the four argument arrays. -/
theorem result_eq : ((dat1 (VV2 m) c).arrAt 4 cfg1.N : S4x4096x1024.Idx → EReal)
    = attnFlash (aX m c) (aQ m c) (aK m c) (aV m c) := by
  rw [final1 (VV2 m) c]
  funext i
  have h0 : (i 0).val < 4 := (i 0).isLt
  have h1 : (i 1).val < 4096 := (i 1).isLt
  have hg : gOf i < 8 := by unfold gOf; omega
  have hb : (i 0).val = gOf i / 2 := by unfold gOf; omega
  have hrow : (i 1).val = gOf i % 2 * 2048 + (rOf i).val := by unfold gOf rOf; show _ = _ + (i 1).val % 2048; omega
  unfold Gout attnFlash
  rw [erun_congr (S1 (VV2 m) c (gOf i) (rOf i)) (tileScore (aX m c) (aQ m c) (aK m c) (i 0) (i 1))
      (V1 (VV2 m) c (gOf i) (i 2)) (fun j k => proj (aX m c) (aV m c) (i 0) (keyRow j k) (i 2)) 8
      (fun j hj k => S1_at m c (gOf i) hg (rOf i) j hj k (i 0) (i 1) hb hrow)
      (fun j hj k => V1_at m c (gOf i) hg (i 2) j hj k (i 0) hb)]

end Cert.KernelIdeal.Run

end
-- ==== Proof.RefSide.lean ====
/-
  The reference's softmax attention read at an index.
-/
import proofs.«101180_j55310588838086_2_alg».proof.Defs
import proofs.«101180_j55310588838086_2_alg».proof.Proof.Gen.ReferenceIdeal.Run
import proofs.«101180_j55310588838086_2_alg».proof.Proof.Gen.ReferenceIdeal.Read
import proofs.«101180_j55310588838086_2_alg».proof.Proof.Spec
import Idealize.ShloMosaic.Lib.ValueIdx
import Idealize.ShloMosaic.Lib.ValueLayout
import Idealize.ShloMosaic.PureOps.Ideal.Laws

noncomputable section

namespace Cert.Proof.RefSide

open Idealize.ShloMosaic Idealize.ShloMosaic.TcCoe Idealize.SL.Sem
open Idealize.ShloMosaic.ValueIdx
open Cert.ReferenceIdeal Cert.ReferenceIdeal.Gen Cert.ReferenceIdeal.Read Idealize.ShloMosaic.StableHlo

/-- The activations at the extended reals: a function of (batch, row, feature). -/
abbrev XT : Type := (⟨S4x4096x1024, .f32⟩ : BufTy).Contents (Elt Ideal)
/-- A weight matrix at the extended reals: a function of (output feature, input feature). -/
abbrev WT : Type := (⟨S1024x1024, .f32⟩ : BufTy).Contents (Elt Ideal)

/-- Two rank-2 indices with equal coordinates are equal. -/
local macro "idx2" : tactic =>
  `(tactic| exact funext fun a => by match a with | ⟨0, _⟩ => rfl | ⟨1, _⟩ => rfl)
/-- Two rank-3 indices with equal coordinates are equal. -/
local macro "idx3" : tactic =>
  `(tactic| exact funext fun a => by match a with | ⟨0, _⟩ => rfl | ⟨1, _⟩ => rfl | ⟨2, _⟩ => rfl)

/-! ## The projections -/

/-- The first projection at (b, r, e) is x · Wᵀ there: the sum over the features d of x (b, r, d) · W (e, d). -/
theorem v0_at (x0 : XT) (x1 : WT) (b : Fin 4) (r : Fin 4096) (e : Fin 1024) :
    val_main_v0 (F := Ideal) x0 x1 (ix3 b r e) = Spec.proj x0 x1 b r e := by
  rw [val_main_v0_apply]
  unfold Spec.proj
  refine Finset.sum_congr rfl fun d _ => ?_
  have hl : lidx_main_v0 (ix3 b r e) d = ix3 b r d := by idx3
  have hr : ridx_main_v0 (ix3 b r e) d = ix2 e d := by idx2
  rw [hl, hr]

/-- The second projection is the same bilinear form against its own weight matrix. -/
theorem v1_at (x0 : XT) (x2 : WT) (b : Fin 4) (r : Fin 4096) (e : Fin 1024) :
    val_main_v1 (F := Ideal) x0 x2 (ix3 b r e) = Spec.proj x0 x2 b r e := v0_at x0 x2 b r e

/-- The third projection likewise. -/
theorem v2_at (x0 : XT) (x3 : WT) (b : Fin 4) (r : Fin 4096) (e : Fin 1024) :
    val_main_v2 (F := Ideal) x0 x3 (ix3 b r e) = Spec.proj x0 x3 b r e := v0_at x0 x3 b r e

/-! ## The scores -/

/-- The scaled score at (b, q, k): the dot product of query row q with key row k over the features, divided by 32. -/
theorem v5_at (x0 : XT) (x1 x2 : WT) (b : Fin 4) (q k : Fin 4096) :
    val_main_v5 (F := Ideal) x0 x1 x2 (ix3 b q k) = Spec.score x0 x1 x2 b q k := by
  rw [val_main_v5_apply, val_main_v3_apply, val_main_v4_apply, val_main_cst_apply]
  unfold Spec.score
  refine congrArg (fun s => Ideal.div s (Ideal.ofBits .f32 0x42000000#32)) (Finset.sum_congr rfl fun e _ => ?_)
  have hl : lidx_main_v3 (ix3 b q k) e = ix3 b q e := by idx3
  have hr : ridx_main_v3 (ix3 b q k) e = ix3 b k e := by idx3
  rw [hl, hr, v0_at, v1_at]

/-! ## The row maximum -/

/-- The row index (b, q) with key coordinate k put back on the reduced axis is (b, q, k). -/
theorem lift_at (h : S4x4096x4096.Reduces [2] S4x4096) (b : Fin 4) (q : Fin 4096) (k : Fin (S4x4096x4096.size 2)) :
    h.lift (ix2 b q) k = ix3 b q (⟨k.val, k.isLt⟩ : Fin 4096) := by
  funext c; apply Fin.ext
  fin_cases c <;> rfl

/-- The maximum-reduce over the keys at row (b, q) is the fold of max from −∞ over the row's scores. -/
theorem v6_at (x0 : XT) (x1 x2 : WT) (b : Fin 4) (q : Fin 4096) :
    val_main_v6 (F := Ideal) x0 x1 x2 (ix2 b q)
      = Finset.univ.fold max (Ideal.ofBits .f32 0xFF800000#32) fun k : Fin 4096 => Spec.score x0 x1 x2 b q k := by
  have h : S4x4096x4096.Reduces [2] S4x4096 := by decide
  unfold val_main_v6
  rw [Host.reduce_eq_fold_single FloatOps.maximumf _ _ reducesTo_S4x4096x4096_S4x4096_d2 h h_S_]
  have hf : (val_main_v5 (F := Ideal) x0 x1 x2 ∘ h.lift (ix2 b q)) = fun k : Fin 4096 => Spec.score x0 x1 x2 b q k :=
    funext fun k => (by rw [Function.comp_apply, lift_at, v5_at] :
      (val_main_v5 (F := Ideal) x0 x1 x2 ∘ h.lift (ix2 b q)) k = Spec.score x0 x1 x2 b q ⟨k.val, k.isLt⟩)
  exact congrArg (fun f => Finset.fold max (Ideal.ofBits .f32 0xFF800000#32) f (Finset.univ : Finset (Fin 4096))) hf

/-- The row maximum joined with −∞ once more is the specification's. -/
theorem v8_at (x0 : XT) (x1 x2 : WT) (b : Fin 4) (q : Fin 4096) :
    val_main_v8 (F := Ideal) x0 x1 x2 (ix2 b q) = Spec.rowMax x0 x1 x2 b q := by
  rw [val_main_v8_apply, val_main_v7_apply, val_main_cst_1_apply, v6_at]
  rfl

/-! ## The exponentials -/

/-- The exponential of a score less its row's maximum, the maximum broadcast along the keys. -/
theorem v12_at (x0 : XT) (x1 x2 : WT) (b : Fin 4) (q k : Fin 4096) :
    val_main_v12 (F := Ideal) x0 x1 x2 (ix3 b q k) = Spec.expo x0 x1 x2 b q k := by
  rw [val_main_v12_apply, val_main_v11_apply, val_main_v10_apply, val_main_v9_apply]
  have hi : idx_main_v9 (idx_main_v10 (ix3 b q k)) = ix2 b q := by idx2
  rw [hi, v8_at, v5_at]
  rfl

/-! ## The denominator -/

/-- The row sum of the exponentials, from the zero word. -/
theorem v13_at (x0 : XT) (x1 x2 : WT) (b : Fin 4) (q : Fin 4096) :
    val_main_v13 (F := Ideal) x0 x1 x2 (ix2 b q)
      = Ideal.ofBits .f32 0x00000000#32 + ∑ k : Fin 4096, Spec.expo x0 x1 x2 b q k := by
  rw [val_main_v13_apply, val_main_cst_2_apply]
  refine congrArg (Ideal.ofBits .f32 0x00000000#32 + ·) (Finset.sum_congr rfl fun k _ => ?_)
  have hi : idx_main_v13 (ix2 b q) k = ix3 b q k := by idx3
  rw [hi, v12_at]

/-! ## The weights -/

/-- A softmax weight: the exponential over its row's sum, the sum broadcast along the keys. -/
theorem v16_at (x0 : XT) (x1 x2 : WT) (b : Fin 4) (q k : Fin 4096) :
    val_main_v16 (F := Ideal) x0 x1 x2 (ix3 b q k)
      = Ideal.div (Spec.expo x0 x1 x2 b q k)
          (Ideal.ofBits .f32 0x00000000#32 + ∑ k' : Fin 4096, Spec.expo x0 x1 x2 b q k') := by
  rw [val_main_v16_apply, val_main_v15_apply, val_main_v14_apply]
  have hi : idx_main_v14 (idx_main_v15 (ix3 b q k)) = ix2 b q := by idx2
  rw [hi, v13_at, v12_at]
  rfl

/-! ## The output -/

/-- The reference's result, index by index, is the specification: the weights of row q summed against column e of the values. -/
theorem ref_eq (x0 : (⟨Cert.ReferenceIdeal.S4x4096x1024, .f32⟩ : BufTy).Contents (Elt Ideal))
    (x1 x2 x3 : (⟨Cert.ReferenceIdeal.S1024x1024, .f32⟩ : BufTy).Contents (Elt Ideal)) :
    Cert.ReferenceIdeal.Read.val_main_v17 (F := Ideal) x0 x1 x2 x3 = Cert.Proof.Spec.attn x0 x1 x2 x3 := by
  funext i
  obtain ⟨b, q, e, rfl⟩ : ∃ b q e, i = ix3 b q e := ⟨i 0, i 1, i 2, eq_ix3 i⟩
  rw [val_main_v17_apply]
  show _ = ∑ k : Fin 4096,
    Ideal.div (Spec.expo x0 x1 x2 b q k) (Ideal.ofBits .f32 0x00000000#32 + ∑ k' : Fin 4096, Spec.expo x0 x1 x2 b q k')
      * Spec.proj x0 x3 b k e
  refine Finset.sum_congr rfl fun k _ => ?_
  have hl : lidx_main_v17 (ix3 b q e) k = ix3 b q k := by idx3
  have hr : ridx_main_v17 (ix3 b q e) k = ix3 b k e := by idx3
  rw [hl, hr, v16_at, v2_at]

/-! ## The run -/

/-- Every weakly fair execution of the reference ends with its result array at the specification of the arguments'
    initial contents, and the four arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v17)
          = Spec.attn (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono
    (fun _ h c => ⟨(h c).1.trans ((val_main_v17_eq (F := Ideal) _ _ _ _).trans (ref_eq _ _ _ _)), (h c).2⟩)
    (Cert.ReferenceIdeal.Value.run (F := Ideal) m ρ)

end Cert.Proof.RefSide

end
-- ==== Proof.LibFinite.lean ====
/-
  Finite extended reals and the operations that keep them finite.

  An extended real is FINITE when it is the cast of a real number. The laws that fail at the infinities
  (distributivity, cancelling a subtraction, moving a factor across a sum) hold between finite values, so a proof that
  needs one of them first shows that the values it is applied to are finite. Finite values are closed under sums,
  differences, products, finite sums, maxima, the quotient by a nonzero finite value, and the reciprocal square root of
  a positive one; a scatter that ADDS finite updates into a finite array leaves it finite, whatever the indices say
  (an entry receives the sum of the updates that land on it, a finite sum, possibly empty).
-/
import Mathlib.Data.EReal.Operations
import Mathlib.Algebra.BigOperators.Ring.Finset
import Idealize.ShloMosaic.PureOps.Ideal

namespace Cert.Finite

open Idealize.ShloMosaic

/-- The extended real `x` is the cast of a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem isReal_one : IsReal (1 : EReal) := ⟨1, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

/-- Finite is: neither infinity. -/
theorem isReal_iff {x : EReal} : IsReal x ↔ x ≠ ⊤ ∧ x ≠ ⊥ := by
  refine ⟨fun h => ⟨h.ne_top, h.ne_bot⟩, fun ⟨ht, hb⟩ => ?_⟩
  induction x using EReal.rec with
  | bot => exact absurd rfl hb
  | coe r => exact ⟨r, rfl⟩
  | top => exact absurd rfl ht

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases max_choice x y with h | h <;> rw [h] <;> assumption

/-- A finite sum of finite values is finite. -/
theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The quotient of a finite value by a nonzero finite one is finite. -/
theorem IsReal.div_coe {x : EReal} (hx : IsReal x) {y : ℝ} (hy : y ≠ 0) : IsReal (Ideal.div x (y : EReal)) := by
  rw [Ideal.div_coe hy]; exact hx.mul (isReal_coe _)

/-- In particular by a finite value that is at least one (a count of neighbours clamped from below at one). -/
theorem IsReal.div_of_one_le {x y : EReal} (hx : IsReal x) (hy : IsReal y) (h1 : 1 ≤ y) : IsReal (Ideal.div x y) := by
  obtain ⟨b, rfl⟩ := hy
  have hb : (1 : ℝ) ≤ b := by exact_mod_cast h1
  exact hx.div_coe (by linarith : b ≠ 0)

/-- The reciprocal square root of a positive finite value is finite. -/
theorem isReal_rsqrt_of_pos {r : ℝ} (hr : 0 < r) : IsReal (Ideal.rsqrt (r : EReal)) := by
  rw [Ideal.rsqrt_coe, if_neg (not_lt.2 hr.le), if_neg hr.ne']
  exact isReal_coe _

/-- A row of a matrix product: the sum of the products of finite entries is finite. -/
theorem isReal_dot {K : Type*} [Fintype K] (a b : K → EReal) (ha : ∀ k, IsReal (a k)) (hb : ∀ k, IsReal (b k)) :
    IsReal (∑ k, a k * b k) :=
  IsReal.sum _ _ fun k _ => (ha k).mul (hb k)

/-- A scatter that adds finite updates into a finite array leaves every entry finite, whatever the indices are. -/
theorem isReal_hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) :=
  (hx i).add (IsReal.sum _ _ fun j _ => hu j)

end Cert.Finite
-- ==== Proof.LibAllFinite.lean ====
/-
  A precondition's "every entry is finite" test, read back at an entry.

  A printed precondition tests an array by comparing each entry's absolute value against the value of the word
  0x7F800000, which is +inf, and folding the comparisons with "and" into one bit. When that bit is 1 every comparison
  is 1; an extended real whose absolute value is strictly below +inf is neither infinity, so it is the cast of a
  real number. Stated for an array of any shape reduced over any axes into a single bit.
-/
import proofs.«101180_j55310588838086_2_alg».proof.Proof.LibFinite
import Idealize.ShloMosaic.Lib.ReduceAll
import Idealize.ShloMosaic.Lib.ValueIdx
import Idealize.ShloMosaic.Lib.Pipeline.Value
import Idealize.ShloMosaic.PureOps.Ideal.Laws

noncomputable section

namespace Cert.Lib.AllFinite

open Idealize.ShloMosaic Idealize.ShloMosaic.ValueIdx Cert.Finite

/-- The shape of a single bit has one index. -/
instance : Subsingleton (⟨0, ![]⟩ : Shape).Idx := ⟨fun a b => funext fun d => d.elim0⟩

/-- The word 0x7F800000 denotes +inf. -/
theorem inf_word : Ideal.ofBits .f32 0x7F800000#32 = ⊤ := by
  simp [Ideal.ofBits, Ideal.ieee]

/-- An extended real whose absolute value compares below +inf is the cast of a real. -/
theorem isReal_of_abs_lt (x : EReal) (h : Ideal.cmp .olt (max x (-x)) (Ideal.ofBits .f32 0x7F800000#32) = 1#1) :
    IsReal x := by
  rw [inf_word] at h
  induction x using EReal.rec with
  | bot => simp [Ideal.cmp] at h
  | coe r => exact ⟨r, rfl⟩
  | top => simp [Ideal.cmp] at h

/-- One array's test, read at an index: if the fold by "and" of the comparisons |a_i| < +inf, started from 1, is 1,
    then every entry of the array is the cast of a real. -/
theorem entry_of_all {s : Shape} {axes : List (Fin s.rank)} (a : FVec Ideal s .f32)
    (hb : (⟨0, ![]⟩ : Shape).BroadcastsInDim s (![] : Fin 0 → Fin s.rank))
    (hr : s.ReducesTo axes ⟨0, ![]⟩) (hu : 0 < (⟨0, ![]⟩ : Shape).numel) (j : (⟨0, ![]⟩ : Shape).Idx)
    (e : Host.reduce IntOp.andi
        (cmpf .olt (Host.absf a) (broadcastInDim s ![] hb (constant (F := Ideal) ⟨0, ![]⟩ .f32 0x7F800000#32)))
        (constantI ⟨0, ![]⟩ 1 1#1) hr hu j = 1#1) (i : s.Idx) : IsReal (a i) := by
  have h := Host.reduce_andi_all _ _ hr hu j e i
  refine isReal_of_abs_lt (a i) ?_
  rw [cmpf_apply, broadcastInDim_apply _ hb _ i (fun d => d.elim0) (fun d => d.elim0)] at h
  exact h

end Cert.Lib.AllFinite

end
-- ==== Proof.KFinite.lean ====
/-
  The precondition read back at an entry: every entry of the four argument arrays is the cast of a real number.

  The precondition's function tests each of its four arrays by "every |x| < +inf", one bit per array, and joins the
  four bits by "and" as ((t0 and t1) and t2) and t3. When the joined bit is 1 each of the four is 1, and a test that
  is 1 says every entry of its array is neither infinity.
-/
import proofs.«101180_j55310588838086_2_alg».proof.Defs
import proofs.«101180_j55310588838086_2_alg».proof.Proof.Gen.Pre_finite_inputs
import proofs.«101180_j55310588838086_2_alg».proof.Proof.LibAllFinite

noncomputable section

namespace Cert.Proof.Finite

open Idealize.ShloMosaic Idealize.SL.Sem Cert.Finite

/-- If the precondition's function of four arrays is the bit 1, every entry of each array is the cast of a real. -/
theorem real_of_pre [hP : Cert.Pre_finite_inputs.Facts] (a0 : FVec Ideal Cert.Pre_finite_inputs.S4x4096x1024 .f32)
    (a1 a2 a3 : FVec Ideal Cert.Pre_finite_inputs.S1024x1024 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) := by
  have h0 := congrFun h ValueIdx.ix0
  unfold Cert.Pre_finite_inputs.fn Cert.Pre_finite_inputs.fn_part1 at h0
  dsimp only at h0
  unfold andi at h0
  obtain ⟨h012, e3⟩ := IntOp.andi_eq_one.1 h0
  obtain ⟨h01, e2⟩ := IntOp.andi_eq_one.1 h012
  obtain ⟨e0, e1⟩ := IntOp.andi_eq_one.1 h01
  exact ⟨fun i => Cert.Lib.AllFinite.entry_of_all a0 _ _ _ _ e0 i,
    fun i => Cert.Lib.AllFinite.entry_of_all a1 _ _ _ _ e1 i,
    fun i => Cert.Lib.AllFinite.entry_of_all a2 _ _ _ _ e2 i,
    fun i => Cert.Lib.AllFinite.entry_of_all a3 _ _ _ _ e3 i⟩

/-- The same, for the kernel's four argument arrays under the claim's precondition, on every device. -/
theorem real_of_Pre [hK : Cert.KernelIdeal.Facts] [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal)) :=
  real_of_pre _ _ _ _ (hpre c)

end Cert.Proof.Finite

end
-- ==== Proof.lean ====
/-
  Single-head attention with linear projections over f32[4, 4096, 1024]: a two-call kernel — the key and value
  projections, then a streaming ("online") softmax attention with the query projection fused in and the score scale
  1/32 folded into the query weights — against the plain formulation (project, scale the scores by 1/32, softmax along
  the keys, weight the values).

  Both idealized programs compute, at every entry, the same extended real. The kernel visits a query row's 4096 keys
  in 8 tiles of 512 and keeps a running maximum m, a running normaliser l and a running weighted sum a, rescaling
  l and a by exp (m_old − m_new) at each tile; after the last tile a / l is the softmax-weighted sum, because
  exp (m_old − m_new) · exp (s − m_old) = exp (s − m_new) and the last maximum is the row's. The scale may be
  folded into the query weights because every input is finite: (Σ_d x_d (w_d / 32)) · k = (Σ_d x_d w_d) · k / 32
  holds over the reals. The kernel's run is proved once for any reading of the floats (its two frames follow from it);
  the scratch buffers' contents after each grid point are identified with the streaming state by induction on the key
  tile; the reference's result is read one operation at a time.
-/
import proofs.«101180_j55310588838086_2_alg».proof.Defs
import proofs.«101180_j55310588838086_2_alg».proof.Proof.Gen.Kernel
import proofs.«101180_j55310588838086_2_alg».proof.Proof.Gen.KernelIdeal
import proofs.«101180_j55310588838086_2_alg».proof.Proof.Gen.ReferenceIdeal
import proofs.«101180_j55310588838086_2_alg».proof.Proof.Gen.Pre_finite_inputs
import proofs.«101180_j55310588838086_2_alg».proof.Proof.BMain
import proofs.«101180_j55310588838086_2_alg».proof.Proof.KMain
import proofs.«101180_j55310588838086_2_alg».proof.Proof.KValue
import proofs.«101180_j55310588838086_2_alg».proof.Proof.RefSide
import proofs.«101180_j55310588838086_2_alg».proof.Proof.Bridge
import proofs.«101180_j55310588838086_2_alg».proof.Proof.KFinite

noncomputable section

namespace Cert.Proof

open Idealize.ShloMosaic Idealize.SL.Sem

/-- The word-level kernel terminates, faults nowhere and leaves its arguments unchanged: its run, the result dropped. -/
theorem frame_k : Cert.frame_Kernel (hKernel := Cert.Kernel.Gen.facts) (hPre_finite_inputs := Cert.Pre_finite_inputs.Gen.facts) :=
  fun m ρ _ => (θ_run Cert.Kernel.defs _ _).mono (fun _ h c => (h c).2) (Cert.Kernel.Run.run_main (F := Bits) m ρ)

/-- The same for the idealized kernel. -/
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.Run.run_main (F := Ideal) m ρ)

/-- The reference is straight-line host code: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.Proof.RefSide.ref_run m ρ)

/-- From memories agreeing on finite arguments both idealized programs end with the plain attention of the arguments:
    the kernel's streaming form is the plain one on finite inputs, the reference's is the plain one as printed. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Proof.Spec.attn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩)
      (Cert.KernelIdeal.Run.run_main (F := Ideal) m ρ)
    obtain ⟨h0, h1, h2, h3⟩ := Cert.Proof.Finite.real_of_Pre m hpre c
    exact (Cert.KernelIdeal.Run.result_eq m c).trans (Cert.Proof.Bridge.attnFlash_eq_attn _ _ _ _ h0 h1 h2 h3)
  · refine (θ_run Cert.ReferenceIdeal.defs _ _).mono (fun _ h c => ⟨(h c).1.trans ?_, (h c).2⟩)
      (Cert.Proof.RefSide.ref_run m' ρ')
    rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
